-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x128 : Shape := ⟨2, ![64, 128]⟩
abbrev S1024x256 : Shape := ⟨2, ![1024, 256]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩

abbrev nBuf : Space → Nat
  | .hbm => 36
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S64x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S64x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S1x8192, .f32⟩
  | .hbm, ⟨27, _⟩ => ⟨S64x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1x8192, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | .local _ .vmem, ⟨7, _⟩ => ⟨S1024x256, .f32⟩
  | .local _ .vmem, ⟨8, _⟩ => ⟨S1024x256, .f32⟩
  | .local _ .vmem, ⟨9, _⟩ => ⟨S8192x256, .f32⟩
  | .local _ .vmem, ⟨10, _⟩ => ⟨S1x8192, .f32⟩
  | .local _ .vmem, ⟨11, _⟩ => ⟨S8x128, .f32⟩
  | .local _ .vmem, ⟨12, _⟩ => ⟨S8x128, .f32⟩
  | .local _ .vmem, ⟨13, _⟩ => ⟨S1x1, .f32⟩
  | .local _ .vmem, ⟨14, _⟩ => ⟨S1024x256, .f32⟩
  | .local _ .vmem, ⟨15, _⟩ => ⟨S1024x256, .f32⟩
  | .local _ .vmem, ⟨16, _⟩ => ⟨S8192x256, .f32⟩
  | .local _ .vmem, ⟨17, _⟩ => ⟨S1x8192, .f32⟩
  | .local _ .vmem, ⟨18, _⟩ => ⟨S8x128, .f32⟩
  | .local _ .vmem, ⟨19, _⟩ => ⟨S8x128, .f32⟩
  | .local _ .vmem, ⟨20, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32_11 : BitVec 32 := 0#32
  let c0_i32 : BitVec 32 := 0#32
  let c1_i32 : BitVec 32 := 1#32
  let arg6 : BitVec 32 := Scf.iv c0_i32 c1_i32 k0_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  v18
def k0_off1 (k0_t1 : Fin k0_t1_loop.trips) : Fin 2 → Nat :=
  let c0_i32_11 : BitVec 32 := 0#32
  let c0_i32 : BitVec 32 := 0#32
  let c1_i32 : BitVec 32 := 1#32
  let arg6 : BitVec 32 := Scf.iv c0_i32 c1_i32 k0_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v20 : Index := Scalar.indexCast v19
  let c0_12 : Index := 0#32
  ![v20.toNat, 0]
def k0_off2 (k0_t1 : Fin k0_t1_loop.trips) : Fin 2 → Nat :=
  let c0_13 : Index := 0#32
  let c0_i32_11 : BitVec 32 := 0#32
  let c0_i32 : BitVec 32 := 0#32
  let c1_i32 : BitVec 32 := 1#32
  let arg6 : BitVec 32 := Scf.iv c0_i32 c1_i32 k0_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v22 : Index := Scalar.indexCast v19
  ![0, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k1_mult1 (k1_t1 : Fin k1_t1_loop.trips) : BitVec 32 :=
  let c0_i32_11 : BitVec 32 := 0#32
  let c0_i32 : BitVec 32 := 0#32
  let c1_i32 : BitVec 32 := 1#32
  let arg6 : BitVec 32 := Scf.iv c0_i32 c1_i32 k1_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  v18
def k1_off1 (k1_t1 : Fin k1_t1_loop.trips) : Fin 2 → Nat :=
  let c0_i32_11 : BitVec 32 := 0#32
  let c0_i32 : BitVec 32 := 0#32
  let c1_i32 : BitVec 32 := 1#32
  let arg6 : BitVec 32 := Scf.iv c0_i32 c1_i32 k1_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v20 : Index := Scalar.indexCast v19
  let c0_12 : Index := 0#32
  ![v20.toNat, 0]
def k1_off2 (k1_t1 : Fin k1_t1_loop.trips) : Fin 2 → Nat :=
  let c0_13 : Index := 0#32
  let c0_i32_11 : BitVec 32 := 0#32
  let c0_i32 : BitVec 32 := 0#32
  let c1_i32 : BitVec 32 := 1#32
  let arg6 : BitVec 32 := Scf.iv c0_i32 c1_i32 k1_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v22 : Index := Scalar.indexCast v19
  ![0, v22.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

@[reducible] def k2_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k2_mult1 (k2_t1 : Fin k2_t1_loop.trips) : BitVec 32 :=
  let c0_i32_11 : BitVec 32 := 0#32
  let c0_i32 : BitVec 32 := 0#32
  let c1_i32 : BitVec 32 := 1#32
  let arg6 : BitVec 32 := Scf.iv c0_i32 c1_i32 k2_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  v18
def k2_off1 (k2_t1 : Fin k2_t1_loop.trips) : Fin 2 → Nat :=
  let c0_i32_11 : BitVec 32 := 0#32
  let c0_i32 : BitVec 32 := 0#32
  let c1_i32 : BitVec 32 := 1#32
  let arg6 : BitVec 32 := Scf.iv c0_i32 c1_i32 k2_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v20 : Index := Scalar.indexCast v19
  let c0_12 : Index := 0#32
  ![v20.toNat, 0]
def k2_off2 (k2_t1 : Fin k2_t1_loop.trips) : Fin 2 → Nat :=
  let c0_13 : Index := 0#32
  let c0_i32_11 : BitVec 32 := 0#32
  let c0_i32 : BitVec 32 := 0#32
  let c1_i32 : BitVec 32 := 1#32
  let arg6 : BitVec 32 := Scf.iv c0_i32 c1_i32 k2_t1
  let c1_i32_10 : BitVec 32 := 1#32
  let v16 : BitVec 32 := Scalar.muli arg6 c1_i32_10
  let v17 : BitVec 32 := Scalar.addi c0_i32_11 v16
  let c1024_i32 : BitVec 32 := 1024#32
  let v18 : BitVec 32 := Scalar.muli v17 c1024_i32
  let v19 : BitVec 32 := v18
  let v22 : Index := Scalar.indexCast v19
  ![0, v22.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  k0_off2_inb : ∀ k0_t1 : Fin k0_t1_loop.trips, ∀ a, (k0_off2 k0_t1) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x256.size a ≤ S8192x256.size a
  k1_off2_inb : ∀ k1_t1 : Fin k1_t1_loop.trips, ∀ a, (k1_off2 k1_t1) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S64x128.size a
  hwx1_3 : ∀ i : grid1.Coords, EltTy.bits .f32 = 32 ∨ (Rect.block (s := S64x128) S8x128.size (cc1_transform_3 i) (hinb1_3 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x256.size a ≤ S8192x256.size a
  k2_off2_inb : ∀ k2_t1 : Fin k2_t1_loop.trips, ∀ a, (k2_off2 k2_t1) a + S1x1024.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8192.size a ≤ S1x8192.size a
  hwx2_2 : ∀ i : grid2.Coords, EltTy.bits .f32 = 32 ∨ (Rect.block (s := S1x8192) S1x8192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S64x128.size a
  hwx2_3 : ∀ i : grid2.Coords, EltTy.bits .f32 = 32 ∨ (Rect.block (s := S64x128) S8x128.size (cc2_transform_3 i) (hinb2_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x8192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S8x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 99
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S256x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x256, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x256, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S1x8192, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S256x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_15 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_17 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_18 : Ref sig .tc := ⟨.hbm, 91, rfl⟩
abbrev main_v70 : Ref sig .tc := ⟨.hbm, 92, rfl⟩
abbrev main_cst_19 : Ref sig .tc := ⟨.hbm, 93, rfl⟩
abbrev main_v71 : Ref sig .tc := ⟨.hbm, 94, rfl⟩
abbrev main_v72 : Ref sig .tc := ⟨.hbm, 95, rfl⟩
abbrev main_cst_20 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KRun0.lean ====
/-
  One grid point of kernel 0: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.Kernel.Launch
import proofs.«117639_j82652350644520_2_alg».proof.Proof.Gen.Kernel.Skeleton
import proofs.«117639_j82652350644520_2_alg».proof.Proof.Gen.Kernel.Loops
import proofs.«117639_j82652350644520_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun0 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc0_kernel i arg1 harg1 arg2 harg2 arg3 harg3 arg4 harg4 arg5 harg5) K } := by
  refine ⟨?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover0_3 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun0 c i arg1 harg1 arg2 harg2 arg3 harg3 arg4 harg4 arg5 harg5 x1 x2 x3).1, y ∈ pc.1.set :=
  View.cover_of_tiledL (kernelRun0 c i arg1 harg1 arg2 harg2 arg3 harg3 arg4 harg4 arg5 harg5 x1 x2 x3).1 S8x128.size (by sl_kernel_rfl) y

/-- A whole 8×128 buffer's view, to read the pieces back through. -/
abbrev VO0_3 : View sig .tc .vmem S8x128 .f32 := (Memref.whole cc0_stg3_0 : Memref sig .tc .vmem S8x128 .f32).view

/-- What the body leaves in the output block: its pieces read back. -/
def out0_3 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO0_3.read (Elt F) (VO0_3.writes (Elt F) VO0_3.junk (kernelRun0 c i arg1 harg1 arg2 harg2 arg3 harg3 arg4 harg4 arg5 harg5 x1 x2 x3).1)

end Cert.Kernel.Hand

end
-- ==== Proof.KDat0.lean ====
/-
  Region 0: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
  The first two windows read ONE array; the core holds it for them at the two halves of the full share.
-/
import proofs.«117639_j82652350644520_2_alg».proof.Proof.KRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body at point `t`. -/
def outAt0 (c : Dev nD) (t : Fin cfg0.N) : Vec F S8x128 .f32 :=
  out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (iblk0 V c 0 t) (iblk0 V c 1 t) (iblk0 V c 2 t)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1600000 in
/-- The body at any point: the inputs' buffers hold their blocks, the accumulator comes out of the invariant at some
    contents and goes back at some contents, so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl]
  unfold Pipeline.ΦA outAt0 out0_3
  rw [scopedRest0_eq,
    show (iprop(∃ f : Buf (Elt F) ((c : Thread nD τ).loc cc0_scratch0), ((c : Thread nD τ).loc cc0_scratch0) ↦{fullShare} f) : sProp 𝕄)
      = iprop(∃ X, owns (c : Thread nD τ) (Memref.whole cc0_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc0_scratch0 : Memref sig .tc .vmem S1x1 .f32)) (Memref.isWhole_whole _) fullShare).symm]
  iintro ⟨⟨⟨Hs, A1, A2, A3, A4, A5, A6, A7, A8, A9, A10, A11, A12, A13, A14⟩, Hp⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [Hs A1 A2 A3 A4 A5 A6 A7 A8 A9 A10 A11 A12 A13 A14 Hp]
  · isplitr [Hp]
    ·
      isplitl [Hs]; · iexact Hs
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      iexact A14
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRun1.lean ====
/-
  One grid point of kernel 1: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.Kernel.Launch
import proofs.«117639_j82652350644520_2_alg».proof.Proof.Gen.Kernel.Skeleton
import proofs.«117639_j82652350644520_2_alg».proof.Proof.Gen.Kernel.Loops
import proofs.«117639_j82652350644520_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun1 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc1_kernel i arg1 harg1 arg2 harg2 arg3 harg3 arg4 harg4 arg5 harg5) K } := by
  refine ⟨?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover1_3 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun1 c i arg1 harg1 arg2 harg2 arg3 harg3 arg4 harg4 arg5 harg5 x1 x2 x3).1, y ∈ pc.1.set :=
  View.cover_of_tiledL (kernelRun1 c i arg1 harg1 arg2 harg2 arg3 harg3 arg4 harg4 arg5 harg5 x1 x2 x3).1 S8x128.size (by sl_kernel_rfl) y

/-- A whole 8×128 buffer's view, to read the pieces back through. -/
abbrev VO1_3 : View sig .tc .vmem S8x128 .f32 := (Memref.whole cc1_stg3_0 : Memref sig .tc .vmem S8x128 .f32).view

/-- What the body leaves in the output block: its pieces read back. -/
def out1_3 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO1_3.read (Elt F) (VO1_3.writes (Elt F) VO1_3.junk (kernelRun1 c i arg1 harg1 arg2 harg2 arg3 harg3 arg4 harg4 arg5 harg5 x1 x2 x3).1)

end Cert.Kernel.Hand

end
-- ==== Proof.KDat1.lean ====
/-
  Region 1: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
  The first two windows read ONE array; the core holds it for them at the two halves of the full share.
-/
import proofs.«117639_j82652350644520_2_alg».proof.Proof.KRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block after the body at point `t`. -/
def outAt1 (c : Dev nD) (t : Fin cfg1.N) : Vec F S8x128 .f32 :=
  out1_3 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (Memref.whole cc1_scratch0) (Memref.isWhole_whole _) (iblk1 V c 0 t) (iblk1 V c 1 t) (iblk1 V c 2 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point: the inputs' buffers hold their blocks, the accumulator comes out of the invariant at some
    contents and goes back at some contents, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl]
  unfold Pipeline.ΦA outAt1 out1_3
  rw [scopedRest1_eq,
    show (iprop(∃ f : Buf (Elt F) ((c : Thread nD τ).loc cc1_scratch0), ((c : Thread nD τ).loc cc1_scratch0) ↦{fullShare} f) : sProp 𝕄)
      = iprop(∃ X, owns (c : Thread nD τ) (Memref.whole cc1_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc1_scratch0 : Memref sig .tc .vmem S1x1 .f32)) (Memref.isWhole_whole _) fullShare).symm]
  iintro ⟨⟨⟨A0, A1, A2, A3, A4, A5, A6, Hs, A8, A9, A10, A11, A12, A13, A14⟩, Hp⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [A0 A1 A2 A3 A4 A5 A6 Hs A8 A9 A10 A11 A12 A13 A14 Hp]
  · isplitr [Hp]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [Hs]; · iexact Hs
      isplitl [A8]; · iexact A8
      isplitl [A9]; · iexact A9
      isplitl [A10]; · iexact A10
      isplitl [A11]; · iexact A11
      isplitl [A12]; · iexact A12
      isplitl [A13]; · iexact A13
      iexact A14
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun2.lean ====
/-
  One grid point of kernel 2: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.Kernel.Launch
import proofs.«117639_j82652350644520_2_alg».proof.Proof.Gen.Kernel.Skeleton
import proofs.«117639_j82652350644520_2_alg».proof.Proof.Gen.Kernel.Loops
import proofs.«117639_j82652350644520_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun2 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc2_kernel i arg1 harg1 arg2 harg2 arg3 harg3 arg4 harg4 arg5 harg5) K } := by
  refine ⟨?_, fun E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover2_3 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun2 c i arg1 harg1 arg2 harg2 arg3 harg3 arg4 harg4 arg5 harg5 x1 x2 x3).1, y ∈ pc.1.set :=
  View.cover_of_tiledL (kernelRun2 c i arg1 harg1 arg2 harg2 arg3 harg3 arg4 harg4 arg5 harg5 x1 x2 x3).1 S8x128.size (by sl_kernel_rfl) y

/-- A whole 8×128 buffer's view, to read the pieces back through. -/
abbrev VO2_3 : View sig .tc .vmem S8x128 .f32 := (Memref.whole cc2_stg3_0 : Memref sig .tc .vmem S8x128 .f32).view

/-- What the body leaves in the output block: its pieces read back. -/
def out2_3 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO2_3.read (Elt F) (VO2_3.writes (Elt F) VO2_3.junk (kernelRun2 c i arg1 harg1 arg2 harg2 arg3 harg3 arg4 harg4 arg5 harg5 x1 x2 x3).1)

end Cert.Kernel.Hand

end
-- ==== Proof.KDat2.lean ====
/-
  Region 2: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
-/
import proofs.«117639_j82652350644520_2_alg».proof.Proof.KRun2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body at point `t`. -/
def outAt2 (c : Dev nD) (t : Fin cfg2.N) : Vec F S8x128 .f32 :=
  out2_3 c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (Memref.whole cc2_scratch0) (Memref.isWhole_whole _) (iblk2 V c 0 t) (iblk2 V c 1 t) (iblk2 V c 2 t)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1600000 in
/-- The body at any point: the inputs' buffers hold their blocks, the accumulator comes out of the invariant at some
    contents and goes back at some contents, so the run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3,
    show (dat2 V c).Φ t.castSucc = Pipeline.ΦA spec2 c from rfl]
  unfold Pipeline.ΦA outAt2 out2_3
  rw [scopedRest2_eq,
    show (iprop(∃ f : Buf (Elt F) ((c : Thread nD τ).loc cc2_scratch0), ((c : Thread nD τ).loc cc2_scratch0) ↦{fullShare} f) : sProp 𝕄)
      = iprop(∃ X, owns (c : Thread nD τ) (Memref.whole cc2_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc2_scratch0 : Memref sig .tc .vmem S1x1 .f32)) (Memref.isWhole_whole _) fullShare).symm]
  iintro ⟨⟨⟨A0, A1, A2, A3, A4, A5, A6, A7, A8, A9, A10, A11, A12, A13, Hs⟩, Hp⟩, Ho, ⟨%d0, H0⟩, ⟨%d1, H1⟩, ⟨%d2, H2⟩, ⟨%d3, H3⟩⟩
  iapply ((kernelRun2 c (grid2.coords t) _ _ _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [A0 A1 A2 A3 A4 A5 A6 A7 A8 A9 A10 A11 A12 A13 Hs Hp]
  · isplitr [Hp]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      iexact Hs
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KOuts.lean ====
/-
  What the three regions leave, and every pipeline's proof data at its region's entry contents.

  Between @main's items a core's unscoped buffers hold: the launch contents, then each host stretch applied, then —
  after a region — the region's output array replaced by what its pipeline leaves there (the write-backs of all
  eight grid points folded into the array it found). Region 0 is entered at the contents after the first host
  stretch; what it leaves in its output array fixes the contents region 1 is entered at, and so on: the three
  outputs are defined one after the other, each from the ones before.
-/
import proofs.«117639_j82652350644520_2_alg».proof.Proof.KDat0
import proofs.«117639_j82652350644520_2_alg».proof.Proof.KDat1
import proofs.«117639_j82652350644520_2_alg».proof.Proof.KDat2
import proofs.«117639_j82652350644520_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer's contents moved along an equation of references. -/
def atRef {r r' : Ref sig .tc} (h : r' = r) {c : Dev nD} (x : Buf (Elt F) ((c : Thread nD τ).loc r)) :
    Buf (Elt F) ((c : Thread nD τ).loc r') := h ▸ x

/-- Region 0's entry contents, at the TensorCore's references. -/
abbrev E1 : (c : Dev nD) → (b : Ref sig .tc) → Buf (Elt F) ((c : Thread nD τ).loc b) := fun c b => Gen.V1 m c b
/-- What region 0 leaves in its output array. -/
def o2 (c : Dev nD) : Buf (Elt F) ((c : Thread nD τ).loc main_v4) := (dat0 (E1 m) c).arrAt 3 cfg0.N
/-- The regions' outputs, the first one fixed. -/
def outs1 : Gen.Outs (F := F) := fun _ r c =>
  if hr : r = main_v4 then atRef hr (o2 m c) else Classical.arbitrary _
theorem outs1_v4 (c : Dev nD) : outs1 m 2 main_v4 c = o2 m c := by unfold outs1; rw [dif_pos rfl]; rfl

/-- Region 1's entry contents. -/
abbrev E3 : (c : Dev nD) → (b : Ref sig .tc) → Buf (Elt F) ((c : Thread nD τ).loc b) := fun c b => Gen.V3 m (outs1 m) c b
/-- What region 1 leaves in its output array. -/
def o4 (c : Dev nD) : Buf (Elt F) ((c : Thread nD τ).loc main_v11) := (dat1 (E3 m) c).arrAt 3 cfg1.N
/-- The regions' outputs, the first two fixed. -/
def outs2 : Gen.Outs (F := F) := fun _ r c =>
  if hr : r = main_v4 then atRef hr (o2 m c) else if hr' : r = main_v11 then atRef hr' (o4 m c) else Classical.arbitrary _
theorem outs2_v4 (c : Dev nD) : outs2 m 2 main_v4 c = o2 m c := by unfold outs2; rw [dif_pos rfl]; rfl
theorem outs2_v11 (c : Dev nD) : outs2 m 4 main_v11 c = o4 m c := by
  unfold outs2; rw [dif_neg (by decide), dif_pos rfl]; rfl

/-- Region 2's entry contents. -/
abbrev E5 : (c : Dev nD) → (b : Ref sig .tc) → Buf (Elt F) ((c : Thread nD τ).loc b) := fun c b => Gen.V5 m (outs2 m) c b
/-- What region 2 leaves in its output array. -/
def o6 (c : Dev nD) : Buf (Elt F) ((c : Thread nD τ).loc main_v18) := (dat2 (E5 m) c).arrAt 3 cfg2.N
/-- The regions' outputs. -/
def outs : Gen.Outs (F := F) := fun _ r c =>
  if hr : r = main_v4 then atRef hr (o2 m c) else if hr' : r = main_v11 then atRef hr' (o4 m c)
  else if hr'' : r = main_v18 then atRef hr'' (o6 m c) else Classical.arbitrary _
theorem outs_v4 (c : Dev nD) : outs m 2 main_v4 c = o2 m c := by unfold outs; rw [dif_pos rfl]; rfl
theorem outs_v11 (c : Dev nD) : outs m 4 main_v11 c = o4 m c := by
  unfold outs; rw [dif_neg (by decide), dif_pos rfl]; rfl
theorem outs_v18 (c : Dev nD) : outs m 6 main_v18 c = o6 m c := by
  unfold outs; rw [dif_neg (by decide), dif_neg (by decide), dif_pos rfl]; rfl

/-! The contents between the items do not depend on the outputs fixed later. -/

theorem V2_outs (c : Dev nD) : Gen.V2 m (outs m) c = Gen.V2 m (outs1 m) c := by
  unfold Gen.V2; rw [outs_v4, outs1_v4]
theorem V2_outs2 (c : Dev nD) : Gen.V2 m (outs2 m) c = Gen.V2 m (outs1 m) c := by
  unfold Gen.V2; rw [outs2_v4, outs1_v4]
theorem V3_outs (c : Dev nD) : Gen.V3 m (outs m) c = Gen.V3 m (outs1 m) c := by
  unfold Gen.V3; rw [V2_outs]
theorem V3_outs2 (c : Dev nD) : Gen.V3 m (outs2 m) c = Gen.V3 m (outs1 m) c := by
  unfold Gen.V3; rw [V2_outs2]
theorem V4_outs (c : Dev nD) : Gen.V4 m (outs m) c = Gen.V4 m (outs2 m) c := by
  unfold Gen.V4; rw [V3_outs, V3_outs2, outs_v11, outs2_v11]
theorem V5_outs (c : Dev nD) : Gen.V5 m (outs m) c = Gen.V5 m (outs2 m) c := by
  unfold Gen.V5; rw [V4_outs]

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and that it owes
    nothing. -/
abbrev R (c : Dev nD) : sProp 𝕄 := iprop((∃ r, prngReg c r) ∗ ∃ W, owes (c : Thread nD τ) (0 : CellTallies nD τ sig Unit) W)

end Cert.Kernel.Hand

end
-- ==== Proof.KShare0.lean ====
/-
  Region 0: its arrays out of the core's unscoped buffers at entry, and back at exit.

  The first two windows of this pipeline read ONE array. Of the buffers behind the windows' arrays — that array,
  the row of sums of squares, the output array — each is held whole at the full share; the shared one is split
  along the share into its two halves, one per window, at entry, and the halves are joined again at exit (both
  windows are inputs, so both halves still hold the entry contents).
  At exit the input arrays hold what they held at entry, and the output array what the pipeline's write-backs leave.
-/
import proofs.«117639_j82652350644520_2_alg».proof.Proof.KDat0
import proofs.«117639_j82652350644520_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop(((c : Thread nD τ).loc main_arg0 ↦{fullShare} V' main_arg0) ∗ ((c : Thread nD τ).loc main_v3 ↦{fullShare} V' main_v3) ∗ ((c : Thread nD τ).loc main_v4 ↦{fullShare} V' main_v4)) := by
  unfold Pipeline.arrBufs
  exact bigSep_eq_bigSepL_of_eq [main_arg0, main_v3, main_v4] (by decide) (by decide) _

/-- The pipeline's arrays, each a whole buffer, window by window at its share. -/
theorem arrays0_norm (c : Dev nD) (G : (w : Fin cfg0.W) → Buf (Elt F) ((cfg0.win w).arr.view.loc (c.tc : Thread nD τ))) :
    (dat0 V c).arrays G
      = iprop(((cfg0.win 0).arr.view.loc (c.tc : Thread nD τ) ↦{fullShare.left} G 0) ∗ ((cfg0.win 1).arr.view.loc (c.tc : Thread nD τ) ↦{fullShare.right} G 1)
          ∗ ((cfg0.win 2).arr.view.loc (c.tc : Thread nD τ) ↦{fullShare} G 2) ∗ ((cfg0.win 3).arr.view.loc (c.tc : Thread nD τ) ↦{fullShare} G 3)) := by
  have h : (dat0 V c).arrays G = bigSep Finset.univ fun w : Fin cfg0.W =>
      ((cfg0.win w).arr.view.loc (c.tc : Thread nD τ) ↦{(dat0 V c).share w} G w : sProp 𝕄) := by
    unfold Dat.arrays
    exact bigSep_congr fun w _ => by rw [(arr_whole0 w).set_eq_univ]
  rw [h, bigSep_W0, show (dat0 V c).share 0 = fullShare.left from rfl, show (dat0 V c).share 1 = fullShare.right from rfl,
    show (dat0 V c).share 2 = fullShare from rfl, show (dat0 V c).share 3 = fullShare from rfl]

/-- ENTRY: the unscoped buffers at `V` are the pipeline's arrays at their entry contents and the unscoped rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ (cfgs) 0 winFacts₀0.arr_unscoped c (V c)]
  refine sep_mono ?_ .rfl
  change (Pipeline.arrBufs (Ix := Unit) (Name := ℕ) (U := UR sig nD τ) (Lvl := ℕ) spec0 c (V c) : sProp 𝕄) ⊢ _
  rw [arrBufs0_eq, arrays0_norm]
  dsimp only
  rw [show (dat0 V c).arrAt 0 0 = V c main_arg0 from rfl, show (dat0 V c).arrAt 1 0 = V c main_arg0 from rfl,
    show (dat0 V c).arrAt 2 0 = V c main_v3 from rfl, show (dat0 V c).arrAt 3 0 = V c main_v4 from rfl]
  iintro ⟨Ha, Hb, Hc⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  iexact Hc

/-- EXIT: the arrays at what the pipeline leaves and the unscoped rest are the unscoped buffers at any contents that
    have the output array at what the pipeline leaves there and agree with the entry contents elsewhere. -/
theorem exit0 (c : Dev nD) (V' : (b : Ref sig .tc) → Buf (Elt F) ((c : Thread nD τ).loc b))
    (hout : (dat0 V c).arrAt 3 cfg0.N = V' main_v4) (hrest : ∀ b : Ref sig .tc, b ≠ main_v4 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ (cfgs) 0 winFacts₀0.arr_unscoped c V']
  refine sep_mono ?_ (Entails.of_eq ?_)
  · change _ ⊢ (Pipeline.arrBufs (Ix := Unit) (Name := ℕ) (U := UR sig nD τ) (Lvl := ℕ) spec0 c V' : sProp 𝕄)
    rw [arrBufs0_eq, arrays0_norm]
    dsimp only
    rw [(dat0 V c).arrAt_in 0 rfl, (dat0 V c).arrAt_in 1 rfl, (dat0 V c).arrAt_in 2 rfl, hout,
      show (dat0 V c).A 0 = V c main_arg0 from rfl, show (dat0 V c).A 1 = V c main_arg0 from rfl,
      show (dat0 V c).A 2 = V c main_v3 from rfl,
      hrest main_arg0 (by decide), hrest main_v3 (by decide)]
    iintro ⟨Hl, Hr, Hb, Hc⟩
    ihave Ha := (pointsTo_share (PosShare.mem_left_op_right fullShare)).2 $$ [Hl Hr]
    · isplitl [Hl]; · iexact Hl
      iexact Hr
    isplitl [Ha]; · iexact Ha
    isplitl [Hb]; · iexact Hb
    iexact Hc
  · unfold Pipeline.unscopedRest
    exact bigSep_congr fun b hb => by
      rw [hrest b (fun e => (Finset.mem_sdiff.mp hb).2 (Finset.mem_image.mpr ⟨3, Finset.mem_univ _, e ▸ rfl⟩))]

end Cert.Kernel.Hand

end
-- ==== Proof.KShare1.lean ====
/-
  Region 1: its arrays out of the core's unscoped buffers at entry, and back at exit.

  The first two windows of this pipeline read ONE array. Of the buffers behind the windows' arrays — that array,
  the row of sums of squares, the output array — each is held whole at the full share; the shared one is split
  along the share into its two halves, one per window, at entry, and the halves are joined again at exit (both
  windows are inputs, so both halves still hold the entry contents).
  At exit the input arrays hold what they held at entry, and the output array what the pipeline's write-backs leave.
-/
import proofs.«117639_j82652350644520_2_alg».proof.Proof.KDat1
import proofs.«117639_j82652350644520_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop(((c : Thread nD τ).loc main_arg1 ↦{fullShare} V' main_arg1) ∗ ((c : Thread nD τ).loc main_v10 ↦{fullShare} V' main_v10) ∗ ((c : Thread nD τ).loc main_v11 ↦{fullShare} V' main_v11)) := by
  unfold Pipeline.arrBufs
  exact bigSep_eq_bigSepL_of_eq [main_arg1, main_v10, main_v11] (by decide) (by decide) _

/-- The pipeline's arrays, each a whole buffer, window by window at its share. -/
theorem arrays1_norm (c : Dev nD) (G : (w : Fin cfg1.W) → Buf (Elt F) ((cfg1.win w).arr.view.loc (c.tc : Thread nD τ))) :
    (dat1 V c).arrays G
      = iprop(((cfg1.win 0).arr.view.loc (c.tc : Thread nD τ) ↦{fullShare.left} G 0) ∗ ((cfg1.win 1).arr.view.loc (c.tc : Thread nD τ) ↦{fullShare.right} G 1)
          ∗ ((cfg1.win 2).arr.view.loc (c.tc : Thread nD τ) ↦{fullShare} G 2) ∗ ((cfg1.win 3).arr.view.loc (c.tc : Thread nD τ) ↦{fullShare} G 3)) := by
  have h : (dat1 V c).arrays G = bigSep Finset.univ fun w : Fin cfg1.W =>
      ((cfg1.win w).arr.view.loc (c.tc : Thread nD τ) ↦{(dat1 V c).share w} G w : sProp 𝕄) := by
    unfold Dat.arrays
    exact bigSep_congr fun w _ => by rw [(arr_whole1 w).set_eq_univ]
  rw [h, bigSep_W1, show (dat1 V c).share 0 = fullShare.left from rfl, show (dat1 V c).share 1 = fullShare.right from rfl,
    show (dat1 V c).share 2 = fullShare from rfl, show (dat1 V c).share 3 = fullShare from rfl]

/-- ENTRY: the unscoped buffers at `V` are the pipeline's arrays at their entry contents and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ (cfgs) 1 winFacts₀1.arr_unscoped c (V c)]
  refine sep_mono ?_ .rfl
  change (Pipeline.arrBufs (Ix := Unit) (Name := ℕ) (U := UR sig nD τ) (Lvl := ℕ) spec1 c (V c) : sProp 𝕄) ⊢ _
  rw [arrBufs1_eq, arrays1_norm]
  dsimp only
  rw [show (dat1 V c).arrAt 0 0 = V c main_arg1 from rfl, show (dat1 V c).arrAt 1 0 = V c main_arg1 from rfl,
    show (dat1 V c).arrAt 2 0 = V c main_v10 from rfl, show (dat1 V c).arrAt 3 0 = V c main_v11 from rfl]
  iintro ⟨Ha, Hb, Hc⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  iexact Hc

/-- EXIT: the arrays at what the pipeline leaves and the unscoped rest are the unscoped buffers at any contents that
    have the output array at what the pipeline leaves there and agree with the entry contents elsewhere. -/
theorem exit1 (c : Dev nD) (V' : (b : Ref sig .tc) → Buf (Elt F) ((c : Thread nD τ).loc b))
    (hout : (dat1 V c).arrAt 3 cfg1.N = V' main_v11) (hrest : ∀ b : Ref sig .tc, b ≠ main_v11 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ (cfgs) 1 winFacts₀1.arr_unscoped c V']
  refine sep_mono ?_ (Entails.of_eq ?_)
  · change _ ⊢ (Pipeline.arrBufs (Ix := Unit) (Name := ℕ) (U := UR sig nD τ) (Lvl := ℕ) spec1 c V' : sProp 𝕄)
    rw [arrBufs1_eq, arrays1_norm]
    dsimp only
    rw [(dat1 V c).arrAt_in 0 rfl, (dat1 V c).arrAt_in 1 rfl, (dat1 V c).arrAt_in 2 rfl, hout,
      show (dat1 V c).A 0 = V c main_arg1 from rfl, show (dat1 V c).A 1 = V c main_arg1 from rfl,
      show (dat1 V c).A 2 = V c main_v10 from rfl,
      hrest main_arg1 (by decide), hrest main_v10 (by decide)]
    iintro ⟨Hl, Hr, Hb, Hc⟩
    ihave Ha := (pointsTo_share (PosShare.mem_left_op_right fullShare)).2 $$ [Hl Hr]
    · isplitl [Hl]; · iexact Hl
      iexact Hr
    isplitl [Ha]; · iexact Ha
    isplitl [Hb]; · iexact Hb
    iexact Hc
  · unfold Pipeline.unscopedRest
    exact bigSep_congr fun b hb => by
      rw [hrest b (fun e => (Finset.mem_sdiff.mp hb).2 (Finset.mem_image.mpr ⟨3, Finset.mem_univ _, e ▸ rfl⟩))]

end Cert.Kernel.Hand

end
-- ==== Proof.KShare2.lean ====
/-
  Region 2: its arrays out of the core's unscoped buffers at entry, and back at exit.

  The four windows' arrays are four distinct buffers, each held whole at the full share.
  At exit the input arrays hold what they held at entry, and the output array what the pipeline's write-backs leave.
-/
import proofs.«117639_j82652350644520_2_alg».proof.Proof.KDat2
import proofs.«117639_j82652350644520_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop(((c : Thread nD τ).loc main_arg0 ↦{fullShare} V' main_arg0) ∗ ((c : Thread nD τ).loc main_arg1 ↦{fullShare} V' main_arg1) ∗ ((c : Thread nD τ).loc main_v17 ↦{fullShare} V' main_v17) ∗ ((c : Thread nD τ).loc main_v18 ↦{fullShare} V' main_v18)) := by
  unfold Pipeline.arrBufs
  exact bigSep_eq_bigSepL_of_eq [main_arg0, main_arg1, main_v17, main_v18] (by decide) (by decide) _

/-- The pipeline's arrays, each a whole buffer, window by window at its share. -/
theorem arrays2_norm (c : Dev nD) (G : (w : Fin cfg2.W) → Buf (Elt F) ((cfg2.win w).arr.view.loc (c.tc : Thread nD τ))) :
    (dat2 V c).arrays G
      = iprop(((cfg2.win 0).arr.view.loc (c.tc : Thread nD τ) ↦{fullShare} G 0) ∗ ((cfg2.win 1).arr.view.loc (c.tc : Thread nD τ) ↦{fullShare} G 1)
          ∗ ((cfg2.win 2).arr.view.loc (c.tc : Thread nD τ) ↦{fullShare} G 2) ∗ ((cfg2.win 3).arr.view.loc (c.tc : Thread nD τ) ↦{fullShare} G 3)) := by
  have h : (dat2 V c).arrays G = bigSep Finset.univ fun w : Fin cfg2.W =>
      ((cfg2.win w).arr.view.loc (c.tc : Thread nD τ) ↦{(dat2 V c).share w} G w : sProp 𝕄) := by
    unfold Dat.arrays
    exact bigSep_congr fun w _ => by rw [(arr_whole2 w).set_eq_univ]
  rw [h, bigSep_W2, show (dat2 V c).share 0 = fullShare from rfl, show (dat2 V c).share 1 = fullShare from rfl,
    show (dat2 V c).share 2 = fullShare from rfl, show (dat2 V c).share 3 = fullShare from rfl]

/-- ENTRY: the unscoped buffers at `V` are the pipeline's arrays at their entry contents and the unscoped rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ (cfgs) 2 winFacts2.arr_unscoped c (V c)]
  refine sep_mono ?_ .rfl
  change (Pipeline.arrBufs (Ix := Unit) (Name := ℕ) (U := UR sig nD τ) (Lvl := ℕ) spec2 c (V c) : sProp 𝕄) ⊢ _
  rw [arrBufs2_eq, arrays2_norm]
  dsimp only
  rw [show (dat2 V c).arrAt 0 0 = V c main_arg0 from rfl, show (dat2 V c).arrAt 1 0 = V c main_arg1 from rfl,
    show (dat2 V c).arrAt 2 0 = V c main_v17 from rfl, show (dat2 V c).arrAt 3 0 = V c main_v18 from rfl]

/-- EXIT: the arrays at what the pipeline leaves and the unscoped rest are the unscoped buffers at any contents that
    have the output array at what the pipeline leaves there and agree with the entry contents elsewhere. -/
theorem exit2 (c : Dev nD) (V' : (b : Ref sig .tc) → Buf (Elt F) ((c : Thread nD τ).loc b))
    (hout : (dat2 V c).arrAt 3 cfg2.N = V' main_v18) (hrest : ∀ b : Ref sig .tc, b ≠ main_v18 → V' b = V c b) :
    iprop((dat2 V c).arrays ((dat2 V c).arrAt · cfg2.N) ∗ Pipeline.unscopedRest spec2 c (V c)) ⊢ (unscopedBufs c V' : sProp 𝕄) := by
  rw [Pipeline.unscopedBufs_split₀ (cfgs) 2 winFacts2.arr_unscoped c V']
  refine sep_mono ?_ (Entails.of_eq ?_)
  · change _ ⊢ (Pipeline.arrBufs (Ix := Unit) (Name := ℕ) (U := UR sig nD τ) (Lvl := ℕ) spec2 c V' : sProp 𝕄)
    rw [arrBufs2_eq, arrays2_norm]
    dsimp only
    rw [(dat2 V c).arrAt_in 0 rfl, (dat2 V c).arrAt_in 1 rfl, (dat2 V c).arrAt_in 2 rfl, hout,
      show (dat2 V c).A 0 = V c main_arg0 from rfl, show (dat2 V c).A 1 = V c main_arg1 from rfl,
      show (dat2 V c).A 2 = V c main_v17 from rfl,
      hrest main_arg0 (by decide), hrest main_arg1 (by decide), hrest main_v17 (by decide)]

  · unfold Pipeline.unscopedRest
    exact bigSep_congr fun b hb => by
      rw [hrest b (fun e => (Finset.mem_sdiff.mp hb).2 (Finset.mem_image.mpr ⟨3, Finset.mem_univ _, e ▸ rfl⟩))]

end Cert.Kernel.Hand

end
-- ==== Proof.KSegs.lean ====
/-
  The three kernel regions as segments of @main.

  Each region is entered from the thread state "every unscoped buffer at the contents after the host stretch before
  it, the generator register at some state, nothing owed", sorts its pipeline's arrays out of those buffers, runs, and
  puts the arrays back with its output array at what the eight write-backs leave.
-/
import proofs.«117639_j82652350644520_2_alg».proof.Proof.KOuts
import proofs.«117639_j82652350644520_2_alg».proof.Proof.KShare0
import proofs.«117639_j82652350644520_2_alg».proof.Proof.KShare1
import proofs.«117639_j82652350644520_2_alg».proof.Proof.KShare2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 as a segment of @main: entered with every unscoped buffer at the contents after the host stretch before it,
    left with its output array at what its pipeline leaves; the generator register goes into the region's invariant and
    comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := entry0 (E1 m) c
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E1 m) c (fun b => (Gen.V2 m (outs m) c) b)
      (by unfold Gen.V2; rw [Function.update_self, outs_v4]; rfl)
      (fun b hb => by rw [Gen.V2_of m (outs m) c b (fun h => hb (List.mem_singleton.mp h))])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 as a segment of @main: entered with every unscoped buffer at the contents after the host stretch before it,
    left with its output array at what its pipeline leaves; the generator register goes into the region's invariant and
    comes back; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry1 (E3 m) c
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (E3 m) c (fun b => (Gen.V4 m (outs m) c) b)
      (by unfold Gen.V4; rw [Function.update_self, outs_v11]; rfl)
      (fun b hb => by rw [Gen.V4_of m (outs m) c b (fun h => hb (List.mem_singleton.mp h)), V3_outs])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 as a segment of @main: entered with every unscoped buffer at the contents after the host stretch before it,
    left with its output array at what its pipeline leaves; the generator register goes into the region's invariant and
    comes back; nothing is owed; the kernel has no semaphore of its own. -/
def reg2 : Pipeline.RegionSeg (pcfgs (F := F)) Gen.adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := entry2 (E5 m) c
    rw [Pipeline.unscopedBufs_held] at hsplit
    rw [V5_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (E5 m) c (fun b => (Gen.V6 m (outs m) c) b)
      (by unfold Gen.V6; rw [Function.update_self, outs_v18]; rfl)
      (fun b hb => by rw [Gen.V6_of m (outs m) c b (fun h => hb (List.mem_singleton.mp h)), V5_outs])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KRunAll.lean ====
/-
  The whole run of @main: from any launch memory with zero counters every weakly fair execution terminates, nothing
  faults, and every unscoped buffer ends at the last contents of the fold through @main's items — the launch contents,
  each host stretch applied, each region's output array replaced by what its pipeline leaves.

  The launch over the segments (four host stretches, three kernel regions), the thread states chaining by definition,
  the last one read against the final state. In particular the two argument arrays end as launched: no host stretch
  writes them and no region has them as an output.
-/
import proofs.«117639_j82652350644520_2_alg».proof.Proof.KSegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers is the same at every boundary. -/
abbrev rest : Fin 4 → Dev nD → sProp 𝕄 := fun _ c => R c

set_option backward.isDefEq.respectTransparency.types false in
set_option maxHeartbeats 1600000 in
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V7 m (outs m) c b) := by
  refine Pipeline.θ_run_regions_kit_dev (pcfgs (F := F)) Gen.adm (pdats m) () cellOf_inj emb₁ defs₀ 𝒱₀ L lv m ρ main
    (Gen.segs m (outs m) 𝒱₀ L lv rest () (pdats m) (reg0 m) (reg1 m) (reg2 m))
    (fun c Q => by
      rewrite [main_chain c, Seg.run_eq_chain,
        show (Gen.segs m (outs m) 𝒱₀ L lv rest () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun _ h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V7_main_arg0 m (outs m) c),
     (h c _ (mem_uc main_arg1 (by decide))).trans (Gen.V7_main_arg1 m (outs m) c)⟩) (run_all m ρ)

end Cert.Kernel.Hand

end
-- ==== Proof.KIRun0.lean ====
/-
  One grid point of kernel 0: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.KernelIdeal.Launch
import proofs.«117639_j82652350644520_2_alg».proof.Proof.Gen.KernelIdeal.Skeleton
import proofs.«117639_j82652350644520_2_alg».proof.Proof.Gen.KernelIdeal.Loops
import proofs.«117639_j82652350644520_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun0 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc0_kernel i arg1 harg1 arg2 harg2 arg3 harg3 arg4 harg4 arg5 harg5) K } := by
  refine ⟨?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover0_3 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun0 c i arg1 harg1 arg2 harg2 arg3 harg3 arg4 harg4 arg5 harg5 x1 x2 x3).1, y ∈ pc.1.set :=
  View.cover_of_tiledL (kernelRun0 c i arg1 harg1 arg2 harg2 arg3 harg3 arg4 harg4 arg5 harg5 x1 x2 x3).1 S8x128.size (by sl_kernel_rfl) y

/-- A whole 8×128 buffer's view, to read the pieces back through. -/
abbrev VO0_3 : View sig .tc .vmem S8x128 .f32 := (Memref.whole cc0_stg3_0 : Memref sig .tc .vmem S8x128 .f32).view

/-- What the body leaves in the output block: its pieces read back. -/
def out0_3 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO0_3.read (Elt F) (VO0_3.writes (Elt F) VO0_3.junk (kernelRun0 c i arg1 harg1 arg2 harg2 arg3 harg3 arg4 harg4 arg5 harg5 x1 x2 x3).1)

end Cert.KernelIdeal.Hand

end
-- ==== Proof.KIDat0.lean ====
/-
  Region 0: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
  The first two windows read ONE array; the core holds it for them at the two halves of the full share.
-/
import proofs.«117639_j82652350644520_2_alg».proof.Proof.KIRun0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body at point `t`. -/
def outAt0 (c : Dev nD) (t : Fin cfg0.N) : Vec F S8x128 .f32 :=
  out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (iblk0 V c 0 t) (iblk0 V c 1 t) (iblk0 V c 2 t)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1600000 in
/-- The body at any point: the inputs' buffers hold their blocks, the accumulator comes out of the invariant at some
    contents and goes back at some contents, so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl]
  unfold Pipeline.ΦA outAt0 out0_3
  rw [scopedRest0_eq,
    show (iprop(∃ f : Buf (Elt F) ((c : Thread nD τ).loc cc0_scratch0), ((c : Thread nD τ).loc cc0_scratch0) ↦{fullShare} f) : sProp 𝕄)
      = iprop(∃ X, owns (c : Thread nD τ) (Memref.whole cc0_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc0_scratch0 : Memref sig .tc .vmem S1x1 .f32)) (Memref.isWhole_whole _) fullShare).symm]
  iintro ⟨⟨⟨Hs, A1, A2, A3, A4, A5, A6, A7, A8, A9, A10, A11, A12, A13, A14⟩, Hp⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [Hs A1 A2 A3 A4 A5 A6 A7 A8 A9 A10 A11 A12 A13 A14 Hp]
  · isplitr [Hp]
    ·
      isplitl [Hs]; · iexact Hs
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      iexact A14
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIRun1.lean ====
/-
  One grid point of kernel 1: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.KernelIdeal.Launch
import proofs.«117639_j82652350644520_2_alg».proof.Proof.Gen.KernelIdeal.Skeleton
import proofs.«117639_j82652350644520_2_alg».proof.Proof.Gen.KernelIdeal.Loops
import proofs.«117639_j82652350644520_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun1 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc1_kernel i arg1 harg1 arg2 harg2 arg3 harg3 arg4 harg4 arg5 harg5) K } := by
  refine ⟨?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover1_3 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun1 c i arg1 harg1 arg2 harg2 arg3 harg3 arg4 harg4 arg5 harg5 x1 x2 x3).1, y ∈ pc.1.set :=
  View.cover_of_tiledL (kernelRun1 c i arg1 harg1 arg2 harg2 arg3 harg3 arg4 harg4 arg5 harg5 x1 x2 x3).1 S8x128.size (by sl_kernel_rfl) y

/-- A whole 8×128 buffer's view, to read the pieces back through. -/
abbrev VO1_3 : View sig .tc .vmem S8x128 .f32 := (Memref.whole cc1_stg3_0 : Memref sig .tc .vmem S8x128 .f32).view

/-- What the body leaves in the output block: its pieces read back. -/
def out1_3 (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO1_3.read (Elt F) (VO1_3.writes (Elt F) VO1_3.junk (kernelRun1 c i arg1 harg1 arg2 harg2 arg3 harg3 arg4 harg4 arg5 harg5 x1 x2 x3).1)

end Cert.KernelIdeal.Hand

end
-- ==== Proof.KIDat1.lean ====
/-
  Region 1: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
  The first two windows read ONE array; the core holds it for them at the two halves of the full share.
-/
import proofs.«117639_j82652350644520_2_alg».proof.Proof.KIRun1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block after the body at point `t`. -/
def outAt1 (c : Dev nD) (t : Fin cfg1.N) : Vec F S8x128 .f32 :=
  out1_3 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (Memref.whole cc1_scratch0) (Memref.isWhole_whole _) (iblk1 V c 0 t) (iblk1 V c 1 t) (iblk1 V c 2 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point: the inputs' buffers hold their blocks, the accumulator comes out of the invariant at some
    contents and goes back at some contents, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl]
  unfold Pipeline.ΦA outAt1 out1_3
  rw [scopedRest1_eq,
    show (iprop(∃ f : Buf (Elt F) ((c : Thread nD τ).loc cc1_scratch0), ((c : Thread nD τ).loc cc1_scratch0) ↦{fullShare} f) : sProp 𝕄)
      = iprop(∃ X, owns (c : Thread nD τ) (Memref.whole cc1_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc1_scratch0 : Memref sig .tc .vmem S1x1 .f32)) (Memref.isWhole_whole _) fullShare).symm]
  iintro ⟨⟨⟨A0, A1, A2, A3, A4, A5, A6, Hs, A8, A9, A10, A11, A12, A13, A14⟩, Hp⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [A0 A1 A2 A3 A4 A5 A6 Hs A8 A9 A10 A11 A12 A13 A14 Hp]
  · isplitr [Hp]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [Hs]; · iexact Hs
      isplitl [A8]; · iexact A8
      isplitl [A9]; · iexact A9
      isplitl [A10]; · iexact A10
      isplitl [A11]; · iexact A11
      isplitl [A12]; · iexact A12
      isplitl [A13]; · iexact A13
      iexact A14
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIRun2.lean ====
/-
  One grid point of kernel 2: the body run on whole staging buffers.

  The body zeroes its 1×1 accumulator, loads its 1024×256 block of rows, goes eight times round the loop —
  each trip loading a 1024-row chunk of the resident operand and the matching chunk of its rows' sums of
  squares and adding the chunk's partial sum to the accumulator —, and stores the accumulator times 1/1024,
  broadcast, over the whole 8×128 output block. Run from the three input buffers at any contents, the output
  buffer and the accumulator at anything, it ends with the inputs as they were, the accumulator at something,
  and the output buffer overwritten by one piece that covers it; the piece is the witness the run finds, a
  function of the inputs' contents only.
-/
import proofs.«117639_j82652350644520_2_alg».proof.Proof.Gen.KernelIdeal.Launch
import proofs.«117639_j82652350644520_2_alg».proof.Proof.Gen.KernelIdeal.Skeleton
import proofs.«117639_j82652350644520_2_alg».proof.Proof.Gen.KernelIdeal.Loops
import proofs.«117639_j82652350644520_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The output block's pieces after the body, with the body's triple. -/
noncomputable def kernelRun2 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    { L4 : List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ d, owns (c : Thread nD τ) arg5 fullShare d)) -∗ K ⟨⟩))
          ⊢ wp frame (wpE (defs₀ (F := F)) Variants.none c none) E (cc2_kernel i arg1 harg1 arg2 harg2 arg3 harg3 arg4 harg4 arg5 harg5) K } := by
  refine ⟨?_, fun E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexists _; isplitr
    swap; · iexact H5
    ipureintro; rfl

/-- The one piece covers the output block. -/
theorem cover2_3 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) (y : S8x128.Idx) :
    ∃ pc ∈ (kernelRun2 c i arg1 harg1 arg2 harg2 arg3 harg3 arg4 harg4 arg5 harg5 x1 x2 x3).1, y ∈ pc.1.set :=
  View.cover_of_tiledL (kernelRun2 c i arg1 harg1 arg2 harg2 arg3 harg3 arg4 harg4 arg5 harg5 x1 x2 x3).1 S8x128.size (by sl_kernel_rfl) y

/-- A whole 8×128 buffer's view, to read the pieces back through. -/
abbrev VO2_3 : View sig .tc .vmem S8x128 .f32 := (Memref.whole cc2_stg3_0 : Memref sig .tc .vmem S8x128 .f32).view

/-- What the body leaves in the output block: its pieces read back. -/
def out2_3 (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) : Vec F S8x128 .f32 :=
  VO2_3.read (Elt F) (VO2_3.writes (Elt F) VO2_3.junk (kernelRun2 c i arg1 harg1 arg2 harg2 arg3 harg3 arg4 harg4 arg5 harg5 x1 x2 x3).1)

end Cert.KernelIdeal.Hand

end
-- ==== Proof.KIDat2.lean ====
/-
  Region 2: the proof data of its pipeline at the contents `V` the region is entered with, and the body's
  obligation at every grid point.

  After the body at point t each input window's staging buffer still holds its block — rows 1024·t … of the first
  operand, the whole second operand, the whole row of its sums of squares — and the output window's buffer holds
  what the body's run leaves of those three blocks. The body takes its accumulator from the region's invariant
  (the core's scoped buffers that are no staging buffer, each at some contents) and gives it back at some contents:
  nothing is carried from one point to the next.
-/
import proofs.«117639_j82652350644520_2_alg».proof.Proof.KIRun2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body at point `t`. -/
def outAt2 (c : Dev nD) (t : Fin cfg2.N) : Vec F S8x128 .f32 :=
  out2_3 c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (Memref.whole cc2_scratch0) (Memref.isWhole_whole _) (iblk2 V c 0 t) (iblk2 V c 1 t) (iblk2 V c 2 t)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1600000 in
/-- The body at any point: the inputs' buffers hold their blocks, the accumulator comes out of the invariant at some
    contents and goes back at some contents, so the run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3,
    show (dat2 V c).Φ t.castSucc = Pipeline.ΦA spec2 c from rfl]
  unfold Pipeline.ΦA outAt2 out2_3
  rw [scopedRest2_eq,
    show (iprop(∃ f : Buf (Elt F) ((c : Thread nD τ).loc cc2_scratch0), ((c : Thread nD τ).loc cc2_scratch0) ↦{fullShare} f) : sProp 𝕄)
      = iprop(∃ X, owns (c : Thread nD τ) (Memref.whole cc2_scratch0 : Memref sig .tc .vmem S1x1 .f32) fullShare X)
      from (Memref.IsWhole.exists_owns_eq (Ix := Unit) (Name := ℕ) (U := UR sig nD τ) (Lvl := ℕ) (Val := Elt F) (c := (c : Thread nD τ)) (m := (Memref.whole cc2_scratch0 : Memref sig .tc .vmem S1x1 .f32)) (Memref.isWhole_whole _) fullShare).symm]
  iintro ⟨⟨⟨A0, A1, A2, A3, A4, A5, A6, A7, A8, A9, A10, A11, A12, A13, Hs⟩, Hp⟩, Ho, ⟨%d0, H0⟩, ⟨%d1, H1⟩, ⟨%d2, H2⟩, ⟨%d3, H3⟩⟩
  iapply ((kernelRun2 c (grid2.coords t) _ _ _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, Hs⟩
  isplitl [A0 A1 A2 A3 A4 A5 A6 A7 A8 A9 A10 A11 A12 A13 Hs Hp]
  · isplitr [Hp]
    ·
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      iexact Hs
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIOuts.lean ====
/-
  What the three regions leave, and every pipeline's proof data at its region's entry contents.

  Between @main's items a core's unscoped buffers hold: the launch contents, then each host stretch applied, then —
  after a region — the region's output array replaced by what its pipeline leaves there (the write-backs of all
  eight grid points folded into the array it found). Region 0 is entered at the contents after the first host
  stretch; what it leaves in its output array fixes the contents region 1 is entered at, and so on: the three
  outputs are defined one after the other, each from the ones before.
-/
import proofs.«117639_j82652350644520_2_alg».proof.Proof.KIDat0
import proofs.«117639_j82652350644520_2_alg».proof.Proof.KIDat1
import proofs.«117639_j82652350644520_2_alg».proof.Proof.KIDat2
import proofs.«117639_j82652350644520_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer's contents moved along an equation of references. -/
def atRef {r r' : Ref sig .tc} (h : r' = r) {c : Dev nD} (x : Buf (Elt F) ((c : Thread nD τ).loc r)) :
    Buf (Elt F) ((c : Thread nD τ).loc r') := h ▸ x

/-- Region 0's entry contents, at the TensorCore's references. -/
abbrev E1 : (c : Dev nD) → (b : Ref sig .tc) → Buf (Elt F) ((c : Thread nD τ).loc b) := fun c b => Gen.V1 m c b
/-- What region 0 leaves in its output array. -/
def o2 (c : Dev nD) : Buf (Elt F) ((c : Thread nD τ).loc main_v4) := (dat0 (E1 m) c).arrAt 3 cfg0.N
/-- The regions' outputs, the first one fixed. -/
def outs1 : Gen.Outs (F := F) := fun _ r c =>
  if hr : r = main_v4 then atRef hr (o2 m c) else Classical.arbitrary _
theorem outs1_v4 (c : Dev nD) : outs1 m 2 main_v4 c = o2 m c := by unfold outs1; rw [dif_pos rfl]; rfl

/-- Region 1's entry contents. -/
abbrev E3 : (c : Dev nD) → (b : Ref sig .tc) → Buf (Elt F) ((c : Thread nD τ).loc b) := fun c b => Gen.V3 m (outs1 m) c b
/-- What region 1 leaves in its output array. -/
def o4 (c : Dev nD) : Buf (Elt F) ((c : Thread nD τ).loc main_v11) := (dat1 (E3 m) c).arrAt 3 cfg1.N
/-- The regions' outputs, the first two fixed. -/
def outs2 : Gen.Outs (F := F) := fun _ r c =>
  if hr : r = main_v4 then atRef hr (o2 m c) else if hr' : r = main_v11 then atRef hr' (o4 m c) else Classical.arbitrary _
theorem outs2_v4 (c : Dev nD) : outs2 m 2 main_v4 c = o2 m c := by unfold outs2; rw [dif_pos rfl]; rfl
theorem outs2_v11 (c : Dev nD) : outs2 m 4 main_v11 c = o4 m c := by
  unfold outs2; rw [dif_neg (by decide), dif_pos rfl]; rfl

/-- Region 2's entry contents. -/
abbrev E5 : (c : Dev nD) → (b : Ref sig .tc) → Buf (Elt F) ((c : Thread nD τ).loc b) := fun c b => Gen.V5 m (outs2 m) c b
/-- What region 2 leaves in its output array. -/
def o6 (c : Dev nD) : Buf (Elt F) ((c : Thread nD τ).loc main_v18) := (dat2 (E5 m) c).arrAt 3 cfg2.N
/-- The regions' outputs. -/
def outs : Gen.Outs (F := F) := fun _ r c =>
  if hr : r = main_v4 then atRef hr (o2 m c) else if hr' : r = main_v11 then atRef hr' (o4 m c)
  else if hr'' : r = main_v18 then atRef hr'' (o6 m c) else Classical.arbitrary _
theorem outs_v4 (c : Dev nD) : outs m 2 main_v4 c = o2 m c := by unfold outs; rw [dif_pos rfl]; rfl
theorem outs_v11 (c : Dev nD) : outs m 4 main_v11 c = o4 m c := by
  unfold outs; rw [dif_neg (by decide), dif_pos rfl]; rfl
theorem outs_v18 (c : Dev nD) : outs m 6 main_v18 c = o6 m c := by
  unfold outs; rw [dif_neg (by decide), dif_neg (by decide), dif_pos rfl]; rfl

/-! The contents between the items do not depend on the outputs fixed later. -/

theorem V2_outs (c : Dev nD) : Gen.V2 m (outs m) c = Gen.V2 m (outs1 m) c := by
  unfold Gen.V2; rw [outs_v4, outs1_v4]
theorem V2_outs2 (c : Dev nD) : Gen.V2 m (outs2 m) c = Gen.V2 m (outs1 m) c := by
  unfold Gen.V2; rw [outs2_v4, outs1_v4]
theorem V3_outs (c : Dev nD) : Gen.V3 m (outs m) c = Gen.V3 m (outs1 m) c := by
  unfold Gen.V3; rw [V2_outs]
theorem V3_outs2 (c : Dev nD) : Gen.V3 m (outs2 m) c = Gen.V3 m (outs1 m) c := by
  unfold Gen.V3; rw [V2_outs2]
theorem V4_outs (c : Dev nD) : Gen.V4 m (outs m) c = Gen.V4 m (outs2 m) c := by
  unfold Gen.V4; rw [V3_outs, V3_outs2, outs_v11, outs2_v11]
theorem V5_outs (c : Dev nD) : Gen.V5 m (outs m) c = Gen.V5 m (outs2 m) c := by
  unfold Gen.V5; rw [V4_outs]

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and that it owes
    nothing. -/
abbrev R (c : Dev nD) : sProp 𝕄 := iprop((∃ r, prngReg c r) ∗ ∃ W, owes (c : Thread nD τ) (0 : CellTallies nD τ sig Unit) W)

end Cert.KernelIdeal.Hand

end
-- ==== Proof.KIShare0.lean ====
/-
  Region 0: its arrays out of the core's unscoped buffers at entry, and back at exit.

  The first two windows of this pipeline read ONE array. Of the buffers behind the windows' arrays — that array,
  the row of sums of squares, the output array — each is held whole at the full share; the shared one is split
  along the share into its two halves, one per window, at entry, and the halves are joined again at exit (both
  windows are inputs, so both halves still hold the entry contents).
  At exit the input arrays hold what they held at entry, and the output array what the pipeline's write-backs leave.
-/
import proofs.«117639_j82652350644520_2_alg».proof.Proof.KIDat0
import proofs.«117639_j82652350644520_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop(((c : Thread nD τ).loc main_arg0 ↦{fullShare} V' main_arg0) ∗ ((c : Thread nD τ).loc main_v3 ↦{fullShare} V' main_v3) ∗ ((c : Thread nD τ).loc main_v4 ↦{fullShare} V' main_v4)) := by
  unfold Pipeline.arrBufs
  exact bigSep_eq_bigSepL_of_eq [main_arg0, main_v3, main_v4] (by decide) (by decide) _

/-- The pipeline's arrays, each a whole buffer, window by window at its share. -/
theorem arrays0_norm (c : Dev nD) (G : (w : Fin cfg0.W) → Buf (Elt F) ((cfg0.win w).arr.view.loc (c.tc : Thread nD τ))) :
    (dat0 V c).arrays G
      = iprop(((cfg0.win 0).arr.view.loc (c.tc : Thread nD τ) ↦{fullShare.left} G 0) ∗ ((cfg0.win 1).arr.view.loc (c.tc : Thread nD τ) ↦{fullShare.right} G 1)
          ∗ ((cfg0.win 2).arr.view.loc (c.tc : Thread nD τ) ↦{fullShare} G 2) ∗ ((cfg0.win 3).arr.view.loc (c.tc : Thread nD τ) ↦{fullShare} G 3)) := by
  have h : (dat0 V c).arrays G = bigSep Finset.univ fun w : Fin cfg0.W =>
      ((cfg0.win w).arr.view.loc (c.tc : Thread nD τ) ↦{(dat0 V c).share w} G w : sProp 𝕄) := by
    unfold Dat.arrays
    exact bigSep_congr fun w _ => by rw [(arr_whole0 w).set_eq_univ]
  rw [h, bigSep_W0, show (dat0 V c).share 0 = fullShare.left from rfl, show (dat0 V c).share 1 = fullShare.right from rfl,
    show (dat0 V c).share 2 = fullShare from rfl, show (dat0 V c).share 3 = fullShare from rfl]

/-- ENTRY: the unscoped buffers at `V` are the pipeline's arrays at their entry contents and the unscoped rest. -/
theorem entry0 (c : Dev nD) :
    (unscopedBufs c (V c) : sProp 𝕄) ⊢ iprop((dat0 V c).arrays ((dat0 V c).arrAt · 0) ∗ Pipeline.unscopedRest spec0 c (V c)) := by
  rw [Pipeline.unscopedBufs_split₀ (cfgs) 0 winFacts₀0.arr_unscoped c (V c)]
  refine sep_mono ?_ .rfl
  change (Pipeline.arrBufs (Ix := Unit) (Name := ℕ) (U := UR sig nD τ) (Lvl := ℕ) spec0 c (V c) : sProp 𝕄) ⊢ _
  rw [arrBufs0_eq, arrays0_norm]
  dsimp only
  rw [show (dat0 V c).arrAt 0 0 = V c main_arg0 from rfl, show (dat0 V c).arrAt 1 0 = V c main_arg0 from rfl,
    show (dat0 V c).arrAt 2 0 = V c main_v3 from rfl, show (dat0 V c).arrAt 3 0 = V c main_v4 from rfl]
  iintro ⟨Ha, Hb, Hc⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  iexact Hc

/-- EXIT: the arrays at what the pipeline leaves and the unscoped rest are the unscoped buffers at any contents that
    have the output array at what the pipeline leaves there and agree with the entry contents elsewhere. -/
theorem exit0 (c : Dev nD) (V' : (b : Ref sig .tc) → Buf (Elt F) ((c : Thread nD τ).loc b))
    (hout : (dat0 V c).arrAt 3 cfg0.N = V' main_v4) (hrest : ∀ b : Ref sig .tc, b ≠ main_v4 → V' b = V c b) :
    iprop((dat0 V c).arrays ((dat0 V c).arrAt · cfg0.N) ∗ Pipeline.unscopedRest spec0 c (V c)) ⊢ (unscopedBufs c V' : sProp 𝕄) := by
  rw [Pipeline.unscopedBufs_split₀ (cfgs) 0 winFacts₀0.arr_unscoped c V']
  refine sep_mono ?_ (Entails.of_eq ?_)
  · change _ ⊢ (Pipeline.arrBufs (Ix := Unit) (Name := ℕ) (U := UR sig nD τ) (Lvl := ℕ) spec0 c V' : sProp 𝕄)
    rw [arrBufs0_eq, arrays0_norm]
    dsimp only
    rw [(dat0 V c).arrAt_in 0 rfl, (dat0 V c).arrAt_in 1 rfl, (dat0 V c).arrAt_in 2 rfl, hout,
      show (dat0 V c).A 0 = V c main_arg0 from rfl, show (dat0 V c).A 1 = V c main_arg0 from rfl,
      show (dat0 V c).A 2 = V c main_v3 from rfl,
      hrest main_arg0 (by decide), hrest main_v3 (by decide)]
    iintro ⟨Hl, Hr, Hb, Hc⟩
    ihave Ha := (pointsTo_share (PosShare.mem_left_op_right fullShare)).2 $$ [Hl Hr]
    · isplitl [Hl]; · iexact Hl
      iexact Hr
    isplitl [Ha]; · iexact Ha
    isplitl [Hb]; · iexact Hb
    iexact Hc
  · unfold Pipeline.unscopedRest
    exact bigSep_congr fun b hb => by
      rw [hrest b (fun e => (Finset.mem_sdiff.mp hb).2 (Finset.mem_image.mpr ⟨3, Finset.mem_univ _, e ▸ rfl⟩))]

end Cert.KernelIdeal.Hand

end
-- ==== Proof.KIShare1.lean ====
/-
  Region 1: its arrays out of the core's unscoped buffers at entry, and back at exit.

  The first two windows of this pipeline read ONE array. Of the buffers behind the windows' arrays — that array,
  the row of sums of squares, the output array — each is held whole at the full share; the shared one is split
  along the share into its two halves, one per window, at entry, and the halves are joined again at exit (both
  windows are inputs, so both halves still hold the entry contents).
  At exit the input arrays hold what they held at entry, and the output array what the pipeline's write-backs leave.
-/
import proofs.«117639_j82652350644520_2_alg».proof.Proof.KIDat1
import proofs.«117639_j82652350644520_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop(((c : Thread nD τ).loc main_arg1 ↦{fullShare} V' main_arg1) ∗ ((c : Thread nD τ).loc main_v10 ↦{fullShare} V' main_v10) ∗ ((c : Thread nD τ).loc main_v11 ↦{fullShare} V' main_v11)) := by
  unfold Pipeline.arrBufs
  exact bigSep_eq_bigSepL_of_eq [main_arg1, main_v10, main_v11] (by decide) (by decide) _

/-- The pipeline's arrays, each a whole buffer, window by window at its share. -/
theorem arrays1_norm (c : Dev nD) (G : (w : Fin cfg1.W) → Buf (Elt F) ((cfg1.win w).arr.view.loc (c.tc : Thread nD τ))) :
    (dat1 V c).arrays G
      = iprop(((cfg1.win 0).arr.view.loc (c.tc : Thread nD τ) ↦{fullShare.left} G 0) ∗ ((cfg1.win 1).arr.view.loc (c.tc : Thread nD τ) ↦{fullShare.right} G 1)
          ∗ ((cfg1.win 2).arr.view.loc (c.tc : Thread nD τ) ↦{fullShare} G 2) ∗ ((cfg1.win 3).arr.view.loc (c.tc : Thread nD τ) ↦{fullShare} G 3)) := by
  have h : (dat1 V c).arrays G = bigSep Finset.univ fun w : Fin cfg1.W =>
      ((cfg1.win w).arr.view.loc (c.tc : Thread nD τ) ↦{(dat1 V c).share w} G w : sProp 𝕄) := by
    unfold Dat.arrays
    exact bigSep_congr fun w _ => by rw [(arr_whole1 w).set_eq_univ]
  rw [h, bigSep_W1, show (dat1 V c).share 0 = fullShare.left from rfl, show (dat1 V c).share 1 = fullShare.right from rfl,
    show (dat1 V c).share 2 = fullShare from rfl, show (dat1 V c).share 3 = fullShare from rfl]

/-- ENTRY: the unscoped buffers at `V` are the pipeline's arrays at their entry contents and the unscoped rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ (cfgs) 1 winFacts₀1.arr_unscoped c (V c)]
  refine sep_mono ?_ .rfl
  change (Pipeline.arrBufs (Ix := Unit) (Name := ℕ) (U := UR sig nD τ) (Lvl := ℕ) spec1 c (V c) : sProp 𝕄) ⊢ _
  rw [arrBufs1_eq, arrays1_norm]
  dsimp only
  rw [show (dat1 V c).arrAt 0 0 = V c main_arg1 from rfl, show (dat1 V c).arrAt 1 0 = V c main_arg1 from rfl,
    show (dat1 V c).arrAt 2 0 = V c main_v10 from rfl, show (dat1 V c).arrAt 3 0 = V c main_v11 from rfl]
  iintro ⟨Ha, Hb, Hc⟩
  ihave Hs := (pointsTo_share (PosShare.mem_left_op_right fullShare)).1 $$ Ha
  icases Hs with ⟨Hl, Hr⟩
  isplitl [Hl]; · iexact Hl
  isplitl [Hr]; · iexact Hr
  isplitl [Hb]; · iexact Hb
  iexact Hc

/-- EXIT: the arrays at what the pipeline leaves and the unscoped rest are the unscoped buffers at any contents that
    have the output array at what the pipeline leaves there and agree with the entry contents elsewhere. -/
theorem exit1 (c : Dev nD) (V' : (b : Ref sig .tc) → Buf (Elt F) ((c : Thread nD τ).loc b))
    (hout : (dat1 V c).arrAt 3 cfg1.N = V' main_v11) (hrest : ∀ b : Ref sig .tc, b ≠ main_v11 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ (cfgs) 1 winFacts₀1.arr_unscoped c V']
  refine sep_mono ?_ (Entails.of_eq ?_)
  · change _ ⊢ (Pipeline.arrBufs (Ix := Unit) (Name := ℕ) (U := UR sig nD τ) (Lvl := ℕ) spec1 c V' : sProp 𝕄)
    rw [arrBufs1_eq, arrays1_norm]
    dsimp only
    rw [(dat1 V c).arrAt_in 0 rfl, (dat1 V c).arrAt_in 1 rfl, (dat1 V c).arrAt_in 2 rfl, hout,
      show (dat1 V c).A 0 = V c main_arg1 from rfl, show (dat1 V c).A 1 = V c main_arg1 from rfl,
      show (dat1 V c).A 2 = V c main_v10 from rfl,
      hrest main_arg1 (by decide), hrest main_v10 (by decide)]
    iintro ⟨Hl, Hr, Hb, Hc⟩
    ihave Ha := (pointsTo_share (PosShare.mem_left_op_right fullShare)).2 $$ [Hl Hr]
    · isplitl [Hl]; · iexact Hl
      iexact Hr
    isplitl [Ha]; · iexact Ha
    isplitl [Hb]; · iexact Hb
    iexact Hc
  · unfold Pipeline.unscopedRest
    exact bigSep_congr fun b hb => by
      rw [hrest b (fun e => (Finset.mem_sdiff.mp hb).2 (Finset.mem_image.mpr ⟨3, Finset.mem_univ _, e ▸ rfl⟩))]

end Cert.KernelIdeal.Hand

end
-- ==== Proof.KIShare2.lean ====
/-
  Region 2: its arrays out of the core's unscoped buffers at entry, and back at exit.

  The four windows' arrays are four distinct buffers, each held whole at the full share.
  At exit the input arrays hold what they held at entry, and the output array what the pipeline's write-backs leave.
-/
import proofs.«117639_j82652350644520_2_alg».proof.Proof.KIDat2
import proofs.«117639_j82652350644520_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop(((c : Thread nD τ).loc main_arg0 ↦{fullShare} V' main_arg0) ∗ ((c : Thread nD τ).loc main_arg1 ↦{fullShare} V' main_arg1) ∗ ((c : Thread nD τ).loc main_v17 ↦{fullShare} V' main_v17) ∗ ((c : Thread nD τ).loc main_v18 ↦{fullShare} V' main_v18)) := by
  unfold Pipeline.arrBufs
  exact bigSep_eq_bigSepL_of_eq [main_arg0, main_arg1, main_v17, main_v18] (by decide) (by decide) _

/-- The pipeline's arrays, each a whole buffer, window by window at its share. -/
theorem arrays2_norm (c : Dev nD) (G : (w : Fin cfg2.W) → Buf (Elt F) ((cfg2.win w).arr.view.loc (c.tc : Thread nD τ))) :
    (dat2 V c).arrays G
      = iprop(((cfg2.win 0).arr.view.loc (c.tc : Thread nD τ) ↦{fullShare} G 0) ∗ ((cfg2.win 1).arr.view.loc (c.tc : Thread nD τ) ↦{fullShare} G 1)
          ∗ ((cfg2.win 2).arr.view.loc (c.tc : Thread nD τ) ↦{fullShare} G 2) ∗ ((cfg2.win 3).arr.view.loc (c.tc : Thread nD τ) ↦{fullShare} G 3)) := by
  have h : (dat2 V c).arrays G = bigSep Finset.univ fun w : Fin cfg2.W =>
      ((cfg2.win w).arr.view.loc (c.tc : Thread nD τ) ↦{(dat2 V c).share w} G w : sProp 𝕄) := by
    unfold Dat.arrays
    exact bigSep_congr fun w _ => by rw [(arr_whole2 w).set_eq_univ]
  rw [h, bigSep_W2, show (dat2 V c).share 0 = fullShare from rfl, show (dat2 V c).share 1 = fullShare from rfl,
    show (dat2 V c).share 2 = fullShare from rfl, show (dat2 V c).share 3 = fullShare from rfl]

/-- ENTRY: the unscoped buffers at `V` are the pipeline's arrays at their entry contents and the unscoped rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ (cfgs) 2 winFacts2.arr_unscoped c (V c)]
  refine sep_mono ?_ .rfl
  change (Pipeline.arrBufs (Ix := Unit) (Name := ℕ) (U := UR sig nD τ) (Lvl := ℕ) spec2 c (V c) : sProp 𝕄) ⊢ _
  rw [arrBufs2_eq, arrays2_norm]
  dsimp only
  rw [show (dat2 V c).arrAt 0 0 = V c main_arg0 from rfl, show (dat2 V c).arrAt 1 0 = V c main_arg1 from rfl,
    show (dat2 V c).arrAt 2 0 = V c main_v17 from rfl, show (dat2 V c).arrAt 3 0 = V c main_v18 from rfl]

/-- EXIT: the arrays at what the pipeline leaves and the unscoped rest are the unscoped buffers at any contents that
    have the output array at what the pipeline leaves there and agree with the entry contents elsewhere. -/
theorem exit2 (c : Dev nD) (V' : (b : Ref sig .tc) → Buf (Elt F) ((c : Thread nD τ).loc b))
    (hout : (dat2 V c).arrAt 3 cfg2.N = V' main_v18) (hrest : ∀ b : Ref sig .tc, b ≠ main_v18 → V' b = V c b) :
    iprop((dat2 V c).arrays ((dat2 V c).arrAt · cfg2.N) ∗ Pipeline.unscopedRest spec2 c (V c)) ⊢ (unscopedBufs c V' : sProp 𝕄) := by
  rw [Pipeline.unscopedBufs_split₀ (cfgs) 2 winFacts2.arr_unscoped c V']
  refine sep_mono ?_ (Entails.of_eq ?_)
  · change _ ⊢ (Pipeline.arrBufs (Ix := Unit) (Name := ℕ) (U := UR sig nD τ) (Lvl := ℕ) spec2 c V' : sProp 𝕄)
    rw [arrBufs2_eq, arrays2_norm]
    dsimp only
    rw [(dat2 V c).arrAt_in 0 rfl, (dat2 V c).arrAt_in 1 rfl, (dat2 V c).arrAt_in 2 rfl, hout,
      show (dat2 V c).A 0 = V c main_arg0 from rfl, show (dat2 V c).A 1 = V c main_arg1 from rfl,
      show (dat2 V c).A 2 = V c main_v17 from rfl,
      hrest main_arg0 (by decide), hrest main_arg1 (by decide), hrest main_v17 (by decide)]

  · unfold Pipeline.unscopedRest
    exact bigSep_congr fun b hb => by
      rw [hrest b (fun e => (Finset.mem_sdiff.mp hb).2 (Finset.mem_image.mpr ⟨3, Finset.mem_univ _, e ▸ rfl⟩))]

end Cert.KernelIdeal.Hand

end
-- ==== Proof.KISegs.lean ====
/-
  The three kernel regions as segments of @main.

  Each region is entered from the thread state "every unscoped buffer at the contents after the host stretch before
  it, the generator register at some state, nothing owed", sorts its pipeline's arrays out of those buffers, runs, and
  puts the arrays back with its output array at what the eight write-backs leave.
-/
import proofs.«117639_j82652350644520_2_alg».proof.Proof.KIOuts
import proofs.«117639_j82652350644520_2_alg».proof.Proof.KIShare0
import proofs.«117639_j82652350644520_2_alg».proof.Proof.KIShare1
import proofs.«117639_j82652350644520_2_alg».proof.Proof.KIShare2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 as a segment of @main: entered with every unscoped buffer at the contents after the host stretch before it,
    left with its output array at what its pipeline leaves; the generator register goes into the region's invariant and
    comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := entry0 (E1 m) c
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E1 m) c (fun b => (Gen.V2 m (outs m) c) b)
      (by unfold Gen.V2; rw [Function.update_self, outs_v4]; rfl)
      (fun b hb => by rw [Gen.V2_of m (outs m) c b (fun h => hb (List.mem_singleton.mp h))])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 as a segment of @main: entered with every unscoped buffer at the contents after the host stretch before it,
    left with its output array at what its pipeline leaves; the generator register goes into the region's invariant and
    comes back; nothing is owed; the kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry1 (E3 m) c
    rw [Pipeline.unscopedBufs_held] at hsplit
    rw [V3_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (E3 m) c (fun b => (Gen.V4 m (outs m) c) b)
      (by unfold Gen.V4; rw [Function.update_self, outs_v11]; rfl)
      (fun b hb => by rw [Gen.V4_of m (outs m) c b (fun h => hb (List.mem_singleton.mp h)), V3_outs])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 as a segment of @main: entered with every unscoped buffer at the contents after the host stretch before it,
    left with its output array at what its pipeline leaves; the generator register goes into the region's invariant and
    comes back; nothing is owed; the kernel has no semaphore of its own. -/
def reg2 : Pipeline.RegionSeg (pcfgs (F := F)) Gen.adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := entry2 (E5 m) c
    rw [Pipeline.unscopedBufs_held] at hsplit
    rw [V5_outs]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (E5 m) c (fun b => (Gen.V6 m (outs m) c) b)
      (by unfold Gen.V6; rw [Function.update_self, outs_v18]; rfl)
      (fun b hb => by rw [Gen.V6_of m (outs m) c b (fun h => hb (List.mem_singleton.mp h)), V5_outs])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KIRunAll.lean ====
/-
  The whole run of @main: from any launch memory with zero counters every weakly fair execution terminates, nothing
  faults, and every unscoped buffer ends at the last contents of the fold through @main's items — the launch contents,
  each host stretch applied, each region's output array replaced by what its pipeline leaves.

  The launch over the segments (four host stretches, three kernel regions), the thread states chaining by definition,
  the last one read against the final state. In particular the two argument arrays end as launched: no host stretch
  writes them and no region has them as an output.
-/
import proofs.«117639_j82652350644520_2_alg».proof.Proof.KISegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers is the same at every boundary. -/
abbrev rest : Fin 4 → Dev nD → sProp 𝕄 := fun _ c => R c

set_option backward.isDefEq.respectTransparency.types false in
set_option maxHeartbeats 1600000 in
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V7 m (outs m) c b) := by
  refine Pipeline.θ_run_regions_kit_dev (pcfgs (F := F)) Gen.adm (pdats m) () cellOf_inj emb₁ defs₀ 𝒱₀ L lv m ρ main
    (Gen.segs m (outs m) 𝒱₀ L lv rest () (pdats m) (reg0 m) (reg1 m) (reg2 m))
    (fun c Q => by
      rewrite [main_chain c, Seg.run_eq_chain,
        show (Gen.segs m (outs m) 𝒱₀ L lv rest () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun _ h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V7_main_arg0 m (outs m) c),
     (h c _ (mem_uc main_arg1 (by decide))).trans (Gen.V7_main_arg1 m (outs m) c)⟩) (run_all m ρ)

end Cert.KernelIdeal.Hand

end
-- ==== Proof.Spec.lean ====
/-
  What both programs compute, as one function of the two feature arrays, over the extended reals.

  For feature arrays x, y of 8192 rows and 256 columns, the value of the pair (row i of x, row j of y) is
      exp( sqrt( max( (|x_i|² + |y_j|²) − 2·⟨x_i, y_j⟩ , ε ) ) · (−1/512) ),
  |·|² a row's sum of squares and ⟨·,·⟩ the rows' inner product; the mean of the values over all 8192 × 8192
  pairs is the sum divided by 2²⁶; and the discrepancy of x and y is
      (mean(x, x) + mean(y, y)) − 2·mean(x, y).
  The float literals stay the words the programs print (2, ε = 1e-30, −1/512 = −2⁻⁹, 2²⁶): a word that is the same
  on both sides is never evaluated.
-/
import Idealize.ShloMosaic.PureOps.Ideal
import Idealize.ShloMosaic.Lib.ValueIdx

noncomputable section

namespace Cert.Mmd

open Idealize.ShloMosaic Idealize.ShloMosaic.ValueIdx

/-- A feature array: 8192 rows of 256 extended reals. -/
abbrev Feat : Type := (⟨2, ![8192, 256]⟩ : Shape).Idx → EReal

/-- Row `i`'s sum of squares. -/
def sq (x : Feat) (i : Fin 8192) : EReal := ∑ k : Fin 256, x (ix2 i k) * x (ix2 i k)

/-- The inner product of row `i` of `x` and row `j` of `y`. -/
def dot (x y : Feat) (i j : Fin 8192) : EReal := ∑ k : Fin 256, x (ix2 i k) * y (ix2 j k)

/-- The literal 2. -/
def two : EReal := Ideal.ofBits .f32 0x40000000#32
/-- The literal ε = 1e-30 (as the f32 word both programs print). -/
def eps : EReal := Ideal.ofBits .f32 0x0DA24260#32
/-- The literal −1/512. -/
def coeff : EReal := Ideal.ofBits .f32 0xBB000000#32
/-- The literal 2²⁶, the number of pairs. -/
def count : EReal := Ideal.ofBits .f32 0x4C800000#32

/-- The squared distance of the two rows, clamped below by ε. -/
def d2 (x y : Feat) (i j : Fin 8192) : EReal := max ((sq x i + sq y j) - two * dot x y i j) eps

/-- The value of the pair (row `i` of `x`, row `j` of `y`). -/
def kval (x y : Feat) (i j : Fin 8192) : EReal := Ideal.exp (Ideal.sqrt (d2 x y i j) * coeff)

/-- The sum of the values over all pairs. -/
def rbfSum (x y : Feat) : EReal := ∑ i : Fin 8192, ∑ j : Fin 8192, kval x y i j

/-- Their mean. -/
def rbfMean (x y : Feat) : EReal := Ideal.div (rbfSum x y) count

/-- The discrepancy of `x` and `y`. -/
def mmd (x y : Feat) : EReal := (rbfMean x x + rbfMean y y) - two * rbfMean x y

end Cert.Mmd

end
-- ==== Proof.Consts.lean ====
/-
  The float words the two programs print, as the extended reals they denote: a binary32 word with sign bit s,
  exponent field e (neither 0 nor 255) and fraction field 0 denotes (-1)^s · 2^(e - 127). Each word is evaluated
  here, once:
      0x00000000 is 0,            0x40000000 is 2,           0x44000000 is 512 = 2^9,
      0xBB000000 is -(1/512),     0x3A800000 is 1/1024,      0x4C800000 is 67108864 = 2^26.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 512.0 denotes the real 512. -/
theorem ofBits_512 : Ideal.ofBits .f32 0x44000000#32 = ((512 : ℝ) : EReal) := by
  simp [Ideal.ofBits, Ideal.ieee, -EReal.coe_mul]; norm_num

/-- The word of -2^(-9) denotes the real -(1/512). -/
theorem ofBits_neg_inv_512 : Ideal.ofBits .f32 0xBB000000#32 = ((-(1 / 512) : ℝ) : EReal) := by
  simp [Ideal.ofBits, Ideal.ieee, -EReal.coe_mul]; norm_num

/-- The word of 2^(-10) denotes the real 1/1024. -/
theorem ofBits_inv_1024 : Ideal.ofBits .f32 0x3A800000#32 = ((1 / 1024 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of 2^26 denotes the real 67108864. -/
theorem ofBits_2p26 : Ideal.ofBits .f32 0x4C800000#32 = ((67108864 : ℝ) : EReal) := by
  simp [Ideal.ofBits, Ideal.ieee, -EReal.coe_mul]; norm_num

end Cert.Consts

end
-- ==== Proof.RefValue.lean ====
/-
  The reference program, read as mathematics.

  Its run ends with a scalar buffer holding a composed term of its two argument arrays x and y (8192 rows of 256
  extended reals each). Read at an index, that term is three times the same computation, on the pairs of arrays
  (x, x), (x, y), (y, y) in this order: for rows i of the first array and j of the second, the rows' sums of squares
  |a_i|² and |b_j|² (each a sum over the 256 columns started at 0, the first broadcast along j, the second transposed
  and broadcast along i) are added, twice the inner product ⟨a_i, b_j⟩ (a product with the transposed second array) is
  subtracted, the difference is clamped below by ε, and the pair's value is exp(−sqrt(·) / 512). Dividing by the real
  512 is multiplying by 1/512 on every extended real, the infinities included, and (−s)·(1/512) = s·(−(1/512)), so
  this is the specification's value exp(sqrt(·)·(−1/512)) of the pair. The values are summed over all 8192 × 8192
  index pairs from 0 — the double sum over i and j — and divided by 2²⁶: the specification's mean. The result is
  (mean(x, x) + mean(y, y)) − 2·mean(x, y), the specification's discrepancy of x and y.

  No step uses finiteness of the inputs: every equation above holds on all extended reals.
-/
import proofs.«117639_j82652350644520_2_alg».proof.Proof.Gen.ReferenceIdeal.Read
import proofs.«117639_j82652350644520_2_alg».proof.Proof.Spec
import proofs.«117639_j82652350644520_2_alg».proof.Proof.Consts

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## One pair -/

/-- The reference's value of a pair is the specification's: the quotient by the real 512 is the product with 1/512
    at every extended real, and a sign moves from one factor of a product to the other. -/
theorem ref_pair (x y : Cert.Mmd.Feat) (i j : Fin 8192) :
    Ideal.exp (Ideal.div (-(Ideal.sqrt (Cert.Mmd.d2 x y i j))) (Ideal.ofBits .f32 0x44000000#32))
      = Cert.Mmd.kval x y i j := by
  unfold Cert.Mmd.kval Cert.Mmd.coeff
  rw [Cert.Consts.ofBits_512, Cert.Consts.ofBits_neg_inv_512, Ideal.div_coe (by norm_num : (512 : ℝ) ≠ 0),
    EReal.coe_neg, neg_mul, mul_neg]

/-! ## The three arrays of pair values and their means -/

/-- The first 8192 × 8192 array of the reference (rows of `x` against rows of `x`), read at the pair (i, j): the two rows' sums of squares, each broadcast along the other axis, minus twice the inner product read through the transpose, clamped below, under the root, negated, divided by 512, under the exponential — the specification's value of the pair. -/
theorem pair_xx (x : FVec Ideal S8192x256 .f32) (i j : Fin 8192) :
    val_main_v21 (F := Ideal) x (ix2 i j) = Cert.Mmd.kval x x i j := by
  have eL : ∀ k : Fin 256, idx_main_v1 (idx_main_v2 (idx_main_v7 (ix2 i j))) k = ix2 i k :=
    fun k => funext fun a => by match a with | ⟨0, _⟩ => rfl | ⟨1, _⟩ => rfl
  have eR : ∀ k : Fin 256, idx_main_v4 (idx_main_v5 (idx_main_v6 (idx_main_v8 (ix2 i j)))) k = ix2 j k :=
    fun k => funext fun a => by match a with | ⟨0, _⟩ => rfl | ⟨1, _⟩ => rfl
  have eDl : ∀ k : Fin 256, lidx_main_v11 (ix2 i j) k = ix2 i k :=
    fun k => funext fun a => by match a with | ⟨0, _⟩ => rfl | ⟨1, _⟩ => rfl
  have eDr : ∀ k : Fin 256, idx_main_v10 (ridx_main_v11 (ix2 i j) k) = ix2 j k :=
    fun k => funext fun a => by match a with | ⟨0, _⟩ => rfl | ⟨1, _⟩ => rfl
  simp only [val_main_v21_apply, val_main_v20_apply, val_main_v19_apply, val_main_cst_3_apply, val_main_v18_apply,
    val_main_v17_apply, val_main_v16_apply, val_main_v15_apply, val_main_cst_2_apply, val_main_v14_apply,
    val_main_v13_apply, val_main_v12_apply, val_main_cst_1_apply, val_main_v11_apply, val_main_v10_apply,
    val_main_v9_apply, val_main_v8_apply, val_main_v7_apply, val_main_v6_apply, val_main_v5_apply,
    val_main_v4_apply, val_main_cst_0_apply, val_main_v3_apply, val_main_v2_apply, val_main_v1_apply,
    val_main_cst_apply, val_main_v0_apply, eL, eR, eDl, eDr]
  simp only [Ideal.hostUnary_exp_def, Ideal.hostDivf_def, Ideal.hostNegf_def, Ideal.negf_def, Ideal.hostUnary_sqrt_def,
    Ideal.maximumf_def, Ideal.subf_def, Ideal.addf_def, Ideal.mulf_def, Ideal.ofBits_def, Ideal.ofBits_zero_f32, zero_add]
  exact ref_pair _ _ i j

/-- The first mean: the initial value 0 plus the sum over all index pairs, which is the double sum over rows and rows, divided by the number of pairs. -/
theorem mean_xx (x : FVec Ideal S8192x256 .f32) (i : S_.Idx) :
    val_main_v23 (F := Ideal) x i = Cert.Mmd.rbfMean x x := by
  rw [val_main_v23_apply, val_main_v22_apply, val_main_cst_4_apply, val_main_cst_5_apply, sum_idx2 (n0 := 8192) (n1 := 8192)]
  simp only [pair_xx, Ideal.hostDivf_def, Ideal.ofBits_def, Ideal.ofBits_zero_f32, zero_add]
  rfl

/-- The second array (rows of `x` against rows of `y`) at the pair (i, j) is the specification's value of the pair. -/
theorem pair_xy (x y : FVec Ideal S8192x256 .f32) (i j : Fin 8192) :
    val_main_v45 (F := Ideal) x y (ix2 i j) = Cert.Mmd.kval x y i j := by
  have eL : ∀ k : Fin 256, idx_main_v25 (idx_main_v26 (idx_main_v31 (ix2 i j))) k = ix2 i k :=
    fun k => funext fun a => by match a with | ⟨0, _⟩ => rfl | ⟨1, _⟩ => rfl
  have eR : ∀ k : Fin 256, idx_main_v28 (idx_main_v29 (idx_main_v30 (idx_main_v32 (ix2 i j)))) k = ix2 j k :=
    fun k => funext fun a => by match a with | ⟨0, _⟩ => rfl | ⟨1, _⟩ => rfl
  have eDl : ∀ k : Fin 256, lidx_main_v35 (ix2 i j) k = ix2 i k :=
    fun k => funext fun a => by match a with | ⟨0, _⟩ => rfl | ⟨1, _⟩ => rfl
  have eDr : ∀ k : Fin 256, idx_main_v34 (ridx_main_v35 (ix2 i j) k) = ix2 j k :=
    fun k => funext fun a => by match a with | ⟨0, _⟩ => rfl | ⟨1, _⟩ => rfl
  simp only [val_main_v45_apply, val_main_v44_apply, val_main_v43_apply, val_main_cst_10_apply, val_main_v42_apply,
    val_main_v41_apply, val_main_v40_apply, val_main_v39_apply, val_main_cst_9_apply, val_main_v38_apply,
    val_main_v37_apply, val_main_v36_apply, val_main_cst_8_apply, val_main_v35_apply, val_main_v34_apply,
    val_main_v33_apply, val_main_v32_apply, val_main_v31_apply, val_main_v30_apply, val_main_v29_apply,
    val_main_v28_apply, val_main_cst_7_apply, val_main_v27_apply, val_main_v26_apply, val_main_v25_apply,
    val_main_cst_6_apply, val_main_v24_apply, eL, eR, eDl, eDr]
  simp only [Ideal.hostUnary_exp_def, Ideal.hostDivf_def, Ideal.hostNegf_def, Ideal.negf_def, Ideal.hostUnary_sqrt_def,
    Ideal.maximumf_def, Ideal.subf_def, Ideal.addf_def, Ideal.mulf_def, Ideal.ofBits_def, Ideal.ofBits_zero_f32, zero_add]
  exact ref_pair _ _ i j

/-- The second mean is the specification's mean of `x` against `y`. -/
theorem mean_xy (x y : FVec Ideal S8192x256 .f32) (i : S_.Idx) :
    val_main_v47 (F := Ideal) x y i = Cert.Mmd.rbfMean x y := by
  rw [val_main_v47_apply, val_main_v46_apply, val_main_cst_11_apply, val_main_cst_12_apply, sum_idx2 (n0 := 8192) (n1 := 8192)]
  simp only [pair_xy, Ideal.hostDivf_def, Ideal.ofBits_def, Ideal.ofBits_zero_f32, zero_add]
  rfl

/-- The third array (rows of `y` against rows of `y`) at the pair (i, j) is the specification's value of the pair. -/
theorem pair_yy (y : FVec Ideal S8192x256 .f32) (i j : Fin 8192) :
    val_main_v69 (F := Ideal) y (ix2 i j) = Cert.Mmd.kval y y i j := by
  have eL : ∀ k : Fin 256, idx_main_v49 (idx_main_v50 (idx_main_v55 (ix2 i j))) k = ix2 i k :=
    fun k => funext fun a => by match a with | ⟨0, _⟩ => rfl | ⟨1, _⟩ => rfl
  have eR : ∀ k : Fin 256, idx_main_v52 (idx_main_v53 (idx_main_v54 (idx_main_v56 (ix2 i j)))) k = ix2 j k :=
    fun k => funext fun a => by match a with | ⟨0, _⟩ => rfl | ⟨1, _⟩ => rfl
  have eDl : ∀ k : Fin 256, lidx_main_v59 (ix2 i j) k = ix2 i k :=
    fun k => funext fun a => by match a with | ⟨0, _⟩ => rfl | ⟨1, _⟩ => rfl
  have eDr : ∀ k : Fin 256, idx_main_v58 (ridx_main_v59 (ix2 i j) k) = ix2 j k :=
    fun k => funext fun a => by match a with | ⟨0, _⟩ => rfl | ⟨1, _⟩ => rfl
  simp only [val_main_v69_apply, val_main_v68_apply, val_main_v67_apply, val_main_cst_17_apply, val_main_v66_apply,
    val_main_v65_apply, val_main_v64_apply, val_main_v63_apply, val_main_cst_16_apply, val_main_v62_apply,
    val_main_v61_apply, val_main_v60_apply, val_main_cst_15_apply, val_main_v59_apply, val_main_v58_apply,
    val_main_v57_apply, val_main_v56_apply, val_main_v55_apply, val_main_v54_apply, val_main_v53_apply,
    val_main_v52_apply, val_main_cst_14_apply, val_main_v51_apply, val_main_v50_apply, val_main_v49_apply,
    val_main_cst_13_apply, val_main_v48_apply, eL, eR, eDl, eDr]
  simp only [Ideal.hostUnary_exp_def, Ideal.hostDivf_def, Ideal.hostNegf_def, Ideal.negf_def, Ideal.hostUnary_sqrt_def,
    Ideal.maximumf_def, Ideal.subf_def, Ideal.addf_def, Ideal.mulf_def, Ideal.ofBits_def, Ideal.ofBits_zero_f32, zero_add]
  exact ref_pair _ _ i j

/-- The third mean is the specification's mean of `y` against `y`. -/
theorem mean_yy (y : FVec Ideal S8192x256 .f32) (i : S_.Idx) :
    val_main_v71 (F := Ideal) y i = Cert.Mmd.rbfMean y y := by
  rw [val_main_v71_apply, val_main_v70_apply, val_main_cst_18_apply, val_main_cst_19_apply, sum_idx2 (n0 := 8192) (n1 := 8192)]
  simp only [pair_yy, Ideal.hostDivf_def, Ideal.ofBits_def, Ideal.ofBits_zero_f32, zero_add]
  rfl

/-! ## The result -/

/-- The last stage, at its one index: the first mean plus the third, minus twice the second. -/
theorem val_eq (x y : FVec Ideal S8192x256 .f32) :
    val_main_v74 (F := Ideal) x y = fun _ => Cert.Mmd.mmd x y := by
  funext i
  rw [val_main_v74_apply, val_main_v72_apply, val_main_v73_apply, val_main_cst_20_apply, mean_xx, mean_yy, mean_xy]
  rfl

/-- The term the reference's run states for its result buffer, of argument arrays `x` and `y`, is the
    specification's discrepancy of `x` and `y` at the buffer's one index. -/
theorem result_eq (x y : FVec Ideal S8192x256 .f32) :
    subf (F := Ideal) (addf (Host.divf (Host.reduceAdd (Host.exp (Host.divf (Host.negf (Host.sqrt (maximumf (subf (addf (broadcastInDim S8192x8192 ![0, 1] bcast_S8192x1_S8192x8192_0_1 (broadcastInDim S8192x1 ![0] bcast_S8192_S8192x1_0 (Host.reduceAdd (mulf x x) (constant S_ .f32 0x00000000#32) reducesTo_S8192x256_S8192_d1 h_S_))) (broadcastInDim S8192x8192 ![0, 1] bcast_S1x8192_S8192x8192_0_1 (transpose S1x8192 [1, 0] (broadcastInDim S8192x1 ![0] bcast_S8192_S8192x1_0 (Host.reduceAdd (mulf x x) (constant S_ .f32 0x00000000#32) reducesTo_S8192x256_S8192_d1 h_S_)) transposes_S8192x1_S1x8192_1_0))) (mulf (broadcastInDim S8192x8192 ![] bcast_S_S8192x8192 (constant S_ .f32 0x40000000#32)) (Host.dotGeneral dot_S8192x256_S256x8192_S8192x8192_1_0_0_1_n_n none x (transpose S256x8192 [1, 0] x transposes_S8192x256_S256x8192_1_0)))) (broadcastInDim S8192x8192 ![] bcast_S_S8192x8192 (constant S_ .f32 0x0DA24260#32))))) (broadcastInDim S8192x8192 ![] bcast_S_S8192x8192 (constant S_ .f32 0x44000000#32)))) (constant S_ .f32 0x00000000#32) reducesTo_S8192x8192_S_d0_1 h_S_) (constant S_ .f32 0x4C800000#32)) (Host.divf (Host.reduceAdd (Host.exp (Host.divf (Host.negf (Host.sqrt (maximumf (subf (addf (broadcastInDim S8192x8192 ![0, 1] bcast_S8192x1_S8192x8192_0_1 (broadcastInDim S8192x1 ![0] bcast_S8192_S8192x1_0 (Host.reduceAdd (mulf y y) (constant S_ .f32 0x00000000#32) reducesTo_S8192x256_S8192_d1 h_S_))) (broadcastInDim S8192x8192 ![0, 1] bcast_S1x8192_S8192x8192_0_1 (transpose S1x8192 [1, 0] (broadcastInDim S8192x1 ![0] bcast_S8192_S8192x1_0 (Host.reduceAdd (mulf y y) (constant S_ .f32 0x00000000#32) reducesTo_S8192x256_S8192_d1 h_S_)) transposes_S8192x1_S1x8192_1_0))) (mulf (broadcastInDim S8192x8192 ![] bcast_S_S8192x8192 (constant S_ .f32 0x40000000#32)) (Host.dotGeneral dot_S8192x256_S256x8192_S8192x8192_1_0_0_1_n_n none y (transpose S256x8192 [1, 0] y transposes_S8192x256_S256x8192_1_0)))) (broadcastInDim S8192x8192 ![] bcast_S_S8192x8192 (constant S_ .f32 0x0DA24260#32))))) (broadcastInDim S8192x8192 ![] bcast_S_S8192x8192 (constant S_ .f32 0x44000000#32)))) (constant S_ .f32 0x00000000#32) reducesTo_S8192x8192_S_d0_1 h_S_) (constant S_ .f32 0x4C800000#32))) (mulf (constant S_ .f32 0x40000000#32) (Host.divf (Host.reduceAdd (Host.exp (Host.divf (Host.negf (Host.sqrt (maximumf (subf (addf (broadcastInDim S8192x8192 ![0, 1] bcast_S8192x1_S8192x8192_0_1 (broadcastInDim S8192x1 ![0] bcast_S8192_S8192x1_0 (Host.reduceAdd (mulf x x) (constant S_ .f32 0x00000000#32) reducesTo_S8192x256_S8192_d1 h_S_))) (broadcastInDim S8192x8192 ![0, 1] bcast_S1x8192_S8192x8192_0_1 (transpose S1x8192 [1, 0] (broadcastInDim S8192x1 ![0] bcast_S8192_S8192x1_0 (Host.reduceAdd (mulf y y) (constant S_ .f32 0x00000000#32) reducesTo_S8192x256_S8192_d1 h_S_)) transposes_S8192x1_S1x8192_1_0))) (mulf (broadcastInDim S8192x8192 ![] bcast_S_S8192x8192 (constant S_ .f32 0x40000000#32)) (Host.dotGeneral dot_S8192x256_S256x8192_S8192x8192_1_0_0_1_n_n none x (transpose S256x8192 [1, 0] y transposes_S8192x256_S256x8192_1_0)))) (broadcastInDim S8192x8192 ![] bcast_S_S8192x8192 (constant S_ .f32 0x0DA24260#32))))) (broadcastInDim S8192x8192 ![] bcast_S_S8192x8192 (constant S_ .f32 0x44000000#32)))) (constant S_ .f32 0x00000000#32) reducesTo_S8192x8192_S_d0_1 h_S_) (constant S_ .f32 0x4C800000#32)))
      = fun _ => Cert.Mmd.mmd x y :=
  (val_main_v74_eq (F := Ideal) x y).trans (val_eq x y)

/-- Every weakly fair execution of the reference from a memory with zero counters terminates with its result buffer
    at the discrepancy of the two argument arrays as the run found them, and the arguments unchanged. -/
theorem run_mmd (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74)
          = (fun _ => Cert.Mmd.mmd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (result_eq (m ((c.tc : Thread nD τ).loc main_arg0)) (m ((c.tc : Thread nD τ).loc main_arg1))),
      (h c).2⟩)
    (Cert.ReferenceIdeal.Value.run (F := Ideal) m ρ)

end Cert.ReferenceIdeal.RefValue

end
-- ==== Proof.HostVal.lean ====
/-
  The host side of the kernel program, and the algebra of its sums.

  Between its three tiled regions the kernel program computes on the host exactly what the regions are handed and
  what is made of what they leave. Before each region: the row sums of squares of one argument array — the
  elementwise square, summed over the 256 columns from 0, kept as a column and re-laid as a row of 8192 entries.
  After each region: the 64 × 128 array the region leaves is summed over both axes from 0 and divided by 2²⁶; the
  result is the first quotient plus the second, minus twice the third.

  The algebra, on the extended reals with no finiteness assumed: 1024 copies of a/1024 add up to a (for a real by
  arithmetic; an infinity times the positive real 1/1024 is that infinity, and so is its 1024-fold multiple); so an
  array that holds the 1024th part of eight numbers, each 8 · 128 = 1024 times, sums to the sum of the eight; and a
  sum over all pairs of 8192 rows is the sum over the 8 × 8 tiles of 1024 × 1024 pairs — a re-indexing and an exchange
  of two finite sums, valid in any commutative monoid.
-/
import proofs.«117639_j82652350644520_2_alg».proof.Proof.Gen.KernelIdeal.Regions
import proofs.«117639_j82652350644520_2_alg».proof.Proof.Spec
import proofs.«117639_j82652350644520_2_alg».proof.Proof.Consts
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.HostVal

open Cert.KernelIdeal Cert.KernelIdeal.Gen Idealize.ShloMosaic Idealize.ShloMosaic.TcCoe Idealize.SL.Sem
  Idealize.ShloMosaic.StableHlo Idealize.ShloMosaic.ValueIdx

/-! ## Sums on the extended reals (no finiteness anywhere) -/

/-- 1024 copies of a/1024 add up to a, for every extended real a: for a real by arithmetic; an infinity times the
    positive real 1/1024 is that infinity, and so is any positive multiple of it. -/
theorem nsmul_1024 (a : EReal) : (1024 : ℕ) • (a * Ideal.ofBits .f32 0x3A800000#32) = a := by
  rw [Cert.Consts.ofBits_inv_1024]
  induction a using EReal.rec with
  | bot =>
    rw [EReal.bot_mul_coe_of_pos (by norm_num : (0 : ℝ) < 1 / 1024), EReal.nsmul_eq_mul]
    exact EReal.coe_mul_bot_of_pos (by norm_num : (0 : ℝ) < ((1024 : ℕ) : ℝ))
  | top =>
    rw [EReal.top_mul_coe_of_pos (by norm_num : (0 : ℝ) < 1 / 1024), EReal.nsmul_eq_mul]
    exact EReal.coe_mul_top_of_pos (by norm_num : (0 : ℝ) < ((1024 : ℕ) : ℝ))
  | coe r =>
    rw [← EReal.coe_mul, ← EReal.coe_nsmul]
    congr 1
    rw [nsmul_eq_mul]; push_cast; ring

/-- (C1) The same as a sum over 1024 indices. -/
theorem sum_1024 (a : EReal) : (∑ _i : Fin 1024, a * Ideal.ofBits .f32 0x3A800000#32) = a := by
  rw [Finset.sum_const, Finset.card_univ, Fintype.card_fin]
  exact nsmul_1024 a

/-- Position `n * t + p` of a range of length `m * n` cut into `m` runs of length `n`. -/
theorem run_lt {m n : ℕ} (t : Fin m) (p : Fin n) : n * t.val + p.val < m * n :=
  calc n * t.val + p.val < n * t.val + n := Nat.add_lt_add_left p.isLt _
    _ = n * (t.val + 1) := (Nat.mul_succ n t.val).symm
    _ ≤ n * m := Nat.mul_le_mul_left n t.isLt
    _ = m * n := Nat.mul_comm n m

/-- A sum over a range of length `m * n` is the sum over its `m` runs of the sums over each run's `n` places. -/
theorem sum_runs {M : Type*} [AddCommMonoid M] (m n : ℕ) (g : Fin (m * n) → M) :
    ∑ a : Fin (m * n), g a = ∑ t : Fin m, ∑ p : Fin n, g ⟨n * t.val + p.val, run_lt t p⟩ := by
  rw [← Equiv.sum_comp finProdFinEquiv g, Fintype.sum_prod_type]
  refine Finset.sum_congr rfl fun t _ => Finset.sum_congr rfl fun p _ => congrArg g (Fin.ext ?_)
  show p.val + n * t.val = n * t.val + p.val
  exact Nat.add_comm _ _

/-- (C3) The sum over all pairs of rows is the sum over the 8 × 8 tiles of 1024 × 1024 pairs each. -/
theorem sum_tiles {M : Type*} [AddCommMonoid M] (f : Fin 8192 → Fin 8192 → M) :
    ∑ i : Fin 8192, ∑ j : Fin 8192, f i j
      = ∑ t : Fin 8, ∑ k : Fin 8, ∑ r : Fin 1024, ∑ l : Fin 1024,
          f ⟨1024 * t.val + r.val, by omega⟩ ⟨1024 * k.val + l.val, by omega⟩ :=
  calc ∑ i : Fin 8192, ∑ j : Fin 8192, f i j
      = ∑ t : Fin 8, ∑ r : Fin 1024, ∑ j : Fin 8192, f ⟨1024 * t.val + r.val, run_lt t r⟩ j :=
        sum_runs 8 1024 (fun i : Fin (8 * 1024) => ∑ j : Fin 8192, f i j)
    _ = ∑ t : Fin 8, ∑ r : Fin 1024, ∑ k : Fin 8, ∑ l : Fin 1024,
          f ⟨1024 * t.val + r.val, run_lt t r⟩ ⟨1024 * k.val + l.val, run_lt k l⟩ :=
        Finset.sum_congr rfl fun t _ => Finset.sum_congr rfl fun r _ =>
          sum_runs 8 1024 (fun j : Fin (8 * 1024) => f ⟨1024 * t.val + r.val, run_lt t r⟩ j)
    _ = _ := Finset.sum_congr rfl fun t _ => Finset.sum_comm

/-- (C2) A 64 × 128 array whose rows 8t, …, 8t + 7 all hold, in every column, the 1024th part of a number `acc t`
    sums to the sum of the eight numbers: each number is there 8 · 128 = 1024 times, divided by 1024. -/
theorem sum_out (o : S64x128.Idx → EReal) (acc : Fin 8 → EReal)
    (h : ∀ (t : Fin 8) (p : Fin 8) (b : Fin 128),
      o (ix2 ⟨8 * t.val + p.val, by omega⟩ b) = acc t * Ideal.ofBits .f32 0x3A800000#32) :
    ∑ a : Fin 64, ∑ b : Fin 128, o (ix2 a b) = ∑ t : Fin 8, acc t := by
  rw [sum_runs 8 8 (fun a : Fin (8 * 8) => ∑ b : Fin 128, o (ix2 a b))]
  refine Finset.sum_congr rfl fun t _ => ?_
  have e : ∀ p : Fin 8, ∑ b : Fin 128, o (ix2 (⟨8 * t.val + p.val, run_lt t p⟩ : Fin 64) b)
      = ∑ _b : Fin 128, acc t * Ideal.ofBits .f32 0x3A800000#32 :=
    fun p => Finset.sum_congr rfl fun b _ => h t p b
  simp only [e]
  rw [Finset.sum_const, Finset.sum_const, Finset.card_univ, Finset.card_univ, Fintype.card_fin, Fintype.card_fin,
    ← mul_nsmul']
  exact nsmul_1024 (acc t)

/-! ## The host side of the kernel program -/

/-- The row of sums of squares the host hands a region: the elementwise square of `u`, summed over the 256 columns
    from 0, kept as a column and re-laid as a row, holds at column `j 1` the sum of squares of row `j 1` of `u`
    (the re-laying keeps the row-major position; the column's one entry per row is read at position 0). -/
theorem row_sq (u : FVec Ideal S8192x256 .f32) (j : S1x8192.Idx) :
    shapeCast S1x8192 (broadcastInDim S8192x1 ![0] bcast_S8192_S8192x1_0
        (Host.reduceAdd (F := Ideal) (mulf u u) (constant S_ .f32 0x00000000#32) reducesTo_S8192x256_S8192_d1 h_S_))
      shapeCasts_S8192x1_S1x8192 j = Cert.Mmd.sq u (j 1) := by
  refine (shapeCast_apply _ shapeCasts_S8192x1_S1x8192 j (ix2 (j 1) (0 : Fin 1)) ?_).trans ?_
  · rw [Shape.rowMajor_val_two, Shape.rowMajor_val_two]
    have h0 : (j 0).val < 1 := (j 0).isLt
    show (j 1).val * 1 + 0 = (j 0).val * 8192 + (j 1).val
    omega
  refine (broadcastInDim_apply _ bcast_S8192_S8192x1_0 _ (ix2 (j 1) (0 : Fin 1)) (ix1 (j 1)) (fun a => match a with
    | ⟨0, _⟩ => by show (j 1).val = if (8192 : Nat) = 1 then 0 else (j 1).val; rw [if_neg (by decide)])).trans ?_
  simp only [Host.reduceAdd, Ideal.hostReduceAdd_def]
  rw [Ideal.hostReduceAdd_single reducesTo_S8192x256_S8192_d1 (by decide)]
  show Ideal.ofBits .f32 0x00000000#32 + _ = _
  rw [Cert.Consts.ofBits_zero, zero_add]
  unfold Cert.Mmd.sq
  refine Finset.sum_congr rfl fun k _ => ?_
  exact congrArg (fun i => u i * u i)
    (funext fun a => Fin.ext (by match a with | ⟨0, _⟩ => rfl | ⟨1, _⟩ => rfl))

variable (m : (ℓ : Loc nD τ sig) → Buf (Elt Ideal) ℓ) (outs : Outs (F := Ideal))

/-- The first argument array is as launched when the first region starts. -/
theorem V1_main_arg0 (c : Dev nD) : Gen.V1 m c main_arg0 = m ((c.tc : Thread nD τ).loc main_arg0) :=
  (V1_of m c main_arg0 (by decide)).trans rfl

/-- The first region is handed the row sums of squares of the first argument array. -/
theorem V1_main_v3 (c : Dev nD) :
    Gen.V1 m c main_v3 = fun j => Cert.Mmd.sq (m ((c.tc : Thread nD τ).loc main_arg0)) (j 1) := by
  show StableHlo.after hostOps0 _ (Proc.devRef .tc main_v3) = _
  after_results
  funext j
  exact row_sq _ j

/-- The second argument array is as launched when the second region starts. -/
theorem V3_main_arg1 (c : Dev nD) : Gen.V3 m outs c main_arg1 = m ((c.tc : Thread nD τ).loc main_arg1) :=
  (V3_of m outs c main_arg1 (by decide)).trans <| (V2_of m outs c main_arg1 (by decide)).trans <|
    (V1_of m c main_arg1 (by decide)).trans rfl

/-- The second argument array before the second host stretch (the first region may change only its own output). -/
theorem V2_main_arg1 (c : Dev nD) : Gen.V2 m outs c main_arg1 = m ((c.tc : Thread nD τ).loc main_arg1) :=
  (V2_of m outs c main_arg1 (by decide)).trans <| (V1_of m c main_arg1 (by decide)).trans rfl

/-- The second region is handed the row sums of squares of the second argument array. -/
theorem V3_main_v10 (c : Dev nD) :
    Gen.V3 m outs c main_v10 = fun j => Cert.Mmd.sq (m ((c.tc : Thread nD τ).loc main_arg1)) (j 1) := by
  show StableHlo.after hostOps1 _ (Proc.devRef .tc main_v10) = _
  after_results
  rw [V2_main_arg1]
  funext j
  exact row_sq _ j

/-- The second argument array before the third host stretch. -/
theorem V4_main_arg1 (c : Dev nD) : Gen.V4 m outs c main_arg1 = m ((c.tc : Thread nD τ).loc main_arg1) :=
  (V4_of m outs c main_arg1 (by decide)).trans (V3_main_arg1 m outs c)

/-- The first argument array is as launched when the third region starts. -/
theorem V5_main_arg0 (c : Dev nD) : Gen.V5 m outs c main_arg0 = m ((c.tc : Thread nD τ).loc main_arg0) :=
  (V5_of m outs c main_arg0 (by decide)).trans <| (V4_of m outs c main_arg0 (by decide)).trans <|
    (V3_of m outs c main_arg0 (by decide)).trans <| (V2_of m outs c main_arg0 (by decide)).trans <|
    (V1_of m c main_arg0 (by decide)).trans rfl

/-- The second argument array is as launched when the third region starts. -/
theorem V5_main_arg1 (c : Dev nD) : Gen.V5 m outs c main_arg1 = m ((c.tc : Thread nD τ).loc main_arg1) :=
  (V5_of m outs c main_arg1 (by decide)).trans (V4_main_arg1 m outs c)

/-- The third region is handed the row sums of squares of the second argument array. -/
theorem V5_main_v17 (c : Dev nD) :
    Gen.V5 m outs c main_v17 = fun j => Cert.Mmd.sq (m ((c.tc : Thread nD τ).loc main_arg1)) (j 1) := by
  show StableHlo.after hostOps2 _ (Proc.devRef .tc main_v17) = _
  after_results
  rw [V4_main_arg1]
  funext j
  exact row_sq _ j

/-! ## After the regions -/

/-- The mean a region's 64 × 128 output stands for: its sum over both axes, divided by 2²⁶. -/
def mean2 (o : S64x128.Idx → EReal) : EReal :=
  Ideal.div (∑ a : Fin 64, ∑ b : Fin 128, o (ix2 a b)) Cert.Mmd.count

/-- The host's sum of a 64 × 128 array over both axes from 0, divided by the 2²⁶ word, is that mean. -/
theorem mean_out (o : FVec Ideal S64x128 .f32) (i : S_.Idx) :
    Host.divf (F := Ideal) (Host.reduceAdd (F := Ideal) o (constant S_ .f32 0x00000000#32) reducesTo_S64x128_S_d0_1 h_S_)
      (constant S_ .f32 0x4C800000#32) i = mean2 o := by
  show Ideal.div (Host.reduceAdd (F := Ideal) o (constant S_ .f32 0x00000000#32) reducesTo_S64x128_S_d0_1 h_S_ i)
    (Ideal.ofBits .f32 0x4C800000#32) = _
  simp only [Host.reduceAdd, Ideal.hostReduceAdd_def]
  rw [Ideal.hostReduceAdd_total reducesTo_S64x128_S_d0_1 (fun b => b.elim0)]
  show Ideal.div (Ideal.ofBits .f32 0x00000000#32 + _) _ = _
  rw [Cert.Consts.ofBits_zero, zero_add, sum_idx2 (n0 := 64) (n1 := 128)]
  rfl

/-- What the first region leaves is what the second host stretch finds in its output buffer. -/
theorem V2_main_v4 (c : Dev nD) : Gen.V2 m outs c main_v4 = outs 2 main_v4 c := Function.update_self _ _ _
/-- What the second region leaves is what the third host stretch finds in its output buffer. -/
theorem V4_main_v11 (c : Dev nD) : Gen.V4 m outs c main_v11 = outs 4 main_v11 c := Function.update_self _ _ _
/-- What the third region leaves is what the last host stretch finds in its output buffer. -/
theorem V6_main_v18 (c : Dev nD) : Gen.V6 m outs c main_v18 = outs 6 main_v18 c := Function.update_self _ _ _

/-- The first mean, as the second host stretch computes it. -/
theorem V3_main_v6 (c : Dev nD) : Gen.V3 m outs c main_v6 = fun _ => mean2 (outs 2 main_v4 c) := by
  show StableHlo.after hostOps1 _ (Proc.devRef .tc main_v6) = _
  after_results
  rw [V2_main_v4]
  funext i
  exact mean_out _ i

/-- The second mean, as the third host stretch computes it. -/
theorem V5_main_v13 (c : Dev nD) : Gen.V5 m outs c main_v13 = fun _ => mean2 (outs 4 main_v11 c) := by
  show StableHlo.after hostOps2 _ (Proc.devRef .tc main_v13) = _
  after_results
  rw [V4_main_v11]
  funext i
  exact mean_out _ i

/-- The first mean is still there when the last host stretch starts. -/
theorem V6_main_v6 (c : Dev nD) : Gen.V6 m outs c main_v6 = fun _ => mean2 (outs 2 main_v4 c) :=
  (V6_of m outs c main_v6 (by decide)).trans <| (V5_of m outs c main_v6 (by decide)).trans <|
    (V4_of m outs c main_v6 (by decide)).trans (V3_main_v6 m outs c)

/-- The second mean is still there when the last host stretch starts. -/
theorem V6_main_v13 (c : Dev nD) : Gen.V6 m outs c main_v13 = fun _ => mean2 (outs 4 main_v11 c) :=
  (V6_of m outs c main_v13 (by decide)).trans (V5_main_v13 m outs c)

/-- (B) The result buffer at the end: the first mean plus the second, minus twice the third. -/
theorem V7_main_v23 (c : Dev nD) :
    Gen.V7 m outs c main_v23 = fun _ =>
      (mean2 (outs 2 main_v4 c) + mean2 (outs 4 main_v11 c)) - Cert.Mmd.two * mean2 (outs 6 main_v18 c) := by
  show StableHlo.after hostOps3 _ (Proc.devRef .tc main_v23) = _
  after_results
  rw [V6_main_v6, V6_main_v13, V6_main_v18]
  funext i
  exact congrArg (fun z => (mean2 (outs 2 main_v4 c) + mean2 (outs 4 main_v11 c)) - Cert.Mmd.two * z)
    (mean_out (outs 6 main_v18 c) i)

end Cert.KernelIdeal.HostVal

end
-- ==== Proof.Payload.lean ====
/-
  The kernels' arithmetic at the extended reals, as equations between values.

  Each kernel writes three values: the zero it starts its 1x1 accumulator with; one trip's new accumulator, from
  a 1024x256 block of x rows, a 1024x256 chunk of y rows, the 1x1024 chunk of the y rows' sums of squares and the
  accumulator found; and the accumulator times 1/1024, repeated over an 8x128 tile. Read at an index, the first is
  0, the second is the accumulator plus the sum over the 1024 x 1024 pairs (row r of the block, row l of the chunk)
  of  exp( sqrt( max( (|x_r|² + s_l) − 2·⟨x_r, y_l⟩ , ε ) ) · (−1/512) ),  s_l the chunk's l-th sum of squares, and
  the third is the accumulator times the word 2⁻¹⁰.

  The operations that act element by element read through by definition. The others are read at coordinates by
  one lemma each: a row of ones or a column of ones repeated over a matrix, a vector viewed as a one-column
  matrix, a sum along the rows or down a one-column matrix as a sum over one coordinate, and a product of two
  matrices, each contracted along its second axis, into a zero accumulator as the sum of the products of the two
  rows' entries (a narrowing of the format is the identity on extended reals).
-/
import proofs.«117639_j82652350644520_2_alg».proof.Proof.Gen.KernelIdeal.Skeleton
import proofs.«117639_j82652350644520_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal

/-! ## Layout operations at coordinates -/

section Layout
variable {α : Type}

/-- A `[1, 1]` array repeated over `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (y : (⟨2, ![a, b]⟩ : Shape).Idx) :
    broadcastTo ⟨2, ![a, b]⟩ v h y = v (ix2 (0 : Fin 1) (0 : Fin 1)) := by
  refine broadcastTo_apply v h y (ix2 (0 : Fin 1) (0 : Fin 1)) fun ax => ?_
  match ax with
  | ⟨0, _⟩ => exact (if_pos rfl).symm
  | ⟨1, _⟩ => exact (if_pos rfl).symm

/-- An `[a, 1]` column repeated over `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- An `[a]` array viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The first and the last value -/

/-- The accumulator starts at zero. -/
theorem pay1_apply (y : S1x1.Idx) : Gen.k0_pay1 (F := Ideal) y = 0 := by
  unfold Gen.k0_pay1
  refine (congrFun (shapeCast_self _ _) y).trans ?_
  exact Ideal.ofBits_zero_f32

/-- The value written out: the accumulator times the word `2⁻¹⁰`, at every element of the tile. -/
theorem pay3_apply (v10 : FVec Ideal S1x1 .f32) (y : S8x128.Idx) :
    Gen.k0_pay3 v10 y = v10 (ix2 0 0) * Ideal.ofBits .f32 0x3A800000#32 := by
  unfold Gen.k0_pay3
  refine (broadcastTo_11_ab_apply _ _ y).trans ?_
  refine (congrFun (shapeCast_self _ _) _).trans ?_
  rfl

/-! ## Sums along one axis, and the product of two matrices, at coordinates -/

/-- The sum along the rows of a matrix reads, at `r`, the sum over row `r`'s entries. -/
theorem rowSum_apply {a b : ℕ} (v : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v (funext fun ax => Fin.ext ?_)
  match ax with
  | ⟨0, _⟩ => rfl
  | ⟨1, _⟩ => rfl

/-- The sum down a one-column matrix reads, at its one index, the sum over the column's entries. -/
theorem colSum_apply {a : ℕ} (v : FVec Ideal (⟨2, ![a, 1]⟩ : Shape) .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ v 0x00000000#32 h hφ hacc (ix1 u) = ∑ r : Fin a, v (ix2 r (0 : Fin 1)) := by
  refine (Ideal.multiReduction_add_single v _ h hφ hacc (ix1 u)).trans ?_
  refine Finset.sum_congr rfl fun r _ => congrArg v (funext fun ax => Fin.ext ?_)
  match ax with
  | ⟨0, _⟩ => rfl
  | ⟨1, _⟩ => show (u : ℕ) = 0; omega

/-- The kernels' contraction: both operands `[1024, 256]`, each contracted along its second axis. -/
local notation "D" => dot_S1024x256_S1024x256_S1024x1024_1_1_0_0_n_n

theorem lhsIdx_0 (i : S1024x1024.Idx) (q : (D).contr.Idx) : ((D).lhsIdx i q 0).val = (i 0).val := by
  unfold DotDims.lhsIdx
  rw [dif_neg (show ¬(0 : Fin S1024x256.rank) ∈ (D).lhsBatch by decide),
    dif_pos (show (0 : Fin S1024x256.rank) ∈ (D).lhsNonContracting by decide)]
  rfl
theorem lhsIdx_1 (i : S1024x1024.Idx) (q : (D).contr.Idx) : ((D).lhsIdx i q 1).val = (q ⟨0, by decide⟩).val :=
  (D).lhsIdx_val_of_single rfl i q
theorem rhsIdx_0 (i : S1024x1024.Idx) (q : (D).contr.Idx) : ((D).rhsIdx i q 0).val = (i 1).val := by
  unfold DotDims.rhsIdx
  rw [dif_neg (show ¬(0 : Fin S1024x256.rank) ∈ (D).rhsBatch by decide),
    dif_pos (show (0 : Fin S1024x256.rank) ∈ (D).rhsNonContracting by decide)]
  rfl
theorem rhsIdx_1 (i : S1024x1024.Idx) (q : (D).contr.Idx) : ((D).rhsIdx i q 1).val = (q ⟨0, by decide⟩).val :=
  (D).rhsIdx_val_of_single rfl i q

/-- The product into a zero accumulator reads, at `(r, l)`, the sum over `k` of the left operand at `(r, k)` times the
    right operand at `(l, k)`. -/
theorem matmul_zero_apply {φ₁ φ₂ : FTy} (A : FVec Ideal S1024x256 φ₁) (B : FVec Ideal S1024x256 φ₂) (r l : Fin 1024) :
    matmul (D) none A B (constant S1024x1024 .f32 0x00000000#32) (ix2 r l) = ∑ k : Fin 256, A (ix2 r k) * B (ix2 l k) := by
  refine (Ideal.matmul_constant_zero_apply (D) none A B (ix2 r l)).trans ?_
  rw [← Equiv.sum_comp (contrEquiv1 (D) 256 rfl rfl).symm]
  refine Finset.sum_congr rfl fun k _ => ?_
  have hk := contrEquiv1_symm_val (D) 256 rfl rfl k
  have el : (D).lhsIdx (ix2 r l) ((contrEquiv1 (D) 256 rfl rfl).symm k) = ix2 r k := funext fun a => Fin.ext (by
    match a with
    | ⟨0, _⟩ => exact lhsIdx_0 _ _
    | ⟨1, _⟩ => exact (lhsIdx_1 _ _).trans hk)
  have er : (D).rhsIdx (ix2 r l) ((contrEquiv1 (D) 256 rfl rfl).symm k) = ix2 l k := funext fun a => Fin.ext (by
    match a with
    | ⟨0, _⟩ => exact rhsIdx_0 _ _
    | ⟨1, _⟩ => exact (rhsIdx_1 _ _).trans hk)
  rw [el, er]

/-! ## One trip's value -/

/-- The value of the pair (row `r` of the x block, row `l` of the y chunk), from the blocks. -/
def pairVal (v4 v21 : FVec Ideal S1024x256 .f32) (v23 : FVec Ideal S1x1024 .f32) (r l : Fin 1024) : EReal :=
  Ideal.exp (Ideal.sqrt (max (((∑ k : Fin 256, v4 (ix2 r k) * v4 (ix2 r k)) + v23 (ix2 (0 : Fin 1) l))
    - Cert.Mmd.two * ∑ k : Fin 256, v4 (ix2 r k) * v21 (ix2 l k)) Cert.Mmd.eps) * Cert.Mmd.coeff)

/-- The element-by-element part of a trip at `(r, l)`: from the column `X` of the block's sums of squares, the row `Y`
    of the chunk's, and the matrix `M` of inner products. -/
theorem pointwise_apply (X : FVec Ideal S1024x1 .f32) (Y : FVec Ideal S1x1024 .f32) (M : FVec Ideal S1024x1024 .f32)
    (hX : S1024x1.Broadcasts S1024x1024) (hY : S1x1024.Broadcasts S1024x1024) (r l : Fin 1024) :
    exp (mulf (sqrt (maximumf (subf (addf (broadcastTo S1024x1024 X hX) (broadcastTo S1024x1024 Y hY))
        (mulf (broadcast S1024x1024 (Scalar.ofBits (F := Ideal) .f32 0x40000000#32)) M))
        (broadcast S1024x1024 (Scalar.ofBits (F := Ideal) .f32 0x0DA24260#32))))
        (broadcast S1024x1024 (Scalar.ofBits (F := Ideal) .f32 0xBB000000#32))) (ix2 r l)
      = Ideal.exp (Ideal.sqrt (max ((X (ix2 r (0 : Fin 1)) + Y (ix2 (0 : Fin 1) l)) - Cert.Mmd.two * M (ix2 r l))
          Cert.Mmd.eps) * Cert.Mmd.coeff) := by
  show Ideal.exp (Ideal.sqrt (max ((broadcastTo S1024x1024 X hX (ix2 r l) + broadcastTo S1024x1024 Y hY (ix2 r l))
    - Cert.Mmd.two * M (ix2 r l)) Cert.Mmd.eps) * Cert.Mmd.coeff) = _
  rw [broadcastTo_a1_ab_apply X hX r l, broadcastTo_1b_ab_apply Y hY r l]

/-- One trip: the accumulator found plus the sum of the values of the 1024 x 1024 pairs. -/
theorem pay2_apply (v4 v21 : FVec Ideal S1024x256 .f32) (v23 : FVec Ideal S1x1024 .f32) (v43 : FVec Ideal S1x1 .f32)
    (y : S1x1.Idx) :
    Gen.k0_pay2 v4 v21 v23 v43 y = v43 (ix2 0 0) + ∑ r : Fin 1024, ∑ l : Fin 1024, pairVal v4 v21 v23 r l := by
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  unfold Gen.k0_pay2
  refine (congrFun (shapeCast_self _ _) _).trans ?_
  refine congrArg (v43 (ix2 (0 : Fin 1) (0 : Fin 1)) + ·) ?_
  refine (shapeCast_a_1a_apply _ _ 0 0).trans ?_
  refine (colSum_apply _ _ _ _ 0).trans ?_
  refine Finset.sum_congr rfl fun r _ => ?_
  refine (shapeCast_a_a1_apply _ _ r 0).trans ?_
  refine (rowSum_apply _ _ _ _ r).trans ?_
  refine Finset.sum_congr rfl fun l _ => ?_
  refine (pointwise_apply _ _ _ _ _ r l).trans ?_
  unfold pairVal
  refine congrArg (fun t => Ideal.exp (Ideal.sqrt (max t Cert.Mmd.eps) * Cert.Mmd.coeff)) ?_
  refine congrArg₂ (fun s m => s - Cert.Mmd.two * m) (congrArg₂ (· + ·) ?_ ?_) ?_
  · exact (shapeCast_a_a1_apply _ _ r 0).trans (rowSum_apply _ _ _ _ r)
  · exact congrFun (shapeCast_self _ _) _
  · exact matmul_zero_apply _ _ r l

/-! ## The second and the third kernel

Their three values are defined by the same terms as the first kernel's, so each equation above holds of them as it
stands. -/

/-- The accumulator starts at zero. -/
theorem k1_pay1_apply (y : S1x1.Idx) : Gen.k1_pay1 (F := Ideal) y = 0 := pay1_apply y

/-- One trip: the accumulator found plus the sum of the values of the 1024 x 1024 pairs. -/
theorem k1_pay2_apply (v4 v21 : FVec Ideal S1024x256 .f32) (v23 : FVec Ideal S1x1024 .f32) (v43 : FVec Ideal S1x1 .f32)
    (y : S1x1.Idx) :
    Gen.k1_pay2 v4 v21 v23 v43 y = v43 (ix2 0 0) + ∑ r : Fin 1024, ∑ l : Fin 1024, pairVal v4 v21 v23 r l :=
  pay2_apply v4 v21 v23 v43 y

/-- The value written out: the accumulator times the word `2⁻¹⁰`, at every element of the tile. -/
theorem k1_pay3_apply (v10 : FVec Ideal S1x1 .f32) (y : S8x128.Idx) :
    Gen.k1_pay3 v10 y = v10 (ix2 0 0) * Ideal.ofBits .f32 0x3A800000#32 := pay3_apply v10 y

/-- The accumulator starts at zero. -/
theorem k2_pay1_apply (y : S1x1.Idx) : Gen.k2_pay1 (F := Ideal) y = 0 := pay1_apply y

/-- One trip: the accumulator found plus the sum of the values of the 1024 x 1024 pairs. -/
theorem k2_pay2_apply (v4 v21 : FVec Ideal S1024x256 .f32) (v23 : FVec Ideal S1x1024 .f32) (v43 : FVec Ideal S1x1 .f32)
    (y : S1x1.Idx) :
    Gen.k2_pay2 v4 v21 v23 v43 y = v43 (ix2 0 0) + ∑ r : Fin 1024, ∑ l : Fin 1024, pairVal v4 v21 v23 r l :=
  pay2_apply v4 v21 v23 v43 y

/-- The value written out: the accumulator times the word `2⁻¹⁰`, at every element of the tile. -/
theorem k2_pay3_apply (v10 : FVec Ideal S1x1 .f32) (y : S8x128.Idx) :
    Gen.k2_pay3 v10 y = v10 (ix2 0 0) * Ideal.ofBits .f32 0x3A800000#32 := pay3_apply v10 y

end Cert.KernelIdeal.Pay

end
-- ==== Proof.Chunks.lean ====
/-
  The chunks of the resident operand, and a load at a chunk's offset.

  A kernel goes eight times round its loop; trip k reads rows 1024·k … 1024·k + 1023 of the 8192 x 256 second
  operand and entries 1024·k … 1024·k + 1023 of the 1 x 8192 row of that operand's sums of squares. Here the two
  chunks are named as blocks, and a load through the unit-stride rectangle of a chunk's sizes at the chunk's offset
  is shown to read the chunk.
-/
import proofs.«117639_j82652350644520_2_alg».proof.KernelIdeal
import Idealize.ShloMosaic.PureOps.Ideal
import Idealize.ShloMosaic.Lib.ValueIdx
import Idealize.ShloMosaic.Lib.Pipeline.FrameBody

noncomputable section

namespace Cert.KernelIdeal.OutVal

open Idealize.ShloMosaic Idealize.ShloMosaic.ValueIdx Cert.KernelIdeal

/-- The zero offsets, as the constant function. -/
theorem hz : (![0, 0] : Fin 2 → Nat) = fun _ => 0 := funext fun a => by fin_cases a <;> rfl

/-- Chunk `k` of the second operand: its rows `1024·k + j`, `j < 1024`. -/
def chunk2 (x2 : FVec Ideal S8192x256 .f32) (k : Fin 8) : FVec Ideal S1024x256 .f32 :=
  fun j => x2 (ix2 ⟨1024 * k.val + (j 0).val, by
    have h : (j 0).val < 1024 := (j 0).isLt
    have := k.isLt
    omega⟩ (j 1))

/-- Chunk `k` of the row of sums of squares: its entries `1024·k + j`, `j < 1024`. -/
def chunk3 (x3 : FVec Ideal S1x8192 .f32) (k : Fin 8) : FVec Ideal S1x1024 .f32 :=
  fun j => x3 (ix2 (0 : Fin 1) ⟨1024 * k.val + (j 1).val, by
    have h : (j 1).val < 1024 := (j 1).isLt
    have := k.isLt
    omega⟩)

/-- A load of 1024 x 256 elements at offsets `(1024·k, 0)` reads chunk `k` of the operand. -/
theorem ld_chunk2 (x2 : FVec Ideal S8192x256 .f32) (k : Fin 8) (off : Fin 2 → Nat) (hoff : off = ![1024 * k.val, 0])
    (inb : ∀ a, off a + S1024x256.size a ≤ S8192x256.size a) :
    View.ld (Val := Elt Ideal) (e' := EltTy.f32) x2 (Rect.unit off S1024x256.size inb) = chunk2 x2 k := by
  subst hoff
  funext j
  refine congrArg x2 (funext fun a => Fin.ext ?_)
  match a with
  | ⟨0, _⟩ => show 1024 * k.val + 1 * (j 0).val = 1024 * k.val + (j 0).val; omega
  | ⟨1, _⟩ => show 0 + 1 * (j 1).val = (j 1).val; omega

/-- A load of 1 x 1024 elements at offsets `(0, 1024·k)` reads chunk `k` of the row. -/
theorem ld_chunk3 (x3 : FVec Ideal S1x8192 .f32) (k : Fin 8) (off : Fin 2 → Nat) (hoff : off = ![0, 1024 * k.val])
    (inb : ∀ a, off a + S1x1024.size a ≤ S1x8192.size a) :
    View.ld (Val := Elt Ideal) (e' := EltTy.f32) x3 (Rect.unit off S1x1024.size inb) = chunk3 x3 k := by
  subst hoff
  funext j
  refine congrArg x3 (funext fun a => Fin.ext ?_)
  match a with
  | ⟨0, _⟩ => show 0 + 1 * (j 0).val = 0; have h : (j 0).val < 1 := (j 0).isLt; omega
  | ⟨1, _⟩ => show 1024 * k.val + 1 * (j 1).val = 1024 * k.val + (j 1).val; omega

end Cert.KernelIdeal.OutVal

end
-- ==== Proof.KIFinal.lean ====
/-
  From the blocks to the output arrays, and what a region's mean is.

  Each of the three regions runs over a grid of eight points. At point t its first window holds rows
  1024·t … 1024·t + 1023 of its array (block index (t, 0) of 1024 × 256 blocks: a block's coordinate is the index
  times the block size plus the coordinate inside the block); the second and third windows hold their whole arrays
  at every point (block index (0, 0), the block the array); the output window's block at point t is rows
  8t … 8t + 7 of the 64 × 128 output array, all 128 columns, and every point writes its block back. The eight
  output blocks tile the array — row a lies in the block of point a / 8 — so after the region the array holds, at
  (a, b), what point a / 8 wrote at (a mod 8, b).

  When the body leaves one value acc t times 2⁻¹⁰ in every element of its block, the array's sum over both axes is
  therefore the sum of the eight acc t (each is there 8 · 128 = 1024 times, divided by 1024). With acc t the sum over the
  eight chunks k of the second operand, the 1024 rows r of block t and the 1024 rows l of chunk k, of the value of the
  pair (row 1024·t + r of the first array, row 1024·k + l of the second) — the kernel's arithmetic on the block, the
  chunk and the chunk's sums of squares is the specification's value of that pair, sum for sum and word for word —
  the sum of the acc t is the sum over the 8 × 8 tiles, which is the sum over all pairs of rows; divided by 2²⁶ it is
  the specification's mean. No step uses finiteness.
-/
import proofs.«117639_j82652350644520_2_alg».proof.Proof.KIOuts
import proofs.«117639_j82652350644520_2_alg».proof.Proof.HostVal
import proofs.«117639_j82652350644520_2_alg».proof.Proof.Payload
import proofs.«117639_j82652350644520_2_alg».proof.Proof.Chunks
import proofs.«117639_j82652350644520_2_alg».proof.Proof.Spec
import Idealize.ShloMosaic.Lib.Pipeline.Value
import Idealize.ShloMosaic.Lib.ValueIdx

set_option maxRecDepth 16384

noncomputable section

open scoped BigOperators

namespace Cert.KernelIdeal.Final

open Cert.KernelIdeal Cert.KernelIdeal.Gen Cert.KernelIdeal.Hand Cert.KernelIdeal.Pay Cert.KernelIdeal.OutVal
  Cert.KernelIdeal.HostVal
open Idealize.ShloMosaic Idealize.ShloMosaic.TcCoe Idealize.ShloMosaic.ValueIdx Idealize.SL.Sem
open Idealize.ShloMosaic.Pipeline (Dat)

/-! ## A region's mean, from what its blocks hold -/

/-- The value the kernel's arithmetic gives the pair (row r of block t of `X`, row l of chunk k of `Y`), with the
    chunk's sums of squares handed in as a row, is the specification's value of the pair of rows 1024·t + r of `X` and
    1024·k + l of `Y`: the same sums, the same words. -/
theorem pair_kval (X Y : FVec Ideal S8192x256 .f32) (S : FVec Ideal S1x8192 .f32)
    (hS : ∀ j : S1x8192.Idx, S j = Cert.Mmd.sq Y (j 1)) (b1 : FVec Ideal S1024x256 .f32) (t k : Fin 8)
    (hb : ∀ (r : Fin 1024) (q : Fin 256), b1 (ix2 r q) = X (ix2 ⟨1024 * t.val + r.val, by omega⟩ q))
    (r l : Fin 1024) :
    pairVal b1 (chunk2 Y k) (chunk3 S k) r l
      = Cert.Mmd.kval X Y ⟨1024 * t.val + r.val, by omega⟩ ⟨1024 * k.val + l.val, by omega⟩ := by
  have h1 : (∑ q : Fin 256, b1 (ix2 r q) * b1 (ix2 r q)) = Cert.Mmd.sq X ⟨1024 * t.val + r.val, by omega⟩ :=
    Finset.sum_congr rfl fun q _ => by rw [hb]
  have h2 : chunk3 S k (ix2 (0 : Fin 1) l) = Cert.Mmd.sq Y ⟨1024 * k.val + l.val, by omega⟩ := hS _
  have h3 : (∑ q : Fin 256, b1 (ix2 r q) * chunk2 Y k (ix2 l q))
      = Cert.Mmd.dot X Y ⟨1024 * t.val + r.val, by omega⟩ ⟨1024 * k.val + l.val, by omega⟩ :=
    Finset.sum_congr rfl fun q _ => by rw [hb]; rfl
  unfold pairVal Cert.Mmd.kval Cert.Mmd.d2
  rw [h1, h2, h3]

/-- The mean of a region's output is the specification's mean: if every block of eight rows of the 64 × 128 output
    holds, in every element, the 1024th part of the sum over the eight chunks of the pairs' values of block t, then the
    output's sum is the sum over all 8 × 8 tiles, which is the sum over all pairs of rows. -/
theorem region_mean (X Y : FVec Ideal S8192x256 .f32) (S : FVec Ideal S1x8192 .f32)
    (hS : ∀ j : S1x8192.Idx, S j = Cert.Mmd.sq Y (j 1)) (b1 : Fin 8 → FVec Ideal S1024x256 .f32)
    (hb : ∀ (t : Fin 8) (r : Fin 1024) (q : Fin 256), b1 t (ix2 r q) = X (ix2 ⟨1024 * t.val + r.val, by omega⟩ q))
    (o : S64x128.Idx → EReal)
    (ho : ∀ (t : Fin 8) (p : Fin 8) (b : Fin 128), o (ix2 ⟨8 * t.val + p.val, by omega⟩ b)
      = (∑ k : Fin 8, ∑ r : Fin 1024, ∑ l : Fin 1024, pairVal (b1 t) (chunk2 Y k) (chunk3 S k) r l)
          * Ideal.ofBits .f32 0x3A800000#32) :
    mean2 o = Cert.Mmd.rbfMean X Y := by
  unfold mean2 Cert.Mmd.rbfMean Cert.Mmd.rbfSum
  rw [sum_out o (fun t => ∑ k : Fin 8, ∑ r : Fin 1024, ∑ l : Fin 1024, pairVal (b1 t) (chunk2 Y k) (chunk3 S k) r l) ho,
    sum_tiles (fun i j => Cert.Mmd.kval X Y i j)]
  refine congrArg (Ideal.div · Cert.Mmd.count) ?_
  exact Finset.sum_congr rfl fun t _ => Finset.sum_congr rfl fun k _ => Finset.sum_congr rfl fun r _ =>
    Finset.sum_congr rfl fun l _ => pair_kval X Y S hS (b1 t) t k (hb t) r l

/-! ## Region 0 -/

section Region0
variable (V : (c : Dev nD) → (b : Ref sig .tc) → Buf (Elt Ideal) ((c : Thread nD τ).loc b))

/-- The region's grid has eight points. -/
theorem lt8_0 (t : Fin cfg0.N) : t.val < 8 := Nat.lt_of_lt_of_eq t.isLt N_0

/-- The printed index maps over the grid: the first window's and the output's block index at point t is (t, 0); the
    two resident windows stay at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point t is rows 1024·t … 1024·t + 1023 of its array. -/
theorem iblk0_0_apply (c : Dev nD) (t : Fin cfg0.N) (r : Fin 1024) (k : Fin 256) :
    iblk0 V c 0 t (ix2 r k) = V c main_arg0 (ix2 ⟨1024 * t.val + r.val, by have := lt8_0 t; omega⟩ k) := by
  obtain ⟨e0, e1, -⟩ := idx_facts0 t
  show V c main_arg0 (((cfg0.win 0).blk t).view.emb (ix2 r k)) = _
  refine congrArg (V c main_arg0) (funext fun a => Fin.ext ?_)
  match a with
  | ⟨0, _⟩ => show win0_0.index t (0 : Fin 2) * 1024 + 1 * r.val = 1024 * t.val + r.val; omega
  | ⟨1, _⟩ => show win0_0.index t (1 : Fin 2) * 256 + 1 * k.val = k.val; omega

/-- The second window's block is its whole array at every point. -/
theorem iblk0_1_eq (c : Dev nD) (t : Fin cfg0.N) : iblk0 V c 1 t = V c main_arg0 := by
  obtain ⟨-, -, e0, e1, -⟩ := idx_facts0 t
  funext j
  show V c main_arg0 (((cfg0.win 1).blk t).view.emb j) = _
  refine congrArg (V c main_arg0) (funext fun a => Fin.ext ?_)
  match a with
  | ⟨0, _⟩ => show win0_1.index t (0 : Fin 2) * 8192 + 1 * (j 0).val = (j 0).val; omega
  | ⟨1, _⟩ => show win0_1.index t (1 : Fin 2) * 256 + 1 * (j 1).val = (j 1).val; omega

/-- The third window's block is its whole array at every point. -/
theorem iblk0_2_eq (c : Dev nD) (t : Fin cfg0.N) : iblk0 V c 2 t = V c main_v3 := by
  obtain ⟨-, -, -, -, e0, e1, -⟩ := idx_facts0 t
  funext j
  show V c main_v3 (((cfg0.win 2).blk t).view.emb j) = _
  refine congrArg (V c main_v3) (funext fun a => Fin.ext ?_)
  match a with
  | ⟨0, _⟩ => show win0_2.index t (0 : Fin 2) * 1 + 1 * (j 0).val = (j 0).val; omega
  | ⟨1, _⟩ => show win0_2.index t (1 : Fin 2) * 8192 + 1 * (j 1).val = (j 1).val; omega

/-- An index of the output array is in point t's block iff each coordinate is in the block's range on its axis. -/
theorem mem_blk0 (t : Fin cfg0.N) (i : S64x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v4).slice (win0_3.rect t)).set ↔ _
  rw [View.set_slice_whole, Rect.mem_set_unit]
  exact Iff.rfl

/-- The output array after the region: rows 8t … 8t + 7 hold what point t wrote, in every column. Stated for a body
    that leaves the same value `acc t` times 2⁻¹⁰ in every element of its block. -/
theorem final0 (c : Dev nD) (acc : Fin 8 → EReal)
    (hout : ∀ (t : Fin cfg0.N) (y : S8x128.Idx),
      outAt0 (F := Ideal) V c t y = acc ⟨t.val, lt8_0 t⟩ * Ideal.ofBits .f32 0x3A800000#32) :
    (dat0 V c).arrAt 3 cfg0.N = fun i : S64x128.Idx =>
      acc ⟨(i 0).val / 8, by have h : (i 0).val < 64 := (i 0).isLt; omega⟩ * Ideal.ofBits .f32 0x3A800000#32 := by
  refine (dat0 V c).arrAt_eq_of_cover 3 _ (fun t _ => ?_) (fun i => ?_)
  · obtain ⟨-, -, -, -, -, -, e0, e1⟩ := idx_facts0 t
    show (cfg0.win 3).cut (grid0.coords t) ((dat0 V c).after 3 t) = _
    rw [after0_3]
    funext y
    show outAt0 V c t y = acc ⟨(((cfg0.win 3).blk t).view.emb y 0).val / 8, _⟩ * Ideal.ofBits .f32 0x3A800000#32
    rw [hout t y]
    refine congrArg (fun s => acc s * Ideal.ofBits .f32 0x3A800000#32) (Fin.ext ?_)
    show t.val = (win0_3.index t (0 : Fin 2) * 8 + 1 * (y 0).val) / 8
    have hy : (y 0).val < 8 := (y 0).isLt
    omega
  · have hi0 : (i 0).val < 64 := (i 0).isLt
    have hi1 : (i 1).val < 128 := (i 1).isLt
    refine ⟨⟨(i 0).val / 8, by rw [show cfg0.N = 8 from N_0]; omega⟩, flush0_3 _, ?_⟩
    rw [mem_blk0]
    obtain ⟨-, -, -, -, -, -, e0, e1⟩ := idx_facts0 ⟨(i 0).val / 8, by rw [show cfg0.N = 8 from N_0]; omega⟩
    intro a
    match a with
    | ⟨0, _⟩ =>
      show win0_3.index _ (0 : Fin 2) * 8 ≤ (i 0).val ∧ (i 0).val < win0_3.index _ (0 : Fin 2) * 8 + 8
      rw [e0]; show (i 0).val / 8 * 8 ≤ (i 0).val ∧ (i 0).val < (i 0).val / 8 * 8 + 8; omega
    | ⟨1, _⟩ =>
      show win0_3.index _ (1 : Fin 2) * 128 ≤ (i 1).val ∧ (i 1).val < win0_3.index _ (1 : Fin 2) * 128 + 128
      rw [e1]; omega

/-- The same, read at row 8t + p. -/
theorem final0_apply (c : Dev nD) (acc : Fin 8 → EReal)
    (hout : ∀ (t : Fin cfg0.N) (y : S8x128.Idx),
      outAt0 (F := Ideal) V c t y = acc ⟨t.val, lt8_0 t⟩ * Ideal.ofBits .f32 0x3A800000#32)
    (t p : Fin 8) (b : Fin 128) :
    (dat0 V c).arrAt 3 cfg0.N (ix2 ⟨8 * t.val + p.val, by omega⟩ b) = acc t * Ideal.ofBits .f32 0x3A800000#32 := by
  rw [final0 V c acc hout]
  exact congrArg (fun s => acc s * Ideal.ofBits .f32 0x3A800000#32) (Fin.ext (by show (8 * t.val + p.val) / 8 = t.val; omega))

end Region0

/-! ## Region 1 -/

section Region1
variable (V : (c : Dev nD) → (b : Ref sig .tc) → Buf (Elt Ideal) ((c : Thread nD τ).loc b))

/-- The region's grid has eight points. -/
theorem lt8_1 (t : Fin cfg1.N) : t.val < 8 := Nat.lt_of_lt_of_eq t.isLt N_1

/-- The printed index maps over the grid: the first window's and the output's block index at point t is (t, 0); the
    two resident windows stay at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point t is rows 1024·t … 1024·t + 1023 of its array. -/
theorem iblk1_0_apply (c : Dev nD) (t : Fin cfg1.N) (r : Fin 1024) (k : Fin 256) :
    iblk1 V c 0 t (ix2 r k) = V c main_arg1 (ix2 ⟨1024 * t.val + r.val, by have := lt8_1 t; omega⟩ k) := by
  obtain ⟨e0, e1, -⟩ := idx_facts1 t
  show V c main_arg1 (((cfg1.win 0).blk t).view.emb (ix2 r k)) = _
  refine congrArg (V c main_arg1) (funext fun a => Fin.ext ?_)
  match a with
  | ⟨0, _⟩ => show win1_0.index t (0 : Fin 2) * 1024 + 1 * r.val = 1024 * t.val + r.val; omega
  | ⟨1, _⟩ => show win1_0.index t (1 : Fin 2) * 256 + 1 * k.val = k.val; omega

/-- The second window's block is its whole array at every point. -/
theorem iblk1_1_eq (c : Dev nD) (t : Fin cfg1.N) : iblk1 V c 1 t = V c main_arg1 := by
  obtain ⟨-, -, e0, e1, -⟩ := idx_facts1 t
  funext j
  show V c main_arg1 (((cfg1.win 1).blk t).view.emb j) = _
  refine congrArg (V c main_arg1) (funext fun a => Fin.ext ?_)
  match a with
  | ⟨0, _⟩ => show win1_1.index t (0 : Fin 2) * 8192 + 1 * (j 0).val = (j 0).val; omega
  | ⟨1, _⟩ => show win1_1.index t (1 : Fin 2) * 256 + 1 * (j 1).val = (j 1).val; omega

/-- The third window's block is its whole array at every point. -/
theorem iblk1_2_eq (c : Dev nD) (t : Fin cfg1.N) : iblk1 V c 2 t = V c main_v10 := by
  obtain ⟨-, -, -, -, e0, e1, -⟩ := idx_facts1 t
  funext j
  show V c main_v10 (((cfg1.win 2).blk t).view.emb j) = _
  refine congrArg (V c main_v10) (funext fun a => Fin.ext ?_)
  match a with
  | ⟨0, _⟩ => show win1_2.index t (0 : Fin 2) * 1 + 1 * (j 0).val = (j 0).val; omega
  | ⟨1, _⟩ => show win1_2.index t (1 : Fin 2) * 8192 + 1 * (j 1).val = (j 1).val; omega

/-- An index of the output array is in point t's block iff each coordinate is in the block's range on its axis. -/
theorem mem_blk1 (t : Fin cfg1.N) (i : S64x128.Idx) :
    i ∈ ((cfg1.win 3).blk t).view.set ↔ ∀ a : Fin 2, win1_3.index t a * S8x128.size a ≤ (i a).val
      ∧ (i a).val < win1_3.index t a * S8x128.size a + S8x128.size a := by
  show i ∈ ((View.whole main_v11).slice (win1_3.rect t)).set ↔ _
  rw [View.set_slice_whole, Rect.mem_set_unit]
  exact Iff.rfl

/-- The output array after the region: rows 8t … 8t + 7 hold what point t wrote, in every column. Stated for a body
    that leaves the same value `acc t` times 2⁻¹⁰ in every element of its block. -/
theorem final1 (c : Dev nD) (acc : Fin 8 → EReal)
    (hout : ∀ (t : Fin cfg1.N) (y : S8x128.Idx),
      outAt1 (F := Ideal) V c t y = acc ⟨t.val, lt8_1 t⟩ * Ideal.ofBits .f32 0x3A800000#32) :
    (dat1 V c).arrAt 3 cfg1.N = fun i : S64x128.Idx =>
      acc ⟨(i 0).val / 8, by have h : (i 0).val < 64 := (i 0).isLt; omega⟩ * Ideal.ofBits .f32 0x3A800000#32 := by
  refine (dat1 V c).arrAt_eq_of_cover 3 _ (fun t _ => ?_) (fun i => ?_)
  · obtain ⟨-, -, -, -, -, -, e0, e1⟩ := idx_facts1 t
    show (cfg1.win 3).cut (grid1.coords t) ((dat1 V c).after 3 t) = _
    rw [after1_3]
    funext y
    show outAt1 V c t y = acc ⟨(((cfg1.win 3).blk t).view.emb y 0).val / 8, _⟩ * Ideal.ofBits .f32 0x3A800000#32
    rw [hout t y]
    refine congrArg (fun s => acc s * Ideal.ofBits .f32 0x3A800000#32) (Fin.ext ?_)
    show t.val = (win1_3.index t (0 : Fin 2) * 8 + 1 * (y 0).val) / 8
    have hy : (y 0).val < 8 := (y 0).isLt
    omega
  · have hi0 : (i 0).val < 64 := (i 0).isLt
    have hi1 : (i 1).val < 128 := (i 1).isLt
    refine ⟨⟨(i 0).val / 8, by rw [show cfg1.N = 8 from N_1]; omega⟩, flush1_3 _, ?_⟩
    rw [mem_blk1]
    obtain ⟨-, -, -, -, -, -, e0, e1⟩ := idx_facts1 ⟨(i 0).val / 8, by rw [show cfg1.N = 8 from N_1]; omega⟩
    intro a
    match a with
    | ⟨0, _⟩ =>
      show win1_3.index _ (0 : Fin 2) * 8 ≤ (i 0).val ∧ (i 0).val < win1_3.index _ (0 : Fin 2) * 8 + 8
      rw [e0]; show (i 0).val / 8 * 8 ≤ (i 0).val ∧ (i 0).val < (i 0).val / 8 * 8 + 8; omega
    | ⟨1, _⟩ =>
      show win1_3.index _ (1 : Fin 2) * 128 ≤ (i 1).val ∧ (i 1).val < win1_3.index _ (1 : Fin 2) * 128 + 128
      rw [e1]; omega

/-- The same, read at row 8t + p. -/
theorem final1_apply (c : Dev nD) (acc : Fin 8 → EReal)
    (hout : ∀ (t : Fin cfg1.N) (y : S8x128.Idx),
      outAt1 (F := Ideal) V c t y = acc ⟨t.val, lt8_1 t⟩ * Ideal.ofBits .f32 0x3A800000#32)
    (t p : Fin 8) (b : Fin 128) :
    (dat1 V c).arrAt 3 cfg1.N (ix2 ⟨8 * t.val + p.val, by omega⟩ b) = acc t * Ideal.ofBits .f32 0x3A800000#32 := by
  rw [final1 V c acc hout]
  exact congrArg (fun s => acc s * Ideal.ofBits .f32 0x3A800000#32) (Fin.ext (by show (8 * t.val + p.val) / 8 = t.val; omega))

end Region1

/-! ## Region 2 -/

section Region2
variable (V : (c : Dev nD) → (b : Ref sig .tc) → Buf (Elt Ideal) ((c : Thread nD τ).loc b))

/-- The region's grid has eight points. -/
theorem lt8_2 (t : Fin cfg2.N) : t.val < 8 := Nat.lt_of_lt_of_eq t.isLt N_2

/-- The printed index maps over the grid: the first window's and the output's block index at point t is (t, 0); the
    two resident windows stay at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first window's block at point t is rows 1024·t … 1024·t + 1023 of its array. -/
theorem iblk2_0_apply (c : Dev nD) (t : Fin cfg2.N) (r : Fin 1024) (k : Fin 256) :
    iblk2 V c 0 t (ix2 r k) = V c main_arg0 (ix2 ⟨1024 * t.val + r.val, by have := lt8_2 t; omega⟩ k) := by
  obtain ⟨e0, e1, -⟩ := idx_facts2 t
  show V c main_arg0 (((cfg2.win 0).blk t).view.emb (ix2 r k)) = _
  refine congrArg (V c main_arg0) (funext fun a => Fin.ext ?_)
  match a with
  | ⟨0, _⟩ => show win2_0.index t (0 : Fin 2) * 1024 + 1 * r.val = 1024 * t.val + r.val; omega
  | ⟨1, _⟩ => show win2_0.index t (1 : Fin 2) * 256 + 1 * k.val = k.val; omega

/-- The second window's block is its whole array at every point. -/
theorem iblk2_1_eq (c : Dev nD) (t : Fin cfg2.N) : iblk2 V c 1 t = V c main_arg1 := by
  obtain ⟨-, -, e0, e1, -⟩ := idx_facts2 t
  funext j
  show V c main_arg1 (((cfg2.win 1).blk t).view.emb j) = _
  refine congrArg (V c main_arg1) (funext fun a => Fin.ext ?_)
  match a with
  | ⟨0, _⟩ => show win2_1.index t (0 : Fin 2) * 8192 + 1 * (j 0).val = (j 0).val; omega
  | ⟨1, _⟩ => show win2_1.index t (1 : Fin 2) * 256 + 1 * (j 1).val = (j 1).val; omega

/-- The third window's block is its whole array at every point. -/
theorem iblk2_2_eq (c : Dev nD) (t : Fin cfg2.N) : iblk2 V c 2 t = V c main_v17 := by
  obtain ⟨-, -, -, -, e0, e1, -⟩ := idx_facts2 t
  funext j
  show V c main_v17 (((cfg2.win 2).blk t).view.emb j) = _
  refine congrArg (V c main_v17) (funext fun a => Fin.ext ?_)
  match a with
  | ⟨0, _⟩ => show win2_2.index t (0 : Fin 2) * 1 + 1 * (j 0).val = (j 0).val; omega
  | ⟨1, _⟩ => show win2_2.index t (1 : Fin 2) * 8192 + 1 * (j 1).val = (j 1).val; omega

/-- An index of the output array is in point t's block iff each coordinate is in the block's range on its axis. -/
theorem mem_blk2 (t : Fin cfg2.N) (i : S64x128.Idx) :
    i ∈ ((cfg2.win 3).blk t).view.set ↔ ∀ a : Fin 2, win2_3.index t a * S8x128.size a ≤ (i a).val
      ∧ (i a).val < win2_3.index t a * S8x128.size a + S8x128.size a := by
  show i ∈ ((View.whole main_v18).slice (win2_3.rect t)).set ↔ _
  rw [View.set_slice_whole, Rect.mem_set_unit]
  exact Iff.rfl

/-- The output array after the region: rows 8t … 8t + 7 hold what point t wrote, in every column. Stated for a body
    that leaves the same value `acc t` times 2⁻¹⁰ in every element of its block. -/
theorem final2 (c : Dev nD) (acc : Fin 8 → EReal)
    (hout : ∀ (t : Fin cfg2.N) (y : S8x128.Idx),
      outAt2 (F := Ideal) V c t y = acc ⟨t.val, lt8_2 t⟩ * Ideal.ofBits .f32 0x3A800000#32) :
    (dat2 V c).arrAt 3 cfg2.N = fun i : S64x128.Idx =>
      acc ⟨(i 0).val / 8, by have h : (i 0).val < 64 := (i 0).isLt; omega⟩ * Ideal.ofBits .f32 0x3A800000#32 := by
  refine (dat2 V c).arrAt_eq_of_cover 3 _ (fun t _ => ?_) (fun i => ?_)
  · obtain ⟨-, -, -, -, -, -, e0, e1⟩ := idx_facts2 t
    show (cfg2.win 3).cut (grid2.coords t) ((dat2 V c).after 3 t) = _
    rw [after2_3]
    funext y
    show outAt2 V c t y = acc ⟨(((cfg2.win 3).blk t).view.emb y 0).val / 8, _⟩ * Ideal.ofBits .f32 0x3A800000#32
    rw [hout t y]
    refine congrArg (fun s => acc s * Ideal.ofBits .f32 0x3A800000#32) (Fin.ext ?_)
    show t.val = (win2_3.index t (0 : Fin 2) * 8 + 1 * (y 0).val) / 8
    have hy : (y 0).val < 8 := (y 0).isLt
    omega
  · have hi0 : (i 0).val < 64 := (i 0).isLt
    have hi1 : (i 1).val < 128 := (i 1).isLt
    refine ⟨⟨(i 0).val / 8, by rw [show cfg2.N = 8 from N_2]; omega⟩, flush2_3 _, ?_⟩
    rw [mem_blk2]
    obtain ⟨-, -, -, -, -, -, e0, e1⟩ := idx_facts2 ⟨(i 0).val / 8, by rw [show cfg2.N = 8 from N_2]; omega⟩
    intro a
    match a with
    | ⟨0, _⟩ =>
      show win2_3.index _ (0 : Fin 2) * 8 ≤ (i 0).val ∧ (i 0).val < win2_3.index _ (0 : Fin 2) * 8 + 8
      rw [e0]; show (i 0).val / 8 * 8 ≤ (i 0).val ∧ (i 0).val < (i 0).val / 8 * 8 + 8; omega
    | ⟨1, _⟩ =>
      show win2_3.index _ (1 : Fin 2) * 128 ≤ (i 1).val ∧ (i 1).val < win2_3.index _ (1 : Fin 2) * 128 + 128
      rw [e1]; omega

/-- The same, read at row 8t + p. -/
theorem final2_apply (c : Dev nD) (acc : Fin 8 → EReal)
    (hout : ∀ (t : Fin cfg2.N) (y : S8x128.Idx),
      outAt2 (F := Ideal) V c t y = acc ⟨t.val, lt8_2 t⟩ * Ideal.ofBits .f32 0x3A800000#32)
    (t p : Fin 8) (b : Fin 128) :
    (dat2 V c).arrAt 3 cfg2.N (ix2 ⟨8 * t.val + p.val, by omega⟩ b) = acc t * Ideal.ofBits .f32 0x3A800000#32 := by
  rw [final2 V c acc hout]
  exact congrArg (fun s => acc s * Ideal.ofBits .f32 0x3A800000#32) (Fin.ext (by show (8 * t.val + p.val) / 8 = t.val; omega))

end Region2

end Cert.KernelIdeal.Final

end
-- ==== Proof.KIOut0.lean ====
/-
  What one grid point of kernel 0 leaves in its output block, as a value.

  The body zeroes its 1 x 1 accumulator, goes eight times round its loop, each trip storing over the accumulator the
  accumulator found plus the sum, over the 1024 x 1024 pairs (row r of the point's block, row l of the trip's chunk of
  the second operand), of the pair's value; then it stores the accumulator times 2⁻¹⁰ over the whole 8 x 128 output
  block. Every store to the accumulator covers its one cell, so after any number of stores the cell holds the last
  payload; the contents after k trips therefore obey a recurrence on k — the zero, then one trip's value of the
  contents before —, and at the extended reals the recurrence is the sum over the trips before k of the trips' sums.
  So every element of the output block is the sum over the eight chunks, the 1024 rows of the block and the 1024 rows
  of the chunk, of the pair's value, times 2⁻¹⁰.
-/
import proofs.«117639_j82652350644520_2_alg».proof.Proof.KIRun0
import proofs.«117639_j82652350644520_2_alg».proof.Proof.Payload
import proofs.«117639_j82652350644520_2_alg».proof.Proof.Chunks
import Idealize.ShloMosaic.Lib.Pipeline.Value
import Idealize.ShloMosaic.Lib.Pipeline.FrameBody
import Idealize.ShloMosaic.Lib.Writes
import Idealize.ShloMosaic.Lib.Tactic

set_option maxRecDepth 16384

noncomputable section

open scoped BigOperators

namespace Cert.KernelIdeal.OutVal0

open Cert.KernelIdeal Cert.KernelIdeal.Gen Cert.KernelIdeal.Hand Cert.KernelIdeal.Pay Cert.KernelIdeal.OutVal
open Idealize.ShloMosaic Idealize.ShloMosaic.TcCoe Idealize.ShloMosaic.Tactic Idealize.ShloMosaic.ValueIdx
open Idealize.SL.Sem

variable {F : FTy → Type} [FloatOps F]

/-- The loop makes eight trips. -/
theorem trips_eq : k0_t1_loop.trips = 8 := by decide

/-- The accumulator's one cell, as a rectangle. -/
abbrev r0 : Rect S1x1 := Rect.unit ![0, 0] S1x1.size inb_S1x1_S1x1_0_0

/-- A store over the whole of a buffer, LAST, leaves its payload: whatever the contents before and the earlier stores,
    the buffer then reads that payload. -/
theorem read_writes_cons_unit_zero {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L)
    (fun y => ⟨(⟨Rect.unit off S.size inb, w⟩ : View.Piece Val S e), List.mem_cons_self, View.mem_set_unit_zero h inb y⟩)).trans
    (View.canon_cons_unit_zero h inb w L)

/-- ONE TRIP's pieces: a single store, over the accumulator's cell, of the trip's value of the block, of the two
    chunks loaded at the trip's offsets, and of the accumulator loaded. -/
theorem tripL_eq (𝒱 : Variants) (bd : Option 𝒱.V) (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (k : Fin k0_t1_loop.trips) (f : BufTy.Contents (Elt F) arg5.view.ty) :
    tripL_k0_t1 (F := F) 𝒱 c bd i arg1 harg1 arg2 harg2 arg3 harg3 arg4 harg4 arg5 harg5 v4 X2 X3 k f
      = [⟨r0, k0_pay2 v4
            (View.readAt (Elt F) arg2.view (Rect.unit (s := S8192x256) (k0_off1 k) S1024x256.size (k0_off1_inb k)).toLoadRect X2)
            (View.readAt (Elt F) arg3.view (Rect.unit (s := S1x8192) (k0_off2 k) S1x1024.size (k0_off2_inb k)).toLoadRect X3)
            (View.readAt (Elt F) arg5.view r0.toLoadRect f)⟩] := by
  unfold tripL_k0_t1 trip_k0_t1
  rfl

/-- The accumulator after `k` trips, from its contents `a0` at the loop's entry, the block `v4` and the chunks
    `L2 t`, `L3 t` trip `t` loads: each trip's value of the contents before it. -/
def accAt (a0 : Vec F S1x1 .f32) (v4 : Vec F S1024x256 .f32) (L2 : Fin k0_t1_loop.trips → Vec F S1024x256 .f32)
    (L3 : Fin k0_t1_loop.trips → Vec F S1x1024 .f32) : ℕ → Vec F S1x1 .f32
  | 0 => a0
  | k + 1 => if h : k < k0_t1_loop.trips then k0_pay2 v4 (L2 ⟨k, h⟩) (L3 ⟨k, h⟩) (accAt a0 v4 L2 L3 k) else accAt a0 v4 L2 L3 k

/-- THE RECURRENCE: over any contents `G` at the loop's entry, the pieces of the trips before `k` leave the accumulator
    reading `accAt` at `k` — each trip's one store covers the cell, so the cell reads that store's payload, whose last
    operand is the cell as the trips before left it. -/
theorem read_pb (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (G : BufTy.Contents (Elt F) arg5.view.ty) :
    ∀ k : ℕ, k ≤ k0_t1_loop.trips →
      arg5.view.read (Elt F) (arg5.view.writes (Elt F) G
          (pb_k0_t1 (F := F) Variants.none c none i arg1 harg1 arg2 harg2 arg3 harg3 arg4 harg4 arg5 harg5 v4 X2 X3 G k))
        = accAt (arg5.view.read (Elt F) G) v4
            (fun t => View.readAt (Elt F) arg2.view (Rect.unit (s := S8192x256) (k0_off1 t) S1024x256.size (k0_off1_inb t)).toLoadRect X2)
            (fun t => View.readAt (Elt F) arg3.view (Rect.unit (s := S1x8192) (k0_off2 t) S1x1024.size (k0_off2_inb t)).toLoadRect X3) k := by
  intro k
  induction k with
  | zero => intro _; rfl
  | succ k ih =>
    intro hk
    have h : k < k0_t1_loop.trips := hk
    have ih := ih (Nat.le_of_lt h)
    have hs := pb_k0_t1_succ (F := F) Variants.none c none i arg1 harg1 arg2 harg2 arg3 harg3 arg4 harg4 arg5 harg5 v4 X2 X3 G ⟨k, h⟩
    rw [show (⟨k, h⟩ : Fin k0_t1_loop.trips).val + 1 = k + 1 from rfl] at hs
    rw [hs, tripL_eq, List.singleton_append]
    rw [read_writes_cons_unit_zero (S := S1x1) arg5.view _ hz]
    rw [View.readAt_eq_ld arg5.view, ih, View.ld_unit_zero (S := S1x1) hz]
    rw [accAt, dif_pos h]

/-- THE OUTPUT BLOCK, for any float values: the last payload of the accumulator after the eight trips, started from
    the zero the body stores first, over the point's block and the loads at the trips' offsets. -/
theorem out0_3_eq (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    out0_3 c i arg1 harg1 arg2 harg2 arg3 harg3 arg4 harg4 arg5 harg5 x1 x2 x3
      = k0_pay3 (accAt (F := F) (k0_pay1 (F := F)) x1
          (fun t => View.ld (Val := Elt F) (e' := EltTy.f32) x2 (Rect.unit (s := S8192x256) (k0_off1 t) S1024x256.size (k0_off1_inb t)))
          (fun t => View.ld (Val := Elt F) (e' := EltTy.f32) x3 (Rect.unit (s := S1x8192) (k0_off2 t) S1x1024.size (k0_off2_inb t)))
          k0_t1_loop.trips) := by
  unfold out0_3
  rw [View.read_writes_eq_canon _ _ _ (cover0_3 c i arg1 harg1 arg2 harg2 arg3 harg3 arg4 harg4 arg5 harg5 x1 x2 x3)]
  unfold kernelRun0
  dsimp only
  rw [View.canon_unit_zero (S := S8x128) hz]
  sl_unfold_run_names
  rw [View.writes_append]
  rw [View.readAt_eq_ld arg5.view, read_pb _ _ _ _ _ _ _ _ _ _ _ _ _ _ _ _ _ (Nat.le_refl _)]
  rw [View.read_writes_junk_eq_canon, View.canon_unit_zero (S := S1x1) hz, View.ld_unit_zero (S := S1x1) hz]
  simp only [View.readAt_eq_ld, harg1.read_unread, harg2.read_unread, harg3.read_unread,
    View.ld_unit_zero (S := S1024x256) hz]

/-- At the extended reals the recurrence from the zero is the sum, over the trips before `k`, of the trips' sums of
    the pairs' values. -/
theorem accAt_apply (x1 : FVec Ideal S1024x256 .f32) (L2 : Fin k0_t1_loop.trips → FVec Ideal S1024x256 .f32)
    (L3 : Fin k0_t1_loop.trips → FVec Ideal S1x1024 .f32) :
    ∀ (k : ℕ) (hk : k ≤ k0_t1_loop.trips) (y : S1x1.Idx),
      accAt (F := Ideal) (k0_pay1 (F := Ideal)) x1 L2 L3 k y
        = ∑ t : Fin k, ∑ r : Fin 1024, ∑ l : Fin 1024,
            pairVal x1 (L2 ⟨t.val, Nat.lt_of_lt_of_le t.isLt hk⟩) (L3 ⟨t.val, Nat.lt_of_lt_of_le t.isLt hk⟩) r l
  | 0, _, y => by
    rw [Finset.univ_eq_empty, Finset.sum_empty]
    exact pay1_apply y
  | k + 1, hk, y => by
    have h : k < k0_t1_loop.trips := hk
    rw [Fin.sum_univ_castSucc, accAt, dif_pos h, pay2_apply, accAt_apply x1 L2 L3 k (Nat.le_of_lt h)]
    rfl

/-- THE OUTPUT BLOCK at the extended reals: at every element, the sum over the eight chunks, the block's rows and the
    chunk's rows of the pair's value, times the word `2⁻¹⁰`. -/
theorem out0_3_apply (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : FVec Ideal S1024x256 .f32) (x2 : FVec Ideal S8192x256 .f32) (x3 : FVec Ideal S1x8192 .f32) (y : S8x128.Idx) :
    out0_3 (F := Ideal) c i arg1 harg1 arg2 harg2 arg3 harg3 arg4 harg4 arg5 harg5 x1 x2 x3 y
      = (∑ k : Fin 8, ∑ r : Fin 1024, ∑ l : Fin 1024, pairVal x1 (chunk2 x2 k) (chunk3 x3 k) r l)
          * Ideal.ofBits .f32 0x3A800000#32 := by
  rw [out0_3_eq, pay3_apply, accAt_apply _ _ _ _ (Nat.le_refl _)]
  refine congrArg (· * Ideal.ofBits .f32 0x3A800000#32) ?_
  refine Eq.trans ?_ (Equiv.sum_comp (finCongr trips_eq) fun k : Fin 8 =>
    ∑ r : Fin 1024, ∑ l : Fin 1024, pairVal x1 (chunk2 x2 k) (chunk3 x3 k) r l)
  refine Finset.sum_congr rfl fun t _ => ?_
  rw [ld_chunk2 x2 (Fin.cast trips_eq t) _ (k0_off1_eq t), ld_chunk3 x3 (Fin.cast trips_eq t) _ (k0_off2_eq t)]
  rfl

end Cert.KernelIdeal.OutVal0

end
-- ==== Proof.KIOut1.lean ====
/-
  What one grid point of kernel 1 leaves in its output block, as a value.

  The body zeroes its 1 x 1 accumulator, goes eight times round its loop, each trip storing over the accumulator the
  accumulator found plus the sum, over the 1024 x 1024 pairs (row r of the point's block, row l of the trip's chunk of
  the second operand), of the pair's value; then it stores the accumulator times 2⁻¹⁰ over the whole 8 x 128 output
  block. Every store to the accumulator covers its one cell, so after any number of stores the cell holds the last
  payload; the contents after k trips therefore obey a recurrence on k — the zero, then one trip's value of the
  contents before —, and at the extended reals the recurrence is the sum over the trips before k of the trips' sums.
  So every element of the output block is the sum over the eight chunks, the 1024 rows of the block and the 1024 rows
  of the chunk, of the pair's value, times 2⁻¹⁰.
-/
import proofs.«117639_j82652350644520_2_alg».proof.Proof.KIRun1
import proofs.«117639_j82652350644520_2_alg».proof.Proof.Payload
import proofs.«117639_j82652350644520_2_alg».proof.Proof.Chunks
import Idealize.ShloMosaic.Lib.Pipeline.Value
import Idealize.ShloMosaic.Lib.Pipeline.FrameBody
import Idealize.ShloMosaic.Lib.Writes
import Idealize.ShloMosaic.Lib.Tactic

set_option maxRecDepth 16384

noncomputable section

open scoped BigOperators

namespace Cert.KernelIdeal.OutVal1

open Cert.KernelIdeal Cert.KernelIdeal.Gen Cert.KernelIdeal.Hand Cert.KernelIdeal.Pay Cert.KernelIdeal.OutVal
open Idealize.ShloMosaic Idealize.ShloMosaic.TcCoe Idealize.ShloMosaic.Tactic Idealize.ShloMosaic.ValueIdx
open Idealize.SL.Sem

variable {F : FTy → Type} [FloatOps F]

/-- The loop makes eight trips. -/
theorem trips_eq : k1_t1_loop.trips = 8 := by decide

/-- The accumulator's one cell, as a rectangle. -/
abbrev r0 : Rect S1x1 := Rect.unit ![0, 0] S1x1.size inb_S1x1_S1x1_0_0

/-- A store over the whole of a buffer, LAST, leaves its payload: whatever the contents before and the earlier stores,
    the buffer then reads that payload. -/
theorem read_writes_cons_unit_zero {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L)
    (fun y => ⟨(⟨Rect.unit off S.size inb, w⟩ : View.Piece Val S e), List.mem_cons_self, View.mem_set_unit_zero h inb y⟩)).trans
    (View.canon_cons_unit_zero h inb w L)

/-- ONE TRIP's pieces: a single store, over the accumulator's cell, of the trip's value of the block, of the two
    chunks loaded at the trip's offsets, and of the accumulator loaded. -/
theorem tripL_eq (𝒱 : Variants) (bd : Option 𝒱.V) (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (k : Fin k1_t1_loop.trips) (f : BufTy.Contents (Elt F) arg5.view.ty) :
    tripL_k1_t1 (F := F) 𝒱 c bd i arg1 harg1 arg2 harg2 arg3 harg3 arg4 harg4 arg5 harg5 v4 X2 X3 k f
      = [⟨r0, k1_pay2 v4
            (View.readAt (Elt F) arg2.view (Rect.unit (s := S8192x256) (k1_off1 k) S1024x256.size (k1_off1_inb k)).toLoadRect X2)
            (View.readAt (Elt F) arg3.view (Rect.unit (s := S1x8192) (k1_off2 k) S1x1024.size (k1_off2_inb k)).toLoadRect X3)
            (View.readAt (Elt F) arg5.view r0.toLoadRect f)⟩] := by
  unfold tripL_k1_t1 trip_k1_t1
  rfl

/-- The accumulator after `k` trips, from its contents `a0` at the loop's entry, the block `v4` and the chunks
    `L2 t`, `L3 t` trip `t` loads: each trip's value of the contents before it. -/
def accAt (a0 : Vec F S1x1 .f32) (v4 : Vec F S1024x256 .f32) (L2 : Fin k1_t1_loop.trips → Vec F S1024x256 .f32)
    (L3 : Fin k1_t1_loop.trips → Vec F S1x1024 .f32) : ℕ → Vec F S1x1 .f32
  | 0 => a0
  | k + 1 => if h : k < k1_t1_loop.trips then k1_pay2 v4 (L2 ⟨k, h⟩) (L3 ⟨k, h⟩) (accAt a0 v4 L2 L3 k) else accAt a0 v4 L2 L3 k

/-- THE RECURRENCE: over any contents `G` at the loop's entry, the pieces of the trips before `k` leave the accumulator
    reading `accAt` at `k` — each trip's one store covers the cell, so the cell reads that store's payload, whose last
    operand is the cell as the trips before left it. -/
theorem read_pb (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (G : BufTy.Contents (Elt F) arg5.view.ty) :
    ∀ k : ℕ, k ≤ k1_t1_loop.trips →
      arg5.view.read (Elt F) (arg5.view.writes (Elt F) G
          (pb_k1_t1 (F := F) Variants.none c none i arg1 harg1 arg2 harg2 arg3 harg3 arg4 harg4 arg5 harg5 v4 X2 X3 G k))
        = accAt (arg5.view.read (Elt F) G) v4
            (fun t => View.readAt (Elt F) arg2.view (Rect.unit (s := S8192x256) (k1_off1 t) S1024x256.size (k1_off1_inb t)).toLoadRect X2)
            (fun t => View.readAt (Elt F) arg3.view (Rect.unit (s := S1x8192) (k1_off2 t) S1x1024.size (k1_off2_inb t)).toLoadRect X3) k := by
  intro k
  induction k with
  | zero => intro _; rfl
  | succ k ih =>
    intro hk
    have h : k < k1_t1_loop.trips := hk
    have ih := ih (Nat.le_of_lt h)
    have hs := pb_k1_t1_succ (F := F) Variants.none c none i arg1 harg1 arg2 harg2 arg3 harg3 arg4 harg4 arg5 harg5 v4 X2 X3 G ⟨k, h⟩
    rw [show (⟨k, h⟩ : Fin k1_t1_loop.trips).val + 1 = k + 1 from rfl] at hs
    rw [hs, tripL_eq, List.singleton_append]
    rw [read_writes_cons_unit_zero (S := S1x1) arg5.view _ hz]
    rw [View.readAt_eq_ld arg5.view, ih, View.ld_unit_zero (S := S1x1) hz]
    rw [accAt, dif_pos h]

/-- THE OUTPUT BLOCK, for any float values: the last payload of the accumulator after the eight trips, started from
    the zero the body stores first, over the point's block and the loads at the trips' offsets. -/
theorem out1_3_eq (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    out1_3 c i arg1 harg1 arg2 harg2 arg3 harg3 arg4 harg4 arg5 harg5 x1 x2 x3
      = k1_pay3 (accAt (F := F) (k1_pay1 (F := F)) x1
          (fun t => View.ld (Val := Elt F) (e' := EltTy.f32) x2 (Rect.unit (s := S8192x256) (k1_off1 t) S1024x256.size (k1_off1_inb t)))
          (fun t => View.ld (Val := Elt F) (e' := EltTy.f32) x3 (Rect.unit (s := S1x8192) (k1_off2 t) S1x1024.size (k1_off2_inb t)))
          k1_t1_loop.trips) := by
  unfold out1_3
  rw [View.read_writes_eq_canon _ _ _ (cover1_3 c i arg1 harg1 arg2 harg2 arg3 harg3 arg4 harg4 arg5 harg5 x1 x2 x3)]
  unfold kernelRun1
  dsimp only
  rw [View.canon_unit_zero (S := S8x128) hz]
  sl_unfold_run_names
  rw [View.writes_append]
  rw [View.readAt_eq_ld arg5.view, read_pb _ _ _ _ _ _ _ _ _ _ _ _ _ _ _ _ _ (Nat.le_refl _)]
  rw [View.read_writes_junk_eq_canon, View.canon_unit_zero (S := S1x1) hz, View.ld_unit_zero (S := S1x1) hz]
  simp only [View.readAt_eq_ld, harg1.read_unread, harg2.read_unread, harg3.read_unread,
    View.ld_unit_zero (S := S1024x256) hz]

/-- At the extended reals the recurrence from the zero is the sum, over the trips before `k`, of the trips' sums of
    the pairs' values. -/
theorem accAt_apply (x1 : FVec Ideal S1024x256 .f32) (L2 : Fin k1_t1_loop.trips → FVec Ideal S1024x256 .f32)
    (L3 : Fin k1_t1_loop.trips → FVec Ideal S1x1024 .f32) :
    ∀ (k : ℕ) (hk : k ≤ k1_t1_loop.trips) (y : S1x1.Idx),
      accAt (F := Ideal) (k1_pay1 (F := Ideal)) x1 L2 L3 k y
        = ∑ t : Fin k, ∑ r : Fin 1024, ∑ l : Fin 1024,
            pairVal x1 (L2 ⟨t.val, Nat.lt_of_lt_of_le t.isLt hk⟩) (L3 ⟨t.val, Nat.lt_of_lt_of_le t.isLt hk⟩) r l
  | 0, _, y => by
    rw [Finset.univ_eq_empty, Finset.sum_empty]
    exact k1_pay1_apply y
  | k + 1, hk, y => by
    have h : k < k1_t1_loop.trips := hk
    rw [Fin.sum_univ_castSucc, accAt, dif_pos h, k1_pay2_apply, accAt_apply x1 L2 L3 k (Nat.le_of_lt h)]
    rfl

/-- THE OUTPUT BLOCK at the extended reals: at every element, the sum over the eight chunks, the block's rows and the
    chunk's rows of the pair's value, times the word `2⁻¹⁰`. -/
theorem out1_3_apply (c : Dev nD) (i : grid1.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : FVec Ideal S1024x256 .f32) (x2 : FVec Ideal S8192x256 .f32) (x3 : FVec Ideal S1x8192 .f32) (y : S8x128.Idx) :
    out1_3 (F := Ideal) c i arg1 harg1 arg2 harg2 arg3 harg3 arg4 harg4 arg5 harg5 x1 x2 x3 y
      = (∑ k : Fin 8, ∑ r : Fin 1024, ∑ l : Fin 1024, pairVal x1 (chunk2 x2 k) (chunk3 x3 k) r l)
          * Ideal.ofBits .f32 0x3A800000#32 := by
  rw [out1_3_eq, k1_pay3_apply, accAt_apply _ _ _ _ (Nat.le_refl _)]
  refine congrArg (· * Ideal.ofBits .f32 0x3A800000#32) ?_
  refine Eq.trans ?_ (Equiv.sum_comp (finCongr trips_eq) fun k : Fin 8 =>
    ∑ r : Fin 1024, ∑ l : Fin 1024, pairVal x1 (chunk2 x2 k) (chunk3 x3 k) r l)
  refine Finset.sum_congr rfl fun t _ => ?_
  rw [ld_chunk2 x2 (Fin.cast trips_eq t) _ (k1_off1_eq t), ld_chunk3 x3 (Fin.cast trips_eq t) _ (k1_off2_eq t)]
  rfl

end Cert.KernelIdeal.OutVal1

end
-- ==== Proof.KIOut2.lean ====
/-
  What one grid point of kernel 2 leaves in its output block, as a value.

  The body zeroes its 1 x 1 accumulator, goes eight times round its loop, each trip storing over the accumulator the
  accumulator found plus the sum, over the 1024 x 1024 pairs (row r of the point's block, row l of the trip's chunk of
  the second operand), of the pair's value; then it stores the accumulator times 2⁻¹⁰ over the whole 8 x 128 output
  block. Every store to the accumulator covers its one cell, so after any number of stores the cell holds the last
  payload; the contents after k trips therefore obey a recurrence on k — the zero, then one trip's value of the
  contents before —, and at the extended reals the recurrence is the sum over the trips before k of the trips' sums.
  So every element of the output block is the sum over the eight chunks, the 1024 rows of the block and the 1024 rows
  of the chunk, of the pair's value, times 2⁻¹⁰.
-/
import proofs.«117639_j82652350644520_2_alg».proof.Proof.KIRun2
import proofs.«117639_j82652350644520_2_alg».proof.Proof.Payload
import proofs.«117639_j82652350644520_2_alg».proof.Proof.Chunks
import Idealize.ShloMosaic.Lib.Pipeline.Value
import Idealize.ShloMosaic.Lib.Pipeline.FrameBody
import Idealize.ShloMosaic.Lib.Writes
import Idealize.ShloMosaic.Lib.Tactic

set_option maxRecDepth 16384

noncomputable section

open scoped BigOperators

namespace Cert.KernelIdeal.OutVal2

open Cert.KernelIdeal Cert.KernelIdeal.Gen Cert.KernelIdeal.Hand Cert.KernelIdeal.Pay Cert.KernelIdeal.OutVal
open Idealize.ShloMosaic Idealize.ShloMosaic.TcCoe Idealize.ShloMosaic.Tactic Idealize.ShloMosaic.ValueIdx
open Idealize.SL.Sem

variable {F : FTy → Type} [FloatOps F]

/-- The loop makes eight trips. -/
theorem trips_eq : k2_t1_loop.trips = 8 := by decide

/-- The accumulator's one cell, as a rectangle. -/
abbrev r0 : Rect S1x1 := Rect.unit ![0, 0] S1x1.size inb_S1x1_S1x1_0_0

/-- A store over the whole of a buffer, LAST, leaves its payload: whatever the contents before and the earlier stores,
    the buffer then reads that payload. -/
theorem read_writes_cons_unit_zero {sig' : RefSig} {κ : Kind} {sp : Space} {S : Shape} {e : EltTy} {Val : EltTy → Type}
    [∀ e, Nonempty (Val e)] (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L)
    (fun y => ⟨(⟨Rect.unit off S.size inb, w⟩ : View.Piece Val S e), List.mem_cons_self, View.mem_set_unit_zero h inb y⟩)).trans
    (View.canon_cons_unit_zero h inb w L)

/-- ONE TRIP's pieces: a single store, over the accumulator's cell, of the trip's value of the block, of the two
    chunks loaded at the trip's offsets, and of the accumulator loaded. -/
theorem tripL_eq (𝒱 : Variants) (bd : Option 𝒱.V) (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (k : Fin k2_t1_loop.trips) (f : BufTy.Contents (Elt F) arg5.view.ty) :
    tripL_k2_t1 (F := F) 𝒱 c bd i arg1 harg1 arg2 harg2 arg3 harg3 arg4 harg4 arg5 harg5 v4 X2 X3 k f
      = [⟨r0, k2_pay2 v4
            (View.readAt (Elt F) arg2.view (Rect.unit (s := S8192x256) (k2_off1 k) S1024x256.size (k2_off1_inb k)).toLoadRect X2)
            (View.readAt (Elt F) arg3.view (Rect.unit (s := S1x8192) (k2_off2 k) S1x1024.size (k2_off2_inb k)).toLoadRect X3)
            (View.readAt (Elt F) arg5.view r0.toLoadRect f)⟩] := by
  unfold tripL_k2_t1 trip_k2_t1
  rfl

/-- The accumulator after `k` trips, from its contents `a0` at the loop's entry, the block `v4` and the chunks
    `L2 t`, `L3 t` trip `t` loads: each trip's value of the contents before it. -/
def accAt (a0 : Vec F S1x1 .f32) (v4 : Vec F S1024x256 .f32) (L2 : Fin k2_t1_loop.trips → Vec F S1024x256 .f32)
    (L3 : Fin k2_t1_loop.trips → Vec F S1x1024 .f32) : ℕ → Vec F S1x1 .f32
  | 0 => a0
  | k + 1 => if h : k < k2_t1_loop.trips then k2_pay2 v4 (L2 ⟨k, h⟩) (L3 ⟨k, h⟩) (accAt a0 v4 L2 L3 k) else accAt a0 v4 L2 L3 k

/-- THE RECURRENCE: over any contents `G` at the loop's entry, the pieces of the trips before `k` leave the accumulator
    reading `accAt` at `k` — each trip's one store covers the cell, so the cell reads that store's payload, whose last
    operand is the cell as the trips before left it. -/
theorem read_pb (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (v4 : Vec F S1024x256 .f32) (X2 : BufTy.Contents (Elt F) arg2.view.ty) (X3 : BufTy.Contents (Elt F) arg3.view.ty)
    (G : BufTy.Contents (Elt F) arg5.view.ty) :
    ∀ k : ℕ, k ≤ k2_t1_loop.trips →
      arg5.view.read (Elt F) (arg5.view.writes (Elt F) G
          (pb_k2_t1 (F := F) Variants.none c none i arg1 harg1 arg2 harg2 arg3 harg3 arg4 harg4 arg5 harg5 v4 X2 X3 G k))
        = accAt (arg5.view.read (Elt F) G) v4
            (fun t => View.readAt (Elt F) arg2.view (Rect.unit (s := S8192x256) (k2_off1 t) S1024x256.size (k2_off1_inb t)).toLoadRect X2)
            (fun t => View.readAt (Elt F) arg3.view (Rect.unit (s := S1x8192) (k2_off2 t) S1x1024.size (k2_off2_inb t)).toLoadRect X3) k := by
  intro k
  induction k with
  | zero => intro _; rfl
  | succ k ih =>
    intro hk
    have h : k < k2_t1_loop.trips := hk
    have ih := ih (Nat.le_of_lt h)
    have hs := pb_k2_t1_succ (F := F) Variants.none c none i arg1 harg1 arg2 harg2 arg3 harg3 arg4 harg4 arg5 harg5 v4 X2 X3 G ⟨k, h⟩
    rw [show (⟨k, h⟩ : Fin k2_t1_loop.trips).val + 1 = k + 1 from rfl] at hs
    rw [hs, tripL_eq, List.singleton_append]
    rw [read_writes_cons_unit_zero (S := S1x1) arg5.view _ hz]
    rw [View.readAt_eq_ld arg5.view, ih, View.ld_unit_zero (S := S1x1) hz]
    rw [accAt, dif_pos h]

/-- THE OUTPUT BLOCK, for any float values: the last payload of the accumulator after the eight trips, started from
    the zero the body stores first, over the point's block and the loads at the trips' offsets. -/
theorem out2_3_eq (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : Vec F S1024x256 .f32) (x2 : Vec F S8192x256 .f32) (x3 : Vec F S1x8192 .f32) :
    out2_3 c i arg1 harg1 arg2 harg2 arg3 harg3 arg4 harg4 arg5 harg5 x1 x2 x3
      = k2_pay3 (accAt (F := F) (k2_pay1 (F := F)) x1
          (fun t => View.ld (Val := Elt F) (e' := EltTy.f32) x2 (Rect.unit (s := S8192x256) (k2_off1 t) S1024x256.size (k2_off1_inb t)))
          (fun t => View.ld (Val := Elt F) (e' := EltTy.f32) x3 (Rect.unit (s := S1x8192) (k2_off2 t) S1x1024.size (k2_off2_inb t)))
          k2_t1_loop.trips) := by
  unfold out2_3
  rw [View.read_writes_eq_canon _ _ _ (cover2_3 c i arg1 harg1 arg2 harg2 arg3 harg3 arg4 harg4 arg5 harg5 x1 x2 x3)]
  unfold kernelRun2
  dsimp only
  rw [View.canon_unit_zero (S := S8x128) hz]
  sl_unfold_run_names
  rw [View.writes_append]
  rw [View.readAt_eq_ld arg5.view, read_pb _ _ _ _ _ _ _ _ _ _ _ _ _ _ _ _ _ (Nat.le_refl _)]
  rw [View.read_writes_junk_eq_canon, View.canon_unit_zero (S := S1x1) hz, View.ld_unit_zero (S := S1x1) hz]
  simp only [View.readAt_eq_ld, harg1.read_unread, harg2.read_unread, harg3.read_unread,
    View.ld_unit_zero (S := S1024x256) hz]

/-- At the extended reals the recurrence from the zero is the sum, over the trips before `k`, of the trips' sums of
    the pairs' values. -/
theorem accAt_apply (x1 : FVec Ideal S1024x256 .f32) (L2 : Fin k2_t1_loop.trips → FVec Ideal S1024x256 .f32)
    (L3 : Fin k2_t1_loop.trips → FVec Ideal S1x1024 .f32) :
    ∀ (k : ℕ) (hk : k ≤ k2_t1_loop.trips) (y : S1x1.Idx),
      accAt (F := Ideal) (k2_pay1 (F := Ideal)) x1 L2 L3 k y
        = ∑ t : Fin k, ∑ r : Fin 1024, ∑ l : Fin 1024,
            pairVal x1 (L2 ⟨t.val, Nat.lt_of_lt_of_le t.isLt hk⟩) (L3 ⟨t.val, Nat.lt_of_lt_of_le t.isLt hk⟩) r l
  | 0, _, y => by
    rw [Finset.univ_eq_empty, Finset.sum_empty]
    exact k2_pay1_apply y
  | k + 1, hk, y => by
    have h : k < k2_t1_loop.trips := hk
    rw [Fin.sum_univ_castSucc, accAt, dif_pos h, k2_pay2_apply, accAt_apply x1 L2 L3 k (Nat.le_of_lt h)]
    rfl

/-- THE OUTPUT BLOCK at the extended reals: at every element, the sum over the eight chunks, the block's rows and the
    chunk's rows of the pair's value, times the word `2⁻¹⁰`. -/
theorem out2_3_apply (c : Dev nD) (i : grid2.Coords) (arg1 : Memref sig .tc .vmem S1024x256 .f32) (harg1 : arg1.IsWhole) (arg2 : Memref sig .tc .vmem S8192x256 .f32) (harg2 : arg2.IsWhole) (arg3 : Memref sig .tc .vmem S1x8192 .f32) (harg3 : arg3.IsWhole) (arg4 : Memref sig .tc .vmem S8x128 .f32) (harg4 : arg4.IsWhole) (arg5 : Memref sig .tc .vmem S1x1 .f32) (harg5 : arg5.IsWhole)
    (x1 : FVec Ideal S1024x256 .f32) (x2 : FVec Ideal S8192x256 .f32) (x3 : FVec Ideal S1x8192 .f32) (y : S8x128.Idx) :
    out2_3 (F := Ideal) c i arg1 harg1 arg2 harg2 arg3 harg3 arg4 harg4 arg5 harg5 x1 x2 x3 y
      = (∑ k : Fin 8, ∑ r : Fin 1024, ∑ l : Fin 1024, pairVal x1 (chunk2 x2 k) (chunk3 x3 k) r l)
          * Ideal.ofBits .f32 0x3A800000#32 := by
  rw [out2_3_eq, k2_pay3_apply, accAt_apply _ _ _ _ (Nat.le_refl _)]
  refine congrArg (· * Ideal.ofBits .f32 0x3A800000#32) ?_
  refine Eq.trans ?_ (Equiv.sum_comp (finCongr trips_eq) fun k : Fin 8 =>
    ∑ r : Fin 1024, ∑ l : Fin 1024, pairVal x1 (chunk2 x2 k) (chunk3 x3 k) r l)
  refine Finset.sum_congr rfl fun t _ => ?_
  rw [ld_chunk2 x2 (Fin.cast trips_eq t) _ (k2_off1_eq t), ld_chunk3 x3 (Fin.cast trips_eq t) _ (k2_off2_eq t)]
  rfl

end Cert.KernelIdeal.OutVal2

end
-- ==== Proof.KIValue.lean ====
/-
  The kernel program's value.

  Each region's body leaves, in every element of its 8 × 128 block at point t, the 1024th part of the sum over the
  eight chunks of the resident operand, the block's 1024 rows and the chunk's 1024 rows, of the pair's value. The
  blocks the body reads are rows of the argument arrays as launched (no item writes an argument) and the row of
  sums of squares the host computed just before the region; so each region's output has the specification's mean —
  of x against x, of y against y, of x against y — and the host's last operations make of the three
  (mean(x, x) + mean(y, y)) − 2·mean(x, y), the specification's discrepancy.
-/
import proofs.«117639_j82652350644520_2_alg».proof.Proof.KIFinal
import proofs.«117639_j82652350644520_2_alg».proof.Proof.KIOut0
import proofs.«117639_j82652350644520_2_alg».proof.Proof.KIOut1
import proofs.«117639_j82652350644520_2_alg».proof.Proof.KIOut2

set_option maxRecDepth 16384

noncomputable section

open scoped BigOperators

namespace Cert.KernelIdeal.Value

open Cert.KernelIdeal Cert.KernelIdeal.Gen Cert.KernelIdeal.Hand Cert.KernelIdeal.Pay Cert.KernelIdeal.OutVal
  Cert.KernelIdeal.HostVal Cert.KernelIdeal.Final
open Idealize.ShloMosaic Idealize.ShloMosaic.TcCoe Idealize.ShloMosaic.ValueIdx Idealize.SL.Sem

variable (m : (ℓ : Loc nD τ sig) → Buf (Elt Ideal) ℓ)

/-- What the first region leaves has the mean of the first argument array against itself: every block of eight rows of its output holds the 1024th part of the sum, over the eight chunks, of the pairs' values of the block's rows against the chunk's. -/
theorem mean_o2 (c : Dev nD) :
    mean2 (o2 (F := Ideal) m c) = Cert.Mmd.rbfMean (m ((c.tc : Thread nD τ).loc main_arg0)) (m ((c.tc : Thread nD τ).loc main_arg0)) := by
  have hX : E1 (F := Ideal) m c main_arg0 = m ((c.tc : Thread nD τ).loc main_arg0) := HostVal.V1_main_arg0 m c
  have hY : E1 (F := Ideal) m c main_arg0 = m ((c.tc : Thread nD τ).loc main_arg0) := HostVal.V1_main_arg0 m c
  have hS : ∀ j : S1x8192.Idx, E1 (F := Ideal) m c main_v3 j = Cert.Mmd.sq (m ((c.tc : Thread nD τ).loc main_arg0)) (j 1) :=
    fun j => congrFun (HostVal.V1_main_v3 m c) j
  refine region_mean (m ((c.tc : Thread nD τ).loc main_arg0)) (m ((c.tc : Thread nD τ).loc main_arg0)) (E1 (F := Ideal) m c main_v3) hS
    (fun t => iblk0 (E1 (F := Ideal) m) c 0 ⟨t.val, Nat.lt_of_lt_of_eq t.isLt N_0.symm⟩)
    (fun t r q => by rw [iblk0_0_apply, hX]) (o2 (F := Ideal) m c) (fun t p b => ?_)
  refine final0_apply (E1 (F := Ideal) m) c
    (fun t => ∑ k : Fin 8, ∑ r : Fin 1024, ∑ l : Fin 1024,
      pairVal (iblk0 (E1 (F := Ideal) m) c 0 ⟨t.val, Nat.lt_of_lt_of_eq t.isLt N_0.symm⟩) (chunk2 (m ((c.tc : Thread nD τ).loc main_arg0)) k)
        (chunk3 (E1 (F := Ideal) m c main_v3) k) r l)
    (fun t y => ?_) t p b
  unfold outAt0
  rw [OutVal0.out0_3_apply, iblk0_1_eq, iblk0_2_eq, hY]

/-- What the second region leaves has the mean of the second argument array against itself. -/
theorem mean_o4 (c : Dev nD) :
    mean2 (o4 (F := Ideal) m c) = Cert.Mmd.rbfMean (m ((c.tc : Thread nD τ).loc main_arg1)) (m ((c.tc : Thread nD τ).loc main_arg1)) := by
  have hX : E3 (F := Ideal) m c main_arg1 = m ((c.tc : Thread nD τ).loc main_arg1) := HostVal.V3_main_arg1 m (outs1 m) c
  have hY : E3 (F := Ideal) m c main_arg1 = m ((c.tc : Thread nD τ).loc main_arg1) := HostVal.V3_main_arg1 m (outs1 m) c
  have hS : ∀ j : S1x8192.Idx, E3 (F := Ideal) m c main_v10 j = Cert.Mmd.sq (m ((c.tc : Thread nD τ).loc main_arg1)) (j 1) :=
    fun j => congrFun (HostVal.V3_main_v10 m (outs1 m) c) j
  refine region_mean (m ((c.tc : Thread nD τ).loc main_arg1)) (m ((c.tc : Thread nD τ).loc main_arg1)) (E3 (F := Ideal) m c main_v10) hS
    (fun t => iblk1 (E3 (F := Ideal) m) c 0 ⟨t.val, Nat.lt_of_lt_of_eq t.isLt N_1.symm⟩)
    (fun t r q => by rw [iblk1_0_apply, hX]) (o4 (F := Ideal) m c) (fun t p b => ?_)
  refine final1_apply (E3 (F := Ideal) m) c
    (fun t => ∑ k : Fin 8, ∑ r : Fin 1024, ∑ l : Fin 1024,
      pairVal (iblk1 (E3 (F := Ideal) m) c 0 ⟨t.val, Nat.lt_of_lt_of_eq t.isLt N_1.symm⟩) (chunk2 (m ((c.tc : Thread nD τ).loc main_arg1)) k)
        (chunk3 (E3 (F := Ideal) m c main_v10) k) r l)
    (fun t y => ?_) t p b
  unfold outAt1
  rw [OutVal1.out1_3_apply, iblk1_1_eq, iblk1_2_eq, hY]

/-- What the third region leaves has the mean of the first argument array against the second. -/
theorem mean_o6 (c : Dev nD) :
    mean2 (o6 (F := Ideal) m c) = Cert.Mmd.rbfMean (m ((c.tc : Thread nD τ).loc main_arg0)) (m ((c.tc : Thread nD τ).loc main_arg1)) := by
  have hX : E5 (F := Ideal) m c main_arg0 = m ((c.tc : Thread nD τ).loc main_arg0) := HostVal.V5_main_arg0 m (outs2 m) c
  have hY : E5 (F := Ideal) m c main_arg1 = m ((c.tc : Thread nD τ).loc main_arg1) := HostVal.V5_main_arg1 m (outs2 m) c
  have hS : ∀ j : S1x8192.Idx, E5 (F := Ideal) m c main_v17 j = Cert.Mmd.sq (m ((c.tc : Thread nD τ).loc main_arg1)) (j 1) :=
    fun j => congrFun (HostVal.V5_main_v17 m (outs2 m) c) j
  refine region_mean (m ((c.tc : Thread nD τ).loc main_arg0)) (m ((c.tc : Thread nD τ).loc main_arg1)) (E5 (F := Ideal) m c main_v17) hS
    (fun t => iblk2 (E5 (F := Ideal) m) c 0 ⟨t.val, Nat.lt_of_lt_of_eq t.isLt N_2.symm⟩)
    (fun t r q => by rw [iblk2_0_apply, hX]) (o6 (F := Ideal) m c) (fun t p b => ?_)
  refine final2_apply (E5 (F := Ideal) m) c
    (fun t => ∑ k : Fin 8, ∑ r : Fin 1024, ∑ l : Fin 1024,
      pairVal (iblk2 (E5 (F := Ideal) m) c 0 ⟨t.val, Nat.lt_of_lt_of_eq t.isLt N_2.symm⟩) (chunk2 (m ((c.tc : Thread nD τ).loc main_arg1)) k)
        (chunk3 (E5 (F := Ideal) m c main_v17) k) r l)
    (fun t y => ?_) t p b
  unfold outAt2
  rw [OutVal2.out2_3_apply, iblk2_1_eq, iblk2_2_eq, hY]

/-- The kernel program's result buffer, after its three regions and the host operations between and after them, holds
    the specification's discrepancy of the two argument arrays: the first region's mean plus the second's, minus twice
    the third's. -/
theorem kernel_value (m : (ℓ : Loc nD τ sig) → Buf (Elt Ideal) ℓ) (c : Dev nD) :
    Gen.V7 m (Hand.outs (F := Ideal) m) c main_v23
      = fun _ => Cert.Mmd.mmd (m ((c.tc : Thread nD τ).loc main_arg0)) (m ((c.tc : Thread nD τ).loc main_arg1)) := by
  rw [HostVal.V7_main_v23 m (Hand.outs (F := Ideal) m) c, outs_v4, outs_v11, outs_v18, mean_o2, mean_o4, mean_o6]
  rfl

end Cert.KernelIdeal.Value

end
-- ==== Proof.lean ====
/-
  Two programs compute the squared maximum-mean discrepancy, under a radial kernel, of two sets of 8192 feature
  vectors of dimension 256, and they agree over the extended reals.

  For feature arrays x and y the value of the pair (row i of x, row j of y) is
      exp( sqrt( max( (|x_i|² + |y_j|²) − 2·⟨x_i, y_j⟩ , ε ) ) · (−1/512) ),
  the mean over all 8192² pairs is the sum divided by 2²⁶, and the result is (mean(x,x) + mean(y,y)) − 2·mean(x,y).

  The reference computes each mean on whole 8192 × 8192 arrays; it negates the root and divides by 512, which on
  every extended real is the product with −1/512. The kernel program computes each mean by a pipelined region of
  eight grid points: a point takes 1024 rows of the first operand, walks the second operand in eight chunks of 1024
  rows, adds every chunk's sum of pair values into a 1×1 accumulator, and writes the accumulator times 1/1024 over an
  8 × 128 output block; the host then sums all 64 × 128 entries — 1024 copies of a/1024 sum to a for every extended
  real a — and divides by 2²⁶. A sum over 8192 × 8192 pairs taken tile by tile is the whole sum, in any commutative
  monoid, so no finiteness of the inputs is used.

  The frames: each program terminates from any memory and leaves its two argument arrays as launched. For the
  kernel programs this is the launch over @main's seven items (four host stretches, three kernel regions); two of the
  regions read one array through two windows, which the core holds for them at the two halves of the full share.
  The ideal pass rewrote nothing, so the idealized kernel is the kernel's own text read over the extended reals.
-/
import proofs.«117639_j82652350644520_2_alg».proof.Defs
import proofs.«117639_j82652350644520_2_alg».proof.Proof.Gen.Kernel
import proofs.«117639_j82652350644520_2_alg».proof.Proof.Gen.KernelIdeal
import proofs.«117639_j82652350644520_2_alg».proof.Proof.Gen.ReferenceIdeal
import proofs.«117639_j82652350644520_2_alg».proof.Proof.Gen.Pre_finite_inputs
import proofs.«117639_j82652350644520_2_alg».proof.Proof.KRunAll
import proofs.«117639_j82652350644520_2_alg».proof.Proof.KIRunAll
import proofs.«117639_j82652350644520_2_alg».proof.Proof.RefValue
import proofs.«117639_j82652350644520_2_alg».proof.Proof.KIValue
import Idealize.ShloMosaic.Adequacy
import Idealize.ShloMosaic.Init

noncomputable section

namespace Cert.Proof

open Idealize.ShloMosaic Idealize.ShloMosaic.TcCoe Idealize.SL.Sem

/-- The word-level kernel program terminates and leaves its arguments as launched. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.run_mmd m ρ)

/-- Both idealized programs end at the discrepancy of the arguments. -/
theorem algebraic : Cert.algebraic_KernelIdeal_ReferenceIdeal := by
  intro m ρ m' ρ' _ hagree
  refine ⟨fun c => fun _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Hand.mem_uc Cert.KernelIdeal.main_v23 (by decide))).trans (Cert.KernelIdeal.Value.kernel_value m c),
       (h c _ (Cert.KernelIdeal.Hand.mem_uc Cert.KernelIdeal.main_arg0 (by decide))).trans (Cert.KernelIdeal.Gen.V7_main_arg0 m (Cert.KernelIdeal.Hand.outs m) c),
       (h c _ (Cert.KernelIdeal.Hand.mem_uc Cert.KernelIdeal.main_arg1 (by decide))).trans (Cert.KernelIdeal.Gen.V7_main_arg1 m (Cert.KernelIdeal.Hand.outs m) c)⟩)
      (Cert.KernelIdeal.Hand.run_all (F := Ideal) m ρ)
  · exact (θ_run Cert.ReferenceIdeal.defs _ _).mono (fun r h c =>
      ⟨(h c).1.trans (by rw [(hagree c).1, (hagree c).2]; rfl), (h c).2.1, (h c).2.2⟩)
      (Cert.ReferenceIdeal.RefValue.run_mmd m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
